-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x500000 : Shape := ⟨2, ![2, 500000]⟩
abbrev S2x3x128x128 : Shape := ⟨4, ![2, 3, 128, 128]⟩
abbrev S2x3x128 : Shape := ⟨3, ![2, 3, 128]⟩
abbrev S128x128 : Shape := ⟨2, ![128, 128]⟩
abbrev S2x2x128 : Shape := ⟨3, ![2, 2, 128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x128 : S_.BroadcastsInDim S128x128 (![] : Fin 0 → Fin S128x128.rank)
  reducesTo_S128x128_S_d0_1 : S128x128.ReducesTo [0, 1] S_
  bcast_S_S2x2x128 : S_.BroadcastsInDim S2x2x128 (![] : Fin 0 → Fin S2x2x128.rank)
  reducesTo_S2x2x128_S_d0_1_2 : S2x2x128.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg10 : FVec F S2x2x128 .f32) (main_arg11 : FVec F S2x2x128 .f32) (main_arg12 : FVec F S128x16 .f32) (main_arg13 : FVec F S16 .f32) (main_v33 : IVec S_ 1) : IVec S_ 1 :=
  let main_v34 : FVec F S2x2x128 .f32 := Host.absf main_arg10
  let main_cst_12 : FVec F S_ .f32 := constant S_ .f32 0x7F800000#32
  let main_v35 : FVec F S2x2x128 .f32 := broadcastInDim S2x2x128 ![] bcast_S_S2x2x128 main_cst_12
  let main_v36 : IVec S2x2x128 1 := cmpf .olt main_v34 main_v35
  let main_c_13 : IVec S_ 1 := constantI S_ 1 1#1
  let main_v37 : IVec S_ 1 := (fun x v => Host.reduce IntOp.andi x v reducesTo_S2x2x128_S_d0_1_2 h_S_) main_v36 main_c_13
  let main_v38 : IVec S_ 1 := andi main_v33 main_v37
  let main_v39 : FVec F S2x2x128 .f32 := Host.absf main_arg11
  let main_cst_14 : FVec F S_ .f32 := constant S_ .f32 0x7F800000#32
  let main_v40 : FVec F S2x2x128 .f32 := broadcastInDim S2x2x128 ![] bcast_S_S2x2x128 main_cst_14
  let main_v41 : IVec S2x2x128 1 := cmpf .olt main_v39 main_v40
  let main_c_15 : IVec S_ 1 := constantI S_ 1 1#1
  let main_v42 : IVec S_ 1 := (fun x v => Host.reduce IntOp.andi x v reducesTo_S2x2x128_S_d0_1_2 h_S_) main_v41 main_c_15
  let main_v43 : IVec S_ 1 := andi main_v38 main_v42
  let main_v44 : FVec F S128x16 .f32 := Host.absf main_arg12
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg13
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg7 : FVec F S2x3x128 .f32) (main_arg8 : FVec F S128x128 .f32) (main_arg9 : FVec F S128x128 .f32) (main_arg10 : FVec F S2x2x128 .f32) (main_arg11 : FVec F S2x2x128 .f32) (main_arg12 : FVec F S128x16 .f32) (main_arg13 : FVec F S16 .f32) (main_v13 : IVec S_ 1) (main_v16 : IVec S2x3x128x128 1) : IVec S_ 1 :=
  let main_c_5 : IVec S_ 1 := constantI S_ 1 1#1
  let main_v17 : IVec S_ 1 := (fun x v => Host.reduce IntOp.andi x v reducesTo_S2x3x128x128_S_d0_1_2_3 h_S_) main_v16 main_c_5
  let main_v18 : IVec S_ 1 := andi main_v13 main_v17
  let main_v19 : FVec F S2x3x128 .f32 := Host.absf main_arg7
  let main_cst_6 : FVec F S_ .f32 := constant S_ .f32 0x7F800000#32
  let main_v20 : FVec F S2x3x128 .f32 := broadcastInDim S2x3x128 ![] bcast_S_S2x3x128 main_cst_6
  let main_v21 : IVec S2x3x128 1 := cmpf .olt main_v19 main_v20
  let main_c_7 : IVec S_ 1 := constantI S_ 1 1#1
  let main_v22 : IVec S_ 1 := (fun x v => Host.reduce IntOp.andi x v reducesTo_S2x3x128_S_d0_1_2 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : FVec F S50000x128 .f32) (main_arg2 : IVec S2x500000 32) (main_arg3 : IVec S2x500000 32) (main_arg4 : IVec S2x500000 32) (main_arg5 : FVec F S2x3x128x128 .f32) (main_arg6 : FVec F S2x3x128x128 .f32) (main_arg7 : FVec F S2x3x128 .f32) (main_arg8 : FVec F S128x128 .f32) (main_arg9 : FVec F S128x128 .f32) (main_arg10 : FVec F S2x2x128 .f32) (main_arg11 : FVec F S2x2x128 .f32) (main_arg12 : FVec F S128x16 .f32) (main_arg13 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x3x128x128 .f32 := Host.absf main_arg5
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128x128 .f32 := Host.absf main_arg6
  let main_cst_4 : FVec F S_ .f32 := constant S_ .f32 0x7F800000#32
  let main_v15 : FVec F S2x3x128x128 .f32 := broadcastInDim S2x3x128x128 ![] bcast_S_S2x3x128x128 main_cst_4
  let main_v16 : IVec S2x3x128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S50000x128 : Shape := ⟨2, ![50000, 128]⟩
abbrev S2x500000 : Shape := ⟨2, ![2, 500000]⟩
abbrev S2x3x128x128 : Shape := ⟨4, ![2, 3, 128, 128]⟩
abbrev S2x3x128 : Shape := ⟨3, ![2, 3, 128]⟩
abbrev S128x128 : Shape := ⟨2, ![128, 128]⟩
abbrev S2x2x128 : Shape := ⟨3, ![2, 2, 128]⟩
abbrev S128x16 : Shape := ⟨2, ![128, 16]⟩
abbrev S16 : Shape := ⟨1, ![16]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S50000 : Shape := ⟨1, ![50000]⟩
abbrev S50000x1 : Shape := ⟨2, ![50000, 1]⟩
abbrev S500000x128 : Shape := ⟨2, ![500000, 128]⟩
abbrev S1x1x128x128 : Shape := ⟨4, ![1, 1, 128, 128]⟩
abbrev S1x1x128 : Shape := ⟨3, ![1, 1, 128]⟩
abbrev S128 : Shape := ⟨1, ![128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S5000x128 : Shape := ⟨2, ![5000, 128]⟩
abbrev S5000x1 : Shape := ⟨2, ![5000, 1]⟩
abbrev S5000 : Shape := ⟨1, ![5000]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 222
  | .vmem => 53
  | .smem => 0
  | _ => 0

abbrev hbmTy0_0 (i : Nat) : BufTy := match i % 128 with
  | 0 => ⟨S100000x128, .f32⟩
  | 1 => ⟨S50000x128, .f32⟩
  | 2 => ⟨S2x500000, .i32⟩
  | 3 => ⟨S2x500000, .i32⟩
  | 4 => ⟨S2x500000, .i32⟩
  | 5 => ⟨S2x3x128x128, .f32⟩
  | 6 => ⟨S2x3x128x128, .f32⟩
  | 7 => ⟨S2x3x128, .f32⟩
  | 8 => ⟨S128x128, .f32⟩
  | 9 => ⟨S128x128, .f32⟩
  | 10 => ⟨S2x2x128, .f32⟩
  | 11 => ⟨S2x2x128, .f32⟩
  | 12 => ⟨S128x16, .f32⟩
  | 13 => ⟨S16, .f32⟩
  | 14 => ⟨S100000x128, .bf16⟩
  | 15 => ⟨S50000x128, .bf16⟩
  | 16 => ⟨S1x500000, .i32⟩
  | 17 => ⟨S500000, .i32⟩
  | 18 => ⟨S_, .f32⟩
  | 19 => ⟨S500000, .f32⟩
  | 20 => ⟨S_, .f32⟩
  | 21 => ⟨S100000, .f32⟩
  | 22 => ⟨S500000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S1x500000, .i32⟩
  | 32 => ⟨S500000, .i32⟩
  | 33 => ⟨S_, .f32⟩
  | 34 => ⟨S500000, .f32⟩
  | 35 => ⟨S_, .f32⟩
  | 36 => ⟨S100000, .f32⟩
  | 37 => ⟨S500000x1, .i32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S1x500000, .i32⟩
  | 47 => ⟨S500000, .i32⟩
  | 48 => ⟨S_, .f32⟩
  | 49 => ⟨S500000, .f32⟩
  | 50 => ⟨S_, .f32⟩
  | 51 => ⟨S50000, .f32⟩
  | 52 => ⟨S500000x1, .i32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x128, .bf16⟩
  | 72 => ⟨S500000x128, .f32⟩
  | 73 => ⟨S1x500000, .i32⟩
  | 74 => ⟨S500000, .i32⟩
  | 75 => ⟨S_, .f32⟩
  | 76 => ⟨S100000x128, .f32⟩
  | 77 => ⟨S500000x1, .i32⟩
  | 78 => ⟨S100000x128, .f32⟩
  | 79 => ⟨S1x500000, .i32⟩
  | 80 => ⟨S500000, .i32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000x128, .bf16⟩
  | 90 => ⟨S500000x128, .f32⟩
  | 91 => ⟨S1x500000, .i32⟩
  | 92 => ⟨S500000, .i32⟩
  | 93 => ⟨S_, .f32⟩
  | 94 => ⟨S100000x128, .f32⟩
  | 95 => ⟨S500000x1, .i32⟩
  | 96 => ⟨S100000x128, .f32⟩
  | 97 => ⟨S1x500000, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .bf16⟩
  | 108 => ⟨S500000x128, .f32⟩
  | 109 => ⟨S1x500000, .i32⟩
  | 110 => ⟨S500000, .i32⟩
  | 111 => ⟨S_, .f32⟩
  | 112 => ⟨S50000x128, .f32⟩
  | 113 => ⟨S500000x1, .i32⟩
  | 114 => ⟨S50000x128, .f32⟩
  | 115 => ⟨S1x1x128x128, .f32⟩
  | 116 => ⟨S128x128, .f32⟩
  | 117 => ⟨S128x128, .f32⟩
  | 118 => ⟨S1x1x128x128, .f32⟩
  | 119 => ⟨S128x128, .f32⟩
  | 120 => ⟨S128x128, .f32⟩
  | 121 => ⟨S1x1x128x128, .f32⟩
  | 122 => ⟨S128x128, .f32⟩
  | 123 => ⟨S1x1x128x128, .f32⟩
  | 124 => ⟨S128x128, .f32⟩
  | 125 => ⟨S128x128, .f32⟩
  | 126 => ⟨S128x128, .f32⟩
  | 127 => ⟨S1x1x128, .f32⟩
  | _ => ⟨S100000x128, .f32⟩

abbrev hbmTy0_1 (i : Nat) : BufTy := match i % 128 with
  | 0 => ⟨S128, .f32⟩
  | 1 => ⟨S1x1x128, .f32⟩
  | 2 => ⟨S128, .f32⟩
  | 3 => ⟨S128, .f32⟩
  | 4 => ⟨S1x128, .f32⟩
  | 5 => ⟨S128x128, .f32⟩
  | 6 => ⟨S1x1x128, .f32⟩
  | 7 => ⟨S128, .f32⟩
  | 8 => ⟨S1x128, .f32⟩
  | 9 => ⟨S1x1x128, .f32⟩
  | 10 => ⟨S128, .f32⟩
  | 11 => ⟨S1x128, .f32⟩
  | 12 => ⟨S100000x128, .f32⟩
  | 13 => ⟨S1x1x128x128, .f32⟩
  | 14 => ⟨S128x128, .f32⟩
  | 15 => ⟨S128x128, .f32⟩
  | 16 => ⟨S1x1x128x128, .f32⟩
  | 17 => ⟨S128x128, .f32⟩
  | 18 => ⟨S128x128, .f32⟩
  | 19 => ⟨S1x1x128, .f32⟩
  | 20 => ⟨S128, .f32⟩
  | 21 => ⟨S1x128, .f32⟩
  | 22 => ⟨S128x128, .f32⟩
  | 23 => ⟨S1x1x128, .f32⟩
  | 24 => ⟨S128, .f32⟩
  | 25 => ⟨S1x128, .f32⟩
  | 26 => ⟨S1x1x128, .f32⟩
  | 27 => ⟨S128, .f32⟩
  | 28 => ⟨S1x128, .f32⟩
  | 29 => ⟨S50000x128, .f32⟩
  | 30 => ⟨S100000x128, .bf16⟩
  | 31 => ⟨S50000x128, .bf16⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .bf16⟩
  | 43 => ⟨S500000x128, .f32⟩
  | 44 => ⟨S1x500000, .i32⟩
  | 45 => ⟨S500000, .i32⟩
  | 46 => ⟨S_, .f32⟩
  | 47 => ⟨S100000x128, .f32⟩
  | 48 => ⟨S500000x1, .i32⟩
  | 49 => ⟨S100000x128, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .bf16⟩
  | 61 => ⟨S500000x128, .f32⟩
  | 62 => ⟨S1x500000, .i32⟩
  | 63 => ⟨S500000, .i32⟩
  | 64 => ⟨S_, .f32⟩
  | 65 => ⟨S100000x128, .f32⟩
  | 66 => ⟨S500000x1, .i32⟩
  | 67 => ⟨S100000x128, .f32⟩
  | 68 => ⟨S1x1x128x128, .f32⟩
  | 69 => ⟨S128x128, .f32⟩
  | 70 => ⟨S128x128, .f32⟩
  | 71 => ⟨S1x1x128x128, .f32⟩
  | 72 => ⟨S128x128, .f32⟩
  | 73 => ⟨S128x128, .f32⟩
  | 74 => ⟨S1x1x128x128, .f32⟩
  | 75 => ⟨S128x128, .f32⟩
  | 76 => ⟨S1x1x128x128, .f32⟩
  | 77 => ⟨S128x128, .f32⟩
  | 78 => ⟨S128x128, .f32⟩
  | 79 => ⟨S128x128, .f32⟩
  | 80 => ⟨S1x1x128, .f32⟩
  | 81 => ⟨S128, .f32⟩
  | 82 => ⟨S1x1x128, .f32⟩
  | 83 => ⟨S128, .f32⟩
  | 84 => ⟨S128, .f32⟩
  | 85 => ⟨S1x128, .f32⟩
  | 86 => ⟨S1x1x128, .f32⟩
  | 87 => ⟨S128, .f32⟩
  | 88 => ⟨S1x128, .f32⟩
  | 89 => ⟨S1x1x128, .f32⟩
  | 90 => ⟨S128, .f32⟩
  | 91 => ⟨S1x128, .f32⟩
  | 92 => ⟨S1x16, .f32⟩
  | 93 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .f32⟩
  | .local _ .vmem, ⟨36, _⟩ => ⟨S4000x1, .f32⟩
  | .local _ .vmem, ⟨37, _⟩ => ⟨S4000x128, .f32⟩
  | .local _ .vmem, ⟨38, _⟩ => ⟨S4000x128, .f32⟩
  | .local _ .vmem, ⟨39, _⟩ => ⟨S4000x1, .f32⟩
  | .local _ .vmem, ⟨40, _⟩ => ⟨S4000x1, .f32⟩
  | .local _ .vmem, ⟨41, _⟩ => ⟨S4000x128, .f32⟩
  | .local _ .vmem, ⟨42, _⟩ => ⟨S4000x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S128x16, .f32⟩
  | .local _ .vmem, ⟨50, _⟩ => ⟨S1x16, .f32⟩
  | .local _ .vmem, ⟨51, _⟩ => ⟨S4000x16, .f32⟩
  | .local _ .vmem, ⟨52, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_19 : Ref sig .tc := ⟨.hbm, 162, rfl⟩
abbrev main_v127 : Ref sig .tc := ⟨.hbm, 163, rfl⟩
abbrev main_v128 : Ref sig .tc := ⟨.hbm, 164, rfl⟩
abbrev main_c_20 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_21 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_22 : Ref sig .tc := ⟨.hbm, 180, rfl⟩
abbrev main_v142 : Ref sig .tc := ⟨.hbm, 181, rfl⟩
abbrev main_v143 : Ref sig .tc := ⟨.hbm, 182, rfl⟩
abbrev main_c_23 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_24 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg13_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem13_1 : DmaSem sig := 52

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4000x16 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  bitsLt_bf16_f32 : FTy.bits .bf16 < FTy.bits .f32
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  bcast_S_S50000 : S_.BroadcastsInDim S50000 (![] : Fin 0 → Fin S50000.rank)
  shapeCasts_S50000_S50000x1 : S50000.ShapeCasts S50000x1
  slices_S2x500000_S1x500000_0_0 : S2x500000.Slices ![0, 0] S1x500000
  bcast_S_S100000x128 : S_.BroadcastsInDim S100000x128 (![] : Fin 0 → Fin S100000x128.rank)
  bcast_S_S50000x128 : S_.BroadcastsInDim S50000x128 (![] : Fin 0 → Fin S50000x128.rank)
  slices_S2x3x128x128_S1x1x128x128_0_0_0_0 : S2x3x128x128.Slices ![0, 0, 0, 0] S1x1x128x128
  shapeCasts_S1x1x128x128_S128x128 : S1x1x128x128.ShapeCasts S128x128
  transposes_S128x128_S128x128_1_0 : S128x128.Transposes [1, 0] S128x128
  slices_S2x3x128x128_S1x1x128x128_0_1_0_0 : S2x3x128x128.Slices ![0, 1, 0, 0] S1x1x128x128
  slices_S2x3x128_S1x1x128_0_0_0 : S2x3x128.Slices ![0, 0, 0] S1x1x128
  shapeCasts_S1x1x128_S128 : S1x1x128.ShapeCasts S128
  slices_S2x3x128_S1x1x128_0_1_0 : S2x3x128.Slices ![0, 1, 0] S1x1x128
  shapeCasts_S128_S1x128 : S128.ShapeCasts S1x128
  slices_S2x2x128_S1x1x128_0_0_0 : S2x2x128.Slices ![0, 0, 0] S1x1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x2x128_S1x1x128_0_1_0 : S2x2x128.Slices ![0, 1, 0] S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  slices_S2x3x128x128_S1x1x128x128_1_0_0_0 : S2x3x128x128.Slices ![1, 0, 0, 0] S1x1x128x128
  slices_S2x3x128x128_S1x1x128x128_1_1_0_0 : S2x3x128x128.Slices ![1, 1, 0, 0] S1x1x128x128
  slices_S2x3x128_S1x1x128_1_0_0 : S2x3x128.Slices ![1, 0, 0] S1x1x128
  slices_S2x3x128_S1x1x128_1_1_0 : S2x3x128.Slices ![1, 1, 0] S1x1x128
  slices_S2x2x128_S1x1x128_1_0_0 : S2x2x128.Slices ![1, 0, 0] S1x1x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S500000x1_S500000_n_0_0_1_wf : ScatterDims.WF S100000 S500000x1 S500000 [] [0] [0] 1
  scatter_S50000_S500000x1_S500000_n_0_0_1_wf : ScatterDims.WF S50000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S4000x128_S128x128_S4000x128_1_0_0_1_n_n_wf : DotDims.WF S4000x128 S128x128 S4000x128 [1] [0] [0] [1] [] []
  dot_S5000x128_S128x128_S5000x128_1_0_0_1_n_n_wf : DotDims.WF S5000x128 S128x128 S5000x128 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S100000x128.size a
  hwx0_12 : ∀ i : grid0.Coords, EltTy.bits .f32 = 32 ∨ (Rect.block (s := S100000x128) S4000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x16.size a ≤ S128x16.size a
  hwx2_11 : ∀ i : grid2.Coords, EltTy.bits .f32 = 32 ∨ (Rect.block (s := S128x16) S128x16.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x16.size a ≤ S1x16.size a
  hwx2_12 : ∀ i : grid2.Coords, EltTy.bits .f32 = 32 ∨ (Rect.block (s := S1x16) S1x16.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4000x16.size a ≤ S100000x16.size a
  hwx2_13 : ∀ i : grid2.Coords, EltTy.bits .f32 = 32 ∨ (Rect.block (s := S100000x16) S4000x16.size (cc2_transform_13 i) (hinb2_13 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_v49) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v82) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v85) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v91) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v97) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v98) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v101) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v104) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v105) S4000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v79) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v108) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v111) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v114) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v118) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v121) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v122) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v139) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v154) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v105) S4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v157) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v160) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v166) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v172) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v175) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v178) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg12) S128x16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v179) S1x16.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v180) S4000x16.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x500000 : Shape := ⟨2, ![2, 500000]⟩
abbrev S2x3x128x128 : Shape := ⟨4, ![2, 3, 128, 128]⟩
abbrev S2x3x128 : Shape := ⟨3, ![2, 3, 128]⟩
abbrev S128x128 : Shape := ⟨2, ![128, 128]⟩
abbrev S2x2x128 : Shape := ⟨3, ![2, 2, 128]⟩
abbrev S128x16 : Shape := ⟨2, ![128, 16]⟩
abbrev S16 : Shape := ⟨1, ![16]⟩
abbrev S1x1x128x128 : Shape := ⟨4, ![1, 1, 128, 128]⟩
abbrev S1x1x128 : Shape := ⟨3, ![1, 1, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S50000 : Shape := ⟨1, ![50000]⟩
abbrev S50000x1 : Shape := ⟨2, ![50000, 1]⟩
abbrev S100000x16 : Shape := ⟨2, ![100000, 16]⟩
abbrev S1x16 : Shape := ⟨2, ![1, 16]⟩

abbrev nBuf : Space → Nat
  | .hbm => 440
  | .vmem => 0
  | .smem => 0
  | _ => 0

abbrev hbmTy0_0 (i : Nat) : BufTy := match i % 128 with
  | 0 => ⟨S100000x128, .f32⟩
  | 1 => ⟨S50000x128, .f32⟩
  | 2 => ⟨S2x500000, .i32⟩
  | 3 => ⟨S2x500000, .i32⟩
  | 4 => ⟨S2x500000, .i32⟩
  | 5 => ⟨S2x3x128x128, .f32⟩
  | 6 => ⟨S2x3x128x128, .f32⟩
  | 7 => ⟨S2x3x128, .f32⟩
  | 8 => ⟨S128x128, .f32⟩
  | 9 => ⟨S128x128, .f32⟩
  | 10 => ⟨S2x2x128, .f32⟩
  | 11 => ⟨S2x2x128, .f32⟩
  | 12 => ⟨S128x16, .f32⟩
  | 13 => ⟨S16, .f32⟩
  | 14 => ⟨S1x1x128x128, .f32⟩
  | 15 => ⟨S128x128, .f32⟩
  | 16 => ⟨S1x1x128x128, .f32⟩
  | 17 => ⟨S128x128, .f32⟩
  | 18 => ⟨S1x1x128, .f32⟩
  | 19 => ⟨S128, .f32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S1x500000, .i32⟩
  | 32 => ⟨S500000, .i32⟩
  | 33 => ⟨S_, .f32⟩
  | 34 => ⟨S100000x128, .f32⟩
  | 35 => ⟨S500000x1, .i32⟩
  | 36 => ⟨S100000x128, .f32⟩
  | 37 => ⟨S_, .f32⟩
  | 38 => ⟨S500000, .f32⟩
  | 39 => ⟨S1x500000, .i32⟩
  | 40 => ⟨S500000, .i32⟩
  | 41 => ⟨S_, .f32⟩
  | 42 => ⟨S100000, .f32⟩
  | 43 => ⟨S500000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S128x128, .f32⟩
  | 52 => ⟨S100000x128, .f32⟩
  | 53 => ⟨S1x128, .f32⟩
  | 54 => ⟨S100000x128, .f32⟩
  | 55 => ⟨S100000x128, .f32⟩
  | 56 => ⟨S128x128, .f32⟩
  | 57 => ⟨S100000x128, .f32⟩
  | 58 => ⟨S100000x128, .f32⟩
  | 59 => ⟨S1x1x128x128, .f32⟩
  | 60 => ⟨S128x128, .f32⟩
  | 61 => ⟨S1x1x128x128, .f32⟩
  | 62 => ⟨S128x128, .f32⟩
  | 63 => ⟨S1x1x128, .f32⟩
  | 64 => ⟨S128, .f32⟩
  | 65 => ⟨S1x500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S1x500000, .i32⟩
  | 77 => ⟨S500000, .i32⟩
  | 78 => ⟨S_, .f32⟩
  | 79 => ⟨S100000x128, .f32⟩
  | 80 => ⟨S500000x1, .i32⟩
  | 81 => ⟨S100000x128, .f32⟩
  | 82 => ⟨S_, .f32⟩
  | 83 => ⟨S500000, .f32⟩
  | 84 => ⟨S1x500000, .i32⟩
  | 85 => ⟨S500000, .i32⟩
  | 86 => ⟨S_, .f32⟩
  | 87 => ⟨S100000, .f32⟩
  | 88 => ⟨S500000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S128x128, .f32⟩
  | 97 => ⟨S100000x128, .f32⟩
  | 98 => ⟨S1x128, .f32⟩
  | 99 => ⟨S100000x128, .f32⟩
  | 100 => ⟨S100000x128, .f32⟩
  | 101 => ⟨S128x128, .f32⟩
  | 102 => ⟨S100000x128, .f32⟩
  | 103 => ⟨S100000x128, .f32⟩
  | 104 => ⟨S100000x128, .f32⟩
  | 105 => ⟨S1x1x128x128, .f32⟩
  | 106 => ⟨S128x128, .f32⟩
  | 107 => ⟨S1x1x128x128, .f32⟩
  | 108 => ⟨S128x128, .f32⟩
  | 109 => ⟨S1x1x128, .f32⟩
  | 110 => ⟨S128, .f32⟩
  | 111 => ⟨S1x500000, .i32⟩
  | 112 => ⟨S500000, .i32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S1x500000, .i32⟩
  | 123 => ⟨S500000, .i32⟩
  | 124 => ⟨S_, .f32⟩
  | 125 => ⟨S50000x128, .f32⟩
  | 126 => ⟨S500000x1, .i32⟩
  | 127 => ⟨S50000x128, .f32⟩
  | _ => ⟨S100000x128, .f32⟩

abbrev hbmTy0_1 (i : Nat) : BufTy := match i % 128 with
  | 0 => ⟨S_, .f32⟩
  | 1 => ⟨S500000, .f32⟩
  | 2 => ⟨S1x500000, .i32⟩
  | 3 => ⟨S500000, .i32⟩
  | 4 => ⟨S_, .f32⟩
  | 5 => ⟨S50000, .f32⟩
  | 6 => ⟨S500000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x128, .f32⟩
  | 13 => ⟨S50000x128, .f32⟩
  | 14 => ⟨S128x128, .f32⟩
  | 15 => ⟨S50000x128, .f32⟩
  | 16 => ⟨S1x128, .f32⟩
  | 17 => ⟨S50000x128, .f32⟩
  | 18 => ⟨S50000x128, .f32⟩
  | 19 => ⟨S128x128, .f32⟩
  | 20 => ⟨S50000x128, .f32⟩
  | 21 => ⟨S50000x128, .f32⟩
  | 22 => ⟨S128x128, .f32⟩
  | 23 => ⟨S100000x128, .f32⟩
  | 24 => ⟨S100000x128, .f32⟩
  | 25 => ⟨S128x128, .f32⟩
  | 26 => ⟨S50000x128, .f32⟩
  | 27 => ⟨S50000x128, .f32⟩
  | 28 => ⟨S1x1x128, .f32⟩
  | 29 => ⟨S128, .f32⟩
  | 30 => ⟨S1x1x128, .f32⟩
  | 31 => ⟨S128, .f32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x128, .f32⟩
  | 39 => ⟨S100000x128, .f32⟩
  | 40 => ⟨S100000x128, .f32⟩
  | 41 => ⟨S_, .f32⟩
  | 42 => ⟨S100000, .f32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S_, .f32⟩
  | 50 => ⟨S100000x1, .f32⟩
  | 51 => ⟨S100000x1, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x1x128, .f32⟩
  | 65 => ⟨S128, .f32⟩
  | 66 => ⟨S1x1x128, .f32⟩
  | 67 => ⟨S128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x1x128x128, .f32⟩
  | 101 => ⟨S128x128, .f32⟩
  | 102 => ⟨S1x1x128x128, .f32⟩
  | 103 => ⟨S128x128, .f32⟩
  | 104 => ⟨S1x1x128, .f32⟩
  | 105 => ⟨S128, .f32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S1x500000, .i32⟩
  | 118 => ⟨S500000, .i32⟩
  | 119 => ⟨S_, .f32⟩
  | 120 => ⟨S100000x128, .f32⟩
  | 121 => ⟨S500000x1, .i32⟩
  | 122 => ⟨S100000x128, .f32⟩
  | 123 => ⟨S_, .f32⟩
  | 124 => ⟨S500000, .f32⟩
  | 125 => ⟨S1x500000, .i32⟩
  | 126 => ⟨S500000, .i32⟩
  | 127 => ⟨S_, .f32⟩
  | _ => ⟨S100000x128, .f32⟩

abbrev hbmTy0_2 (i : Nat) : BufTy := match i % 128 with
  | 0 => ⟨S100000, .f32⟩
  | 1 => ⟨S500000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S128x128, .f32⟩
  | 15 => ⟨S100000x128, .f32⟩
  | 16 => ⟨S100000x128, .f32⟩
  | 17 => ⟨S1x1x128x128, .f32⟩
  | 18 => ⟨S128x128, .f32⟩
  | 19 => ⟨S1x1x128x128, .f32⟩
  | 20 => ⟨S128x128, .f32⟩
  | 21 => ⟨S1x1x128, .f32⟩
  | 22 => ⟨S128, .f32⟩
  | 23 => ⟨S1x500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S1x500000, .i32⟩
  | 35 => ⟨S500000, .i32⟩
  | 36 => ⟨S_, .f32⟩
  | 37 => ⟨S100000x128, .f32⟩
  | 38 => ⟨S500000x1, .i32⟩
  | 39 => ⟨S100000x128, .f32⟩
  | 40 => ⟨S_, .f32⟩
  | 41 => ⟨S500000, .f32⟩
  | 42 => ⟨S1x500000, .i32⟩
  | 43 => ⟨S500000, .i32⟩
  | 44 => ⟨S_, .f32⟩
  | 45 => ⟨S100000, .f32⟩
  | 46 => ⟨S500000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S128x128, .f32⟩
  | 55 => ⟨S100000x128, .f32⟩
  | 56 => ⟨S1x128, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S100000x128, .f32⟩
  | 63 => ⟨S1x1x128x128, .f32⟩
  | 64 => ⟨S128x128, .f32⟩
  | 65 => ⟨S1x1x128x128, .f32⟩
  | 66 => ⟨S128x128, .f32⟩
  | 67 => ⟨S1x1x128, .f32⟩
  | 68 => ⟨S128, .f32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S1x500000, .i32⟩
  | 81 => ⟨S500000, .i32⟩
  | 82 => ⟨S_, .f32⟩
  | 83 => ⟨S50000x128, .f32⟩
  | 84 => ⟨S500000x1, .i32⟩
  | 85 => ⟨S50000x128, .f32⟩
  | 86 => ⟨S_, .f32⟩
  | 87 => ⟨S500000, .f32⟩
  | 88 => ⟨S1x500000, .i32⟩
  | 89 => ⟨S500000, .i32⟩
  | 90 => ⟨S_, .f32⟩
  | 91 => ⟨S50000, .f32⟩
  | 92 => ⟨S500000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S128x128, .f32⟩
  | 101 => ⟨S50000x128, .f32⟩
  | 102 => ⟨S1x128, .f32⟩
  | 103 => ⟨S50000x128, .f32⟩
  | 104 => ⟨S50000x128, .f32⟩
  | 105 => ⟨S128x128, .f32⟩
  | 106 => ⟨S50000x128, .f32⟩
  | 107 => ⟨S50000x128, .f32⟩
  | 108 => ⟨S1x1x128, .f32⟩
  | 109 => ⟨S128, .f32⟩
  | 110 => ⟨S1x1x128, .f32⟩
  | 111 => ⟨S128, .f32⟩
  | 112 => ⟨S_, .f32⟩
  | 113 => ⟨S100000, .f32⟩
  | 114 => ⟨S100000x1, .f32⟩
  | 115 => ⟨S_, .f32⟩
  | 116 => ⟨S100000x1, .f32⟩
  | 117 => ⟨S100000x1, .f32⟩
  | 118 => ⟨S100000x128, .f32⟩
  | 119 => ⟨S100000x128, .f32⟩
  | 120 => ⟨S100000x128, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x128, .f32⟩
  | _ => ⟨S100000x128, .f32⟩

abbrev hbmTy0_3 (i : Nat) : BufTy := match i % 128 with
  | 0 => ⟨S100000x128, .f32⟩
  | 1 => ⟨S_, .f32⟩
  | 2 => ⟨S100000x1, .f32⟩
  | 3 => ⟨S100000x1, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1x1x128, .f32⟩
  | 17 => ⟨S128, .f32⟩
  | 18 => ⟨S1x1x128, .f32⟩
  | 19 => ⟨S128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S50000x128, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .f32⟩
  | 38 => ⟨S50000x1, .f32⟩
  | 39 => ⟨S50000x1, .f32⟩
  | 40 => ⟨S50000x1, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S100000x16, .f32⟩
  | 53 => ⟨S1x16, .f32⟩
  | 54 => ⟨S100000x16, .f32⟩
  | 55 => ⟨S100000x16, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_10 : Ref sig .tc := ⟨.hbm, 113, rfl⟩
abbrev main_v87 : Ref sig .tc := ⟨.hbm, 114, rfl⟩
abbrev main_v88 : Ref sig .tc := ⟨.hbm, 115, rfl⟩
abbrev main_c_11 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_13 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_14 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_15 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_16 : Ref sig .tc := ⟨.hbm, 160, rfl⟩
abbrev main_v128 : Ref sig .tc := ⟨.hbm, 161, rfl⟩
abbrev main_v129 : Ref sig .tc := ⟨.hbm, 162, rfl⟩
abbrev main_cst_17 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_18 : Ref sig .tc := ⟨.hbm, 169, rfl⟩
abbrev main_v135 : Ref sig .tc := ⟨.hbm, 170, rfl⟩
abbrev main_v136 : Ref sig .tc := ⟨.hbm, 171, rfl⟩
abbrev main_cst_19 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_20 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_call0_cst : Ref sig .tc := ⟨.hbm, 189, rfl⟩
abbrev main_call0_v0 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_21 : Ref sig .tc := ⟨.hbm, 196, rfl⟩
abbrev main_v157 : Ref sig .tc := ⟨.hbm, 197, rfl⟩
abbrev main_v158 : Ref sig .tc := ⟨.hbm, 198, rfl⟩
abbrev main_cst_22 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_23 : Ref sig .tc := ⟨.hbm, 205, rfl⟩
abbrev main_v164 : Ref sig .tc := ⟨.hbm, 206, rfl⟩
abbrev main_v165 : Ref sig .tc := ⟨.hbm, 207, rfl⟩
abbrev main_cst_24 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_25 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_call1_cst : Ref sig .tc := ⟨.hbm, 225, rfl⟩
abbrev main_call1_v0 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_c_26 : Ref sig .tc := ⟨.hbm, 236, rfl⟩
abbrev main_v190 : Ref sig .tc := ⟨.hbm, 237, rfl⟩
abbrev main_v191 : Ref sig .tc := ⟨.hbm, 238, rfl⟩
abbrev main_c_27 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_28 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_cst_29 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_cst_30 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_cst_31 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_c_32 : Ref sig .tc := ⟨.hbm, 281, rfl⟩
abbrev main_v229 : Ref sig .tc := ⟨.hbm, 282, rfl⟩
abbrev main_v230 : Ref sig .tc := ⟨.hbm, 283, rfl⟩
abbrev main_c_33 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_34 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_cst_35 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_cst_36 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_cst_37 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_c_38 : Ref sig .tc := ⟨.hbm, 327, rfl⟩
abbrev main_v269 : Ref sig .tc := ⟨.hbm, 328, rfl⟩
abbrev main_v270 : Ref sig .tc := ⟨.hbm, 329, rfl⟩
abbrev main_c_39 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_cst_40 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_cst_41 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_cst_42 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_cst_43 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_cst_44 : Ref sig .tc := ⟨.hbm, 368, rfl⟩
abbrev main_v304 : Ref sig .tc := ⟨.hbm, 369, rfl⟩
abbrev main_v305 : Ref sig .tc := ⟨.hbm, 370, rfl⟩
abbrev main_cst_45 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_cst_46 : Ref sig .tc := ⟨.hbm, 377, rfl⟩
abbrev main_v311 : Ref sig .tc := ⟨.hbm, 378, rfl⟩
abbrev main_v312 : Ref sig .tc := ⟨.hbm, 379, rfl⟩
abbrev main_cst_47 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_cst_48 : Ref sig .tc := ⟨.hbm, 385, rfl⟩
abbrev main_v317 : Ref sig .tc := ⟨.hbm, 386, rfl⟩
abbrev main_v318 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_call2_cst : Ref sig .tc := ⟨.hbm, 397, rfl⟩
abbrev main_call2_v0 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_cst_49 : Ref sig .tc := ⟨.hbm, 404, rfl⟩
abbrev main_v333 : Ref sig .tc := ⟨.hbm, 405, rfl⟩
abbrev main_v334 : Ref sig .tc := ⟨.hbm, 406, rfl⟩
abbrev main_cst_50 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_cst_51 : Ref sig .tc := ⟨.hbm, 413, rfl⟩
abbrev main_v340 : Ref sig .tc := ⟨.hbm, 414, rfl⟩
abbrev main_v341 : Ref sig .tc := ⟨.hbm, 415, rfl⟩
abbrev main_cst_52 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_cst_53 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_call3_cst : Ref sig .tc := ⟨.hbm, 433, rfl⟩
abbrev main_call3_v0 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩

abbrev nD : Nat := 1
abbrev τ : Topo := Topo.v7x

variable {F : FTy → Type} [FloatOps F]

class Facts₀ : Prop where
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_0_2_0_0 : S2x3x128x128.Slices ![0, 2, 0, 0] S1x1x128x128
  slices_S2x3x128_S1x1x128_0_2_0 : S2x3x128.Slices ![0, 2, 0] S1x1x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S2x2x128_S1x1x128_0_0_0 : S2x2x128.Slices ![0, 0, 0] S1x1x128
  reducesTo_S100000x128_S100000_d1 : S100000x128.ReducesTo [1] S100000
  h_S_ : 0 < S_.numel
  bcast_S_S100000x1 : S_.BroadcastsInDim S100000x1 (![] : Fin 0 → Fin S100000x1.rank)
  slices_S2x2x128_S1x1x128_0_1_0 : S2x2x128.Slices ![0, 1, 0] S1x1x128
  reducesTo_S50000x128_S50000_d1 : S50000x128.ReducesTo [1] S50000
  bcast_S_S50000x1 : S_.BroadcastsInDim S50000x1 (![] : Fin 0 → Fin S50000x1.rank)
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  slices_S2x2x128_S1x1x128_1_0_0 : S2x2x128.Slices ![1, 0, 0] S1x1x128
  slices_S2x2x128_S1x1x128_1_1_0 : S2x2x128.Slices ![1, 1, 0] S1x1x128
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  dot_S100000x128_S128x16_S100000x16_1_0_0_1_n_n_wf : DotDims.WF S100000x128 S128x16 S100000x16 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel program's run with its result named.

  The program is three tiled regions among stretches of host operations.  Its buffer contents at each
  boundary are a fold from the launch memory: a stretch applies its operations, a region replaces each
  of its arrays by what its tiles' write-backs leave.  Every weakly fair execution terminates without a
  fault with every unscoped buffer at the end of that fold; here the result buffer is kept in the
  conclusion beside the argument arrays, which end as launched.
-/
import proofs.«171430_j23888608100644_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    end of the fold through the three regions and the argument arrays as launched. -/
theorem run_result : θ_run defs (onTc (τ := τ) (main (F := F))) ⟨m, fun _ => 0, ρ⟩ (fun r => ∀ c : Dev nD,
      r.2.mem ((c.tc : Thread nD τ).loc main_v180) = W6 m ρ c (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v180 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Gen

end
-- ==== Proof.RefRunStaged.lean ====
/-
  The reference program's run, read back in two stages.

  The program is a straight line of 426 host operations, printed in seven parts.  Each part IS the sequence of
  its operations, so the program is the sequence of the concatenated lists, and every weakly fair execution
  ends with each buffer at the fold of the operations' results over the launch contents.  The fold is read in
  two stages, cut where only four intermediate arrays are still needed (the paper nodes' hidden layer, the
  author nodes' pre-normalisation array and its two layer-norm rows): the first stage leaves each of them at
  its stage function of the arguments, and the second, run from ANY contents holding those four arrays and
  the arguments, leaves the result at its stage function.  Naming the four arrays at the cut keeps the second
  stage's term small: the hidden layer, which the last layer reads six times, is one name in it.
-/
import proofs.«171430_j23888608100644_2_alg».proof.Proof.RefRun
import proofs.«171430_j23888608100644_2_alg».proof.Proof.RefRead
import Idealize.ShloMosaic.Lib.Pipeline.Frame

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The operations of the first three parts (the first layer, up to the author nodes' layer norm). -/
abbrev opsA : List (HloOp τ sig (Elt F)) := ops0 ++ (ops1 ++ ops2)
/-- The operations of the last four parts. -/
abbrev opsB : List (HloOp τ sig (Elt F)) := ops3 ++ (ops4 ++ (ops5 ++ ops6))

/-- The program is the sequence of its operations: part by part, then the sequences of two lists run one after
    the other are the sequence of their concatenation. -/
theorem main_eq (c : Dev nD) : main (F := F) c = seq (opsA ++ opsB) := by
  simp only [opsA, opsB, seq_append, bind_assoc]
  rw [← part0_eq c, ← part1_eq c, ← part2_eq c, ← part3_eq c, ← part4_eq c, ← part5_eq c, ← part6_eq c]
  rfl

theorem ops_sub : (opsA ++ opsB : List (HloOp τ sig (Elt F))).Forall fun op => op.bufs ⊆ tcRefs τ sig := by
  rw [List.forall_iff_forall_mem]
  intro op h
  simp only [opsA, opsB, List.mem_append] at h
  rcases h with (h | h | h) | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h

theorem ops_fresh : ∀ op ∈ (opsA ++ opsB : List (HloOp τ sig (Elt F))), op.fresh = ∅ := by
  intro op h
  simp only [opsA, opsB, List.mem_append] at h
  rcases h with (h | h | h) | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h

/-! ## The first stage, from any contents `V` -/

section StageA
variable (V : Valuation τ sig (Elt F))

set_option maxRecDepth 8192 in
set_option maxHeartbeats 4000000 in
theorem stA_v152 : after opsA V (Proc.devRef .tc main_v152) = val_main_v152 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg10)) (V (Proc.devRef .tc main_arg11)) := by
  simp only [opsA, ops0, ops1, ops2, List.cons_append, List.nil_append]
  after_results_simp <;> rfl

set_option maxRecDepth 8192 in
set_option maxHeartbeats 4000000 in
theorem stA_v123 : after opsA V (Proc.devRef .tc main_v123) = val_main_v123 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg9)) := by
  simp only [opsA, ops0, ops1, ops2, List.cons_append, List.nil_append]
  after_results_simp <;> rfl

set_option maxRecDepth 8192 in
set_option maxHeartbeats 4000000 in
theorem stA_v154 : after opsA V (Proc.devRef .tc main_v154) = val_main_v154 (F := F) (V (Proc.devRef .tc main_arg10)) := by
  simp only [opsA, ops0, ops1, ops2, List.cons_append, List.nil_append]
  after_results_simp <;> rfl

set_option maxRecDepth 8192 in
set_option maxHeartbeats 4000000 in
theorem stA_v156 : after opsA V (Proc.devRef .tc main_v156) = val_main_v156 (F := F) (V (Proc.devRef .tc main_arg11)) := by
  simp only [opsA, ops0, ops1, ops2, List.cons_append, List.nil_append]
  after_results_simp <;> rfl

set_option maxRecDepth 8192 in
set_option maxHeartbeats 4000000 in
theorem keptA_x0 : after opsA V (Proc.devRef .tc main_arg0) = V (Proc.devRef .tc main_arg0) := by
  simp only [opsA, ops0, ops1, ops2, List.cons_append, List.nil_append]
  after_results_simp <;> rfl

set_option maxRecDepth 8192 in
set_option maxHeartbeats 4000000 in
theorem keptA_x1 : after opsA V (Proc.devRef .tc main_arg1) = V (Proc.devRef .tc main_arg1) := by
  simp only [opsA, ops0, ops1, ops2, List.cons_append, List.nil_append]
  after_results_simp <;> rfl

set_option maxRecDepth 8192 in
set_option maxHeartbeats 4000000 in
theorem keptA_x2 : after opsA V (Proc.devRef .tc main_arg2) = V (Proc.devRef .tc main_arg2) := by
  simp only [opsA, ops0, ops1, ops2, List.cons_append, List.nil_append]
  after_results_simp <;> rfl

set_option maxRecDepth 8192 in
set_option maxHeartbeats 4000000 in
theorem keptA_x3 : after opsA V (Proc.devRef .tc main_arg3) = V (Proc.devRef .tc main_arg3) := by
  simp only [opsA, ops0, ops1, ops2, List.cons_append, List.nil_append]
  after_results_simp <;> rfl

set_option maxRecDepth 8192 in
set_option maxHeartbeats 4000000 in
theorem keptA_x4 : after opsA V (Proc.devRef .tc main_arg4) = V (Proc.devRef .tc main_arg4) := by
  simp only [opsA, ops0, ops1, ops2, List.cons_append, List.nil_append]
  after_results_simp <;> rfl

set_option maxRecDepth 8192 in
set_option maxHeartbeats 4000000 in
theorem keptA_x5 : after opsA V (Proc.devRef .tc main_arg5) = V (Proc.devRef .tc main_arg5) := by
  simp only [opsA, ops0, ops1, ops2, List.cons_append, List.nil_append]
  after_results_simp <;> rfl

set_option maxRecDepth 8192 in
set_option maxHeartbeats 4000000 in
theorem keptA_x6 : after opsA V (Proc.devRef .tc main_arg6) = V (Proc.devRef .tc main_arg6) := by
  simp only [opsA, ops0, ops1, ops2, List.cons_append, List.nil_append]
  after_results_simp <;> rfl

set_option maxRecDepth 8192 in
set_option maxHeartbeats 4000000 in
theorem keptA_x7 : after opsA V (Proc.devRef .tc main_arg7) = V (Proc.devRef .tc main_arg7) := by
  simp only [opsA, ops0, ops1, ops2, List.cons_append, List.nil_append]
  after_results_simp <;> rfl

set_option maxRecDepth 8192 in
set_option maxHeartbeats 4000000 in
theorem keptA_x8 : after opsA V (Proc.devRef .tc main_arg8) = V (Proc.devRef .tc main_arg8) := by
  simp only [opsA, ops0, ops1, ops2, List.cons_append, List.nil_append]
  after_results_simp <;> rfl

set_option maxRecDepth 8192 in
set_option maxHeartbeats 4000000 in
theorem keptA_x9 : after opsA V (Proc.devRef .tc main_arg9) = V (Proc.devRef .tc main_arg9) := by
  simp only [opsA, ops0, ops1, ops2, List.cons_append, List.nil_append]
  after_results_simp <;> rfl

set_option maxRecDepth 8192 in
set_option maxHeartbeats 4000000 in
theorem keptA_x10 : after opsA V (Proc.devRef .tc main_arg10) = V (Proc.devRef .tc main_arg10) := by
  simp only [opsA, ops0, ops1, ops2, List.cons_append, List.nil_append]
  after_results_simp <;> rfl

set_option maxRecDepth 8192 in
set_option maxHeartbeats 4000000 in
theorem keptA_x11 : after opsA V (Proc.devRef .tc main_arg11) = V (Proc.devRef .tc main_arg11) := by
  simp only [opsA, ops0, ops1, ops2, List.cons_append, List.nil_append]
  after_results_simp <;> rfl

set_option maxRecDepth 8192 in
set_option maxHeartbeats 4000000 in
theorem keptA_x12 : after opsA V (Proc.devRef .tc main_arg12) = V (Proc.devRef .tc main_arg12) := by
  simp only [opsA, ops0, ops1, ops2, List.cons_append, List.nil_append]
  after_results_simp <;> rfl

set_option maxRecDepth 8192 in
set_option maxHeartbeats 4000000 in
theorem keptA_x13 : after opsA V (Proc.devRef .tc main_arg13) = V (Proc.devRef .tc main_arg13) := by
  simp only [opsA, ops0, ops1, ops2, List.cons_append, List.nil_append]
  after_results_simp <;> rfl

end StageA

/-! ## The second stage, from any contents `W` holding the four arrays and the arguments -/

section StageB
variable (W : Valuation τ sig (Elt F))

set_option maxRecDepth 8192 in
set_option maxHeartbeats 4000000 in
theorem stB_v361 (x0 : (⟨S100000x128, .f32⟩ : BufTy).Contents (Elt F)) (x1 : (⟨S50000x128, .f32⟩ : BufTy).Contents (Elt F)) (x2 : (⟨S2x500000, .i32⟩ : BufTy).Contents (Elt F)) (x3 : (⟨S2x500000, .i32⟩ : BufTy).Contents (Elt F)) (x4 : (⟨S2x500000, .i32⟩ : BufTy).Contents (Elt F)) (x5 : (⟨S2x3x128x128, .f32⟩ : BufTy).Contents (Elt F)) (x6 : (⟨S2x3x128x128, .f32⟩ : BufTy).Contents (Elt F)) (x7 : (⟨S2x3x128, .f32⟩ : BufTy).Contents (Elt F)) (x8 : (⟨S128x128, .f32⟩ : BufTy).Contents (Elt F)) (x9 : (⟨S128x128, .f32⟩ : BufTy).Contents (Elt F)) (x10 : (⟨S2x2x128, .f32⟩ : BufTy).Contents (Elt F)) (x11 : (⟨S2x2x128, .f32⟩ : BufTy).Contents (Elt F)) (x12 : (⟨S128x16, .f32⟩ : BufTy).Contents (Elt F)) (x13 : (⟨S16, .f32⟩ : BufTy).Contents (Elt F))
    (h152 : W (Proc.devRef .tc main_v152) = val_main_v152 (F := F) x0 x1 x2 x3 x5 x6 x7 x8 x10 x11)
    (h123 : W (Proc.devRef .tc main_v123) = val_main_v123 (F := F) x0 x1 x4 x5 x6 x7 x9)
    (h154 : W (Proc.devRef .tc main_v154) = val_main_v154 (F := F) x10)
    (h156 : W (Proc.devRef .tc main_v156) = val_main_v156 (F := F) x11)
    (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a10 : W (Proc.devRef .tc main_arg10) = x10) (a11 : W (Proc.devRef .tc main_arg11) = x11) (a12 : W (Proc.devRef .tc main_arg12) = x12) (a13 : W (Proc.devRef .tc main_arg13) = x13) :
    after opsB W (Proc.devRef .tc main_v361) = val_main_v361 (F := F) x0 x1 x2 x3 x4 x5 x6 x7 x8 x9 x10 x11 x12 x13 := by
  simp only [opsB, ops3, ops4, ops5, ops6, List.cons_append, List.nil_append]
  after_results_simp
  simp only [h152, h123, h154, h156, a2, a3, a4, a5, a6, a7, a10, a11, a12, a13]
  rfl

set_option maxRecDepth 8192 in
set_option maxHeartbeats 4000000 in
theorem keptB_x0 : after opsB W (Proc.devRef .tc main_arg0) = W (Proc.devRef .tc main_arg0) := by
  simp only [opsB, ops3, ops4, ops5, ops6, List.cons_append, List.nil_append]
  after_results_simp <;> rfl

set_option maxRecDepth 8192 in
set_option maxHeartbeats 4000000 in
theorem keptB_x1 : after opsB W (Proc.devRef .tc main_arg1) = W (Proc.devRef .tc main_arg1) := by
  simp only [opsB, ops3, ops4, ops5, ops6, List.cons_append, List.nil_append]
  after_results_simp <;> rfl

set_option maxRecDepth 8192 in
set_option maxHeartbeats 4000000 in
theorem keptB_x2 : after opsB W (Proc.devRef .tc main_arg2) = W (Proc.devRef .tc main_arg2) := by
  simp only [opsB, ops3, ops4, ops5, ops6, List.cons_append, List.nil_append]
  after_results_simp <;> rfl

set_option maxRecDepth 8192 in
set_option maxHeartbeats 4000000 in
theorem keptB_x3 : after opsB W (Proc.devRef .tc main_arg3) = W (Proc.devRef .tc main_arg3) := by
  simp only [opsB, ops3, ops4, ops5, ops6, List.cons_append, List.nil_append]
  after_results_simp <;> rfl

set_option maxRecDepth 8192 in
set_option maxHeartbeats 4000000 in
theorem keptB_x4 : after opsB W (Proc.devRef .tc main_arg4) = W (Proc.devRef .tc main_arg4) := by
  simp only [opsB, ops3, ops4, ops5, ops6, List.cons_append, List.nil_append]
  after_results_simp <;> rfl

set_option maxRecDepth 8192 in
set_option maxHeartbeats 4000000 in
theorem keptB_x5 : after opsB W (Proc.devRef .tc main_arg5) = W (Proc.devRef .tc main_arg5) := by
  simp only [opsB, ops3, ops4, ops5, ops6, List.cons_append, List.nil_append]
  after_results_simp <;> rfl

set_option maxRecDepth 8192 in
set_option maxHeartbeats 4000000 in
theorem keptB_x6 : after opsB W (Proc.devRef .tc main_arg6) = W (Proc.devRef .tc main_arg6) := by
  simp only [opsB, ops3, ops4, ops5, ops6, List.cons_append, List.nil_append]
  after_results_simp <;> rfl

set_option maxRecDepth 8192 in
set_option maxHeartbeats 4000000 in
theorem keptB_x7 : after opsB W (Proc.devRef .tc main_arg7) = W (Proc.devRef .tc main_arg7) := by
  simp only [opsB, ops3, ops4, ops5, ops6, List.cons_append, List.nil_append]
  after_results_simp <;> rfl

set_option maxRecDepth 8192 in
set_option maxHeartbeats 4000000 in
theorem keptB_x8 : after opsB W (Proc.devRef .tc main_arg8) = W (Proc.devRef .tc main_arg8) := by
  simp only [opsB, ops3, ops4, ops5, ops6, List.cons_append, List.nil_append]
  after_results_simp <;> rfl

set_option maxRecDepth 8192 in
set_option maxHeartbeats 4000000 in
theorem keptB_x9 : after opsB W (Proc.devRef .tc main_arg9) = W (Proc.devRef .tc main_arg9) := by
  simp only [opsB, ops3, ops4, ops5, ops6, List.cons_append, List.nil_append]
  after_results_simp <;> rfl

set_option maxRecDepth 8192 in
set_option maxHeartbeats 4000000 in
theorem keptB_x10 : after opsB W (Proc.devRef .tc main_arg10) = W (Proc.devRef .tc main_arg10) := by
  simp only [opsB, ops3, ops4, ops5, ops6, List.cons_append, List.nil_append]
  after_results_simp <;> rfl

set_option maxRecDepth 8192 in
set_option maxHeartbeats 4000000 in
theorem keptB_x11 : after opsB W (Proc.devRef .tc main_arg11) = W (Proc.devRef .tc main_arg11) := by
  simp only [opsB, ops3, ops4, ops5, ops6, List.cons_append, List.nil_append]
  after_results_simp <;> rfl

set_option maxRecDepth 8192 in
set_option maxHeartbeats 4000000 in
theorem keptB_x12 : after opsB W (Proc.devRef .tc main_arg12) = W (Proc.devRef .tc main_arg12) := by
  simp only [opsB, ops3, ops4, ops5, ops6, List.cons_append, List.nil_append]
  after_results_simp <;> rfl

set_option maxRecDepth 8192 in
set_option maxHeartbeats 4000000 in
theorem keptB_x13 : after opsB W (Proc.devRef .tc main_arg13) = W (Proc.devRef .tc main_arg13) := by
  simp only [opsB, ops3, ops4, ops5, ops6, List.cons_append, List.nil_append]
  after_results_simp <;> rfl

end StageB

/-! ## The run -/

/-- The result buffer after all the operations, from contents `V`: its stage function of the arguments. -/
theorem result_eq (V : Valuation τ sig (Elt F)) :
    after (opsA ++ opsB) V (Proc.devRef .tc main_v361) = val_main_v361 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [StableHlo.after_append]
  exact stB_v361 (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
    (stA_v152 V) (stA_v123 V) (stA_v154 V) (stA_v156 V)
    (keptA_x2 V) (keptA_x3 V) (keptA_x4 V) (keptA_x5 V) (keptA_x6 V) (keptA_x7 V) (keptA_x10 V) (keptA_x11 V) (keptA_x12 V) (keptA_x13 V)

/-- An argument's buffer after all the operations holds what it held. -/
theorem kept_x0 (V : Valuation τ sig (Elt F)) : after (opsA ++ opsB) V (Proc.devRef .tc main_arg0) = V (Proc.devRef .tc main_arg0) := by
  rw [StableHlo.after_append]; exact (keptB_x0 (after opsA V)).trans (keptA_x0 V)
theorem kept_x1 (V : Valuation τ sig (Elt F)) : after (opsA ++ opsB) V (Proc.devRef .tc main_arg1) = V (Proc.devRef .tc main_arg1) := by
  rw [StableHlo.after_append]; exact (keptB_x1 (after opsA V)).trans (keptA_x1 V)
theorem kept_x2 (V : Valuation τ sig (Elt F)) : after (opsA ++ opsB) V (Proc.devRef .tc main_arg2) = V (Proc.devRef .tc main_arg2) := by
  rw [StableHlo.after_append]; exact (keptB_x2 (after opsA V)).trans (keptA_x2 V)
theorem kept_x3 (V : Valuation τ sig (Elt F)) : after (opsA ++ opsB) V (Proc.devRef .tc main_arg3) = V (Proc.devRef .tc main_arg3) := by
  rw [StableHlo.after_append]; exact (keptB_x3 (after opsA V)).trans (keptA_x3 V)
theorem kept_x4 (V : Valuation τ sig (Elt F)) : after (opsA ++ opsB) V (Proc.devRef .tc main_arg4) = V (Proc.devRef .tc main_arg4) := by
  rw [StableHlo.after_append]; exact (keptB_x4 (after opsA V)).trans (keptA_x4 V)
theorem kept_x5 (V : Valuation τ sig (Elt F)) : after (opsA ++ opsB) V (Proc.devRef .tc main_arg5) = V (Proc.devRef .tc main_arg5) := by
  rw [StableHlo.after_append]; exact (keptB_x5 (after opsA V)).trans (keptA_x5 V)
theorem kept_x6 (V : Valuation τ sig (Elt F)) : after (opsA ++ opsB) V (Proc.devRef .tc main_arg6) = V (Proc.devRef .tc main_arg6) := by
  rw [StableHlo.after_append]; exact (keptB_x6 (after opsA V)).trans (keptA_x6 V)
theorem kept_x7 (V : Valuation τ sig (Elt F)) : after (opsA ++ opsB) V (Proc.devRef .tc main_arg7) = V (Proc.devRef .tc main_arg7) := by
  rw [StableHlo.after_append]; exact (keptB_x7 (after opsA V)).trans (keptA_x7 V)
theorem kept_x8 (V : Valuation τ sig (Elt F)) : after (opsA ++ opsB) V (Proc.devRef .tc main_arg8) = V (Proc.devRef .tc main_arg8) := by
  rw [StableHlo.after_append]; exact (keptB_x8 (after opsA V)).trans (keptA_x8 V)
theorem kept_x9 (V : Valuation τ sig (Elt F)) : after (opsA ++ opsB) V (Proc.devRef .tc main_arg9) = V (Proc.devRef .tc main_arg9) := by
  rw [StableHlo.after_append]; exact (keptB_x9 (after opsA V)).trans (keptA_x9 V)
theorem kept_x10 (V : Valuation τ sig (Elt F)) : after (opsA ++ opsB) V (Proc.devRef .tc main_arg10) = V (Proc.devRef .tc main_arg10) := by
  rw [StableHlo.after_append]; exact (keptB_x10 (after opsA V)).trans (keptA_x10 V)
theorem kept_x11 (V : Valuation τ sig (Elt F)) : after (opsA ++ opsB) V (Proc.devRef .tc main_arg11) = V (Proc.devRef .tc main_arg11) := by
  rw [StableHlo.after_append]; exact (keptB_x11 (after opsA V)).trans (keptA_x11 V)
theorem kept_x12 (V : Valuation τ sig (Elt F)) : after (opsA ++ opsB) V (Proc.devRef .tc main_arg12) = V (Proc.devRef .tc main_arg12) := by
  rw [StableHlo.after_append]; exact (keptB_x12 (after opsA V)).trans (keptA_x12 V)
theorem kept_x13 (V : Valuation τ sig (Elt F)) : after (opsA ++ opsB) V (Proc.devRef .tc main_arg13) = V (Proc.devRef .tc main_arg13) := by
  rw [StableHlo.after_append]; exact (keptB_x13 (after opsA V)).trans (keptA_x13 V)

/-- On every device, for any float values, from any memory with zero counters: every weakly fair execution of the
    program terminates with the result at its stage function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v361) = val_main_v361 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v361).trans (result_eq _),
      (h c main_arg0).trans (kept_x0 _),
      (h c main_arg1).trans (kept_x1 _),
      (h c main_arg2).trans (kept_x2 _),
      (h c main_arg3).trans (kept_x3 _),
      (h c main_arg4).trans (kept_x4 _),
      (h c main_arg5).trans (kept_x5 _),
      (h c main_arg6).trans (kept_x6 _),
      (h c main_arg7).trans (kept_x7 _),
      (h c main_arg8).trans (kept_x8 _),
      (h c main_arg9).trans (kept_x9 _),
      (h c main_arg10).trans (kept_x10 _),
      (h c main_arg11).trans (kept_x11 _),
      (h c main_arg12).trans (kept_x12 _),
      (h c main_arg13).trans (kept_x13 _)⟩)
    (run_seq scopedRefs_eq scopedSems_eq defs main (fun _ => opsA ++ opsB) main_eq (fun _ => ops_sub) m ρ (fun _ => ops_fresh))

end Cert.ReferenceIdeal.Staged

end
-- ==== Proof.Spec.lean ====
/-
  The mathematics of a two-layer heterogeneous GraphSAGE network, row by row, on the extended reals.

  Every stage of the network acts on each node's row independently once the neighbourhood sums are
  given: a row of sums is scaled by the reciprocal of the node's in-degree (at least one), multiplied
  by weight matrices, a bias is added, an optional residual linear map is applied, and the row is
  normalised (layer norm) and clipped at zero.  So every function below takes its node arrays as
  functions `R → Fin 128 → EReal` over an ABSTRACT row type `R`: the same definition reads a whole
  array (`R = Fin 100000`) and one tile of it (`R = Fin 4000`), and restricting the rows commutes with
  every function here by unfolding.

  Two spellings of each layer are given.  The FUSED spelling multiplies the neighbourhood sum by a
  precomputed reciprocal degree, adds the two self-weights into one matrix and the two biases into
  one row before use.  The PLAIN spelling divides by the degree, and adds the two edge types'
  contributions after each has its own self term and bias.  `Sage.Laws` proves them equal where the
  self features and the self-weights are finite.
-/
import Idealize.ShloMosaic.PureOps.Ideal
import Idealize.ShloMosaic.Lib.ValueIdx

noncomputable section

namespace Cert.Sage

open Idealize.ShloMosaic

/-- The float words the two programs share, read at the exact instance. -/
abbrev zero : EReal := Ideal.ofBits .f32 0x00000000#32
abbrev one : EReal := Ideal.ofBits .f32 0x3F800000#32
abbrev width : EReal := Ideal.ofBits .f32 0x43000000#32
abbrev eps : EReal := Ideal.ofBits .f32 0x3727C5AC#32

variable {R : Type}

/-- Rows times a matrix: entry `(r, j)` is `∑ k, a r k * W k j`. -/
def mm {K J : Type} [Fintype K] (a : R → K → EReal) (W : K → J → EReal) : R → J → EReal :=
  fun r j => ∑ k, a r k * W k j

/-- The mean of a row (its sum divided by the width 128). -/
def rowMean (q : R → Fin 128 → EReal) : R → EReal :=
  fun r => Ideal.div (∑ k, q r k) width

/-- The variance of a row about its mean (the mean of the squared deviations). -/
def rowVar (q : R → Fin 128 → EReal) : R → EReal :=
  fun r => Ideal.div (∑ k, (q r k - rowMean q r) * (q r k - rowMean q r)) width

/-- Layer norm of each row with scale `g` and shift `b`, then the positive part. -/
def lnRelu (q : R → Fin 128 → EReal) (g b : Fin 128 → EReal) : R → Fin 128 → EReal :=
  fun r j => max (((q r j - rowMean q r) * Ideal.rsqrt (rowVar q r + eps)) * g j + b j) zero

/-- The residual linear map: `p + p · lin`. -/
def resid (p : R → Fin 128 → EReal) (lin : Fin 128 → Fin 128 → EReal) : R → Fin 128 → EReal :=
  fun r j => p r j + mm p lin r j

/-! ## The fused spelling -/

/-- A node of two incoming edge types: both scaled sums through their weights, the self features through
    the SUMMED self-weight, and the SUMMED bias. -/
def pre2F (s1 : R → Fin 128 → EReal) (i1 : R → EReal) (s2 : R → Fin 128 → EReal) (i2 : R → EReal)
    (x : R → Fin 128 → EReal) (W1 W2 W3 : Fin 128 → Fin 128 → EReal) (b : Fin 128 → EReal) : R → Fin 128 → EReal :=
  fun r j => ((mm (fun r k => s1 r k * i1 r) W1 r j + mm (fun r k => s2 r k * i2 r) W2 r j) + mm x W3 r j) + b j

/-- A node of one incoming edge type. -/
def pre1F (s1 : R → Fin 128 → EReal) (i1 : R → EReal) (x : R → Fin 128 → EReal)
    (W1 W3 : Fin 128 → Fin 128 → EReal) (b : Fin 128 → EReal) : R → Fin 128 → EReal :=
  fun r j => (mm (fun r k => s1 r k * i1 r) W1 r j + mm x W3 r j) + b j

/-- A hidden layer at a node of two edge types: residual map, layer norm, positive part. -/
def hidden2F (s1 : R → Fin 128 → EReal) (i1 : R → EReal) (s2 : R → Fin 128 → EReal) (i2 : R → EReal)
    (x : R → Fin 128 → EReal) (W1 W2 W3 : Fin 128 → Fin 128 → EReal) (b : Fin 128 → EReal)
    (lin : Fin 128 → Fin 128 → EReal) (g β : Fin 128 → EReal) : R → Fin 128 → EReal :=
  lnRelu (resid (pre2F s1 i1 s2 i2 x W1 W2 W3 b) lin) g β

/-- A hidden layer at a node of one edge type. -/
def hidden1F (s1 : R → Fin 128 → EReal) (i1 : R → EReal) (x : R → Fin 128 → EReal)
    (W1 W3 : Fin 128 → Fin 128 → EReal) (b : Fin 128 → EReal)
    (lin : Fin 128 → Fin 128 → EReal) (g β : Fin 128 → EReal) : R → Fin 128 → EReal :=
  lnRelu (resid (pre1F s1 i1 x W1 W3 b) lin) g β

/-- The last layer at a node of two edge types (no residual map) and the classification head. -/
def headF (s1 : R → Fin 128 → EReal) (i1 : R → EReal) (s2 : R → Fin 128 → EReal) (i2 : R → EReal)
    (x : R → Fin 128 → EReal) (W1 W2 W3 : Fin 128 → Fin 128 → EReal) (b : Fin 128 → EReal)
    (g β : Fin 128 → EReal) (Wh : Fin 128 → Fin 16 → EReal) (bh : Fin 16 → EReal) : R → Fin 16 → EReal :=
  fun r j => mm (lnRelu (pre2F s1 i1 s2 i2 x W1 W2 W3 b) g β) Wh r j + bh j

/-! ## The plain spelling -/

/-- One edge type's convolution: the neighbourhood sum divided by the in-degree (at least one) through the
    neighbour weight, plus the bias, plus the self features through the self weight. -/
def conv (s : R → Fin 128 → EReal) (cnt : R → EReal) (x : R → Fin 128 → EReal)
    (Wl Wr : Fin 128 → Fin 128 → EReal) (b : Fin 128 → EReal) : R → Fin 128 → EReal :=
  fun r j => (mm (fun r k => Ideal.div (s r k) (max (cnt r) one)) Wl r j + b j) + mm x Wr r j

/-- A node of two incoming edge types: the sum of the two convolutions. -/
def pre2P (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal) : R → Fin 128 → EReal :=
  fun r j => conv s1 c1 x Wl1 Wr1 b1 r j + conv s2 c2 x Wl2 Wr2 b2 r j

def hidden2P (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal)
    (lin : Fin 128 → Fin 128 → EReal) (g β : Fin 128 → EReal) : R → Fin 128 → EReal :=
  lnRelu (resid (pre2P s1 c1 s2 c2 x Wl1 Wr1 b1 Wl2 Wr2 b2) lin) g β

def hidden1P (s : R → Fin 128 → EReal) (cnt : R → EReal) (x : R → Fin 128 → EReal)
    (Wl Wr : Fin 128 → Fin 128 → EReal) (b : Fin 128 → EReal)
    (lin : Fin 128 → Fin 128 → EReal) (g β : Fin 128 → EReal) : R → Fin 128 → EReal :=
  lnRelu (resid (conv s cnt x Wl Wr b) lin) g β

def headP (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal)
    (g β : Fin 128 → EReal) (Wh : Fin 128 → Fin 16 → EReal) (bh : Fin 16 → EReal) : R → Fin 16 → EReal :=
  fun r j => mm (lnRelu (pre2P s1 c1 s2 c2 x Wl1 Wr1 b1 Wl2 Wr2 b2) g β) Wh r j + bh j

end Cert.Sage

end
-- ==== Proof.BodyLib.lean ====
/-
  Row operations of a TensorCore body read at an index, at the exact instance: the two keepdims layout
  operations a row statistic needs (a lane sum cast to a column, a column broadcast along the lanes), a lane
  sum as the sum of a row, and the layer norm of a row — mean, variance, reciprocal square root, scale, shift,
  positive part — as ONE function of the rows, generic in the number of rows.
-/
import proofs.«171430_j23888608100644_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx

/-- The zero offsets of a whole-buffer rectangle of rank 2, as a function. -/
theorem hz : (![0, 0] : Fin 2 → Nat) = fun _ => 0 := funext fun a => by fin_cases a <;> rfl

/-! ## Two keepdims layout operations read at an index -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## The row operations at the exact instance -/

/-- The reciprocal square root at an index is that of the element. -/
theorem rsqrt_apply {s : Shape} {φ : FTy} (x : FVec Ideal s φ) (i : s.Idx) : rsqrt x i = Ideal.rsqrt (x i) := rfl

/-- A lane sum of an `[a, b]` array, at row `r`, is the sum of that row. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-- The column of row means as the body computes it: the lane sum, as a column, over the width. -/
def meanOps {a : ℕ} (q : FVec Ideal ⟨2, ![a, 128]⟩ .f32)
    (hr : (⟨2, ![a, 128]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) : FVec Ideal ⟨2, ![a, 1]⟩ .f32 :=
  divf (shapeCast ⟨2, ![a, 1]⟩ (multiReduction (F := Ideal) .add [1] ⟨1, ![a]⟩ q 0x00000000#32 hr hφ hacc) hs)
    (broadcast ⟨2, ![a, 1]⟩ (Scalar.ofBits (F := Ideal) .f32 0x43000000#32))

/-- It is the row mean. -/
theorem meanOps_apply {a : ℕ} (q : FVec Ideal ⟨2, ![a, 128]⟩ .f32)
    (hr : (⟨2, ![a, 128]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) (r : Fin a) (u : Fin 1) :
    meanOps q hr hφ hacc hs (ix2 r u) = Cert.Sage.rowMean (fun r k => q (ix2 r k)) r := by
  show Ideal.div (shapeCast ⟨2, ![a, 1]⟩ (multiReduction (F := Ideal) .add [1] ⟨1, ![a]⟩ q 0x00000000#32 hr hφ hacc) hs (ix2 r u))
      (Ideal.ofBits .f32 0x43000000#32) = Ideal.div (∑ k, q (ix2 r k)) Cert.Sage.width
  rw [shapeCast_a_a1_apply, rowSum_apply]

/-- The layer norm and positive part as the body computes them from the rows `q`, a column of means `μ`,
    and the scale and shift rows: centre, square, lane sum over the width, add the small constant, reciprocal
    square root, scale, shift, maximum with zero. -/
def lnOps {a : ℕ} (q : FVec Ideal ⟨2, ![a, 128]⟩ .f32) (μ : FVec Ideal ⟨2, ![a, 1]⟩ .f32)
    (g β : FVec Ideal ⟨2, ![1, 128]⟩ .f32)
    (hb : (⟨2, ![a, 1]⟩ : Shape).Broadcasts ⟨2, ![a, 128]⟩)
    (hb1 : (⟨2, ![1, 128]⟩ : Shape).Broadcasts ⟨2, ![a, 128]⟩)
    (hr : (⟨2, ![a, 128]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) : FVec Ideal ⟨2, ![a, 128]⟩ .f32 :=
  maximumf
    (addf
      (mulf
        (mulf (subf q (broadcastTo ⟨2, ![a, 128]⟩ μ hb))
          (broadcastTo ⟨2, ![a, 128]⟩
            (rsqrt (addf
              (divf (shapeCast ⟨2, ![a, 1]⟩ (multiReduction (F := Ideal) .add [1] ⟨1, ![a]⟩
                  (mulf (subf q (broadcastTo ⟨2, ![a, 128]⟩ μ hb)) (subf q (broadcastTo ⟨2, ![a, 128]⟩ μ hb)))
                  0x00000000#32 hr hφ hacc) hs)
                (broadcast ⟨2, ![a, 1]⟩ (Scalar.ofBits (F := Ideal) .f32 0x43000000#32)))
              (broadcast ⟨2, ![a, 1]⟩ (Scalar.ofBits (F := Ideal) .f32 0x3727C5AC#32)))) hb))
        (broadcastTo ⟨2, ![a, 128]⟩ g hb1))
      (broadcastTo ⟨2, ![a, 128]⟩ β hb1))
    (broadcast ⟨2, ![a, 128]⟩ (Scalar.ofBits (F := Ideal) .f32 0x00000000#32))

/-- Where the column `μ` holds the row means, it is the layer norm of each row, clipped at zero. -/
theorem lnOps_apply {a : ℕ} (q : FVec Ideal ⟨2, ![a, 128]⟩ .f32) (μ : FVec Ideal ⟨2, ![a, 1]⟩ .f32)
    (g β : FVec Ideal ⟨2, ![1, 128]⟩ .f32)
    (hb : (⟨2, ![a, 1]⟩ : Shape).Broadcasts ⟨2, ![a, 128]⟩)
    (hb1 : (⟨2, ![1, 128]⟩ : Shape).Broadcasts ⟨2, ![a, 128]⟩)
    (hr : (⟨2, ![a, 128]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩)
    (hμ : ∀ (r : Fin a) (u : Fin 1), μ (ix2 r u) = Cert.Sage.rowMean (fun r k => q (ix2 r k)) r)
    (p : Fin a) (j : Fin 128) :
    lnOps q μ g β hb hb1 hr hφ hacc hs (ix2 p j)
      = Cert.Sage.lnRelu (fun r k => q (ix2 r k)) (fun j => g (ix2 (0 : Fin 1) j)) (fun j => β (ix2 (0 : Fin 1) j)) p j := by
  have hsub : ∀ (r : Fin a) (k : Fin 128), subf q (broadcastTo ⟨2, ![a, 128]⟩ μ hb) (ix2 r k)
      = q (ix2 r k) - Cert.Sage.rowMean (fun r k => q (ix2 r k)) r := by
    intro r k
    rw [subf_apply, broadcastTo_a1_ab_apply, hμ]
  have hvar : ∀ (r : Fin a) (u : Fin 1),
      shapeCast ⟨2, ![a, 1]⟩ (multiReduction (F := Ideal) .add [1] ⟨1, ![a]⟩
          (mulf (subf q (broadcastTo ⟨2, ![a, 128]⟩ μ hb)) (subf q (broadcastTo ⟨2, ![a, 128]⟩ μ hb)))
          0x00000000#32 hr hφ hacc) hs (ix2 r u)
        = ∑ k, (q (ix2 r k) - Cert.Sage.rowMean (fun r k => q (ix2 r k)) r) * (q (ix2 r k) - Cert.Sage.rowMean (fun r k => q (ix2 r k)) r) := by
    intro r u
    rw [shapeCast_a_a1_apply, rowSum_apply]
    exact Finset.sum_congr rfl fun k _ => by rw [mulf_apply, hsub]
  show max ((subf q (broadcastTo ⟨2, ![a, 128]⟩ μ hb) (ix2 p j)
        * broadcastTo ⟨2, ![a, 128]⟩
            (rsqrt (addf
              (divf (shapeCast ⟨2, ![a, 1]⟩ (multiReduction (F := Ideal) .add [1] ⟨1, ![a]⟩
                  (mulf (subf q (broadcastTo ⟨2, ![a, 128]⟩ μ hb)) (subf q (broadcastTo ⟨2, ![a, 128]⟩ μ hb)))
                  0x00000000#32 hr hφ hacc) hs)
                (broadcast ⟨2, ![a, 1]⟩ (Scalar.ofBits (F := Ideal) .f32 0x43000000#32)))
              (broadcast ⟨2, ![a, 1]⟩ (Scalar.ofBits (F := Ideal) .f32 0x3727C5AC#32)))) hb (ix2 p j))
        * broadcastTo ⟨2, ![a, 128]⟩ g hb1 (ix2 p j) + broadcastTo ⟨2, ![a, 128]⟩ β hb1 (ix2 p j))
      (Ideal.ofBits .f32 0x00000000#32) = _
  rw [hsub, broadcastTo_a1_ab_apply, broadcastTo_1b_ab_apply, broadcastTo_1b_ab_apply]
  show max ((q (ix2 p j) - Cert.Sage.rowMean (fun r k => q (ix2 r k)) p)
        * Ideal.rsqrt (Ideal.div (shapeCast ⟨2, ![a, 1]⟩ (multiReduction (F := Ideal) .add [1] ⟨1, ![a]⟩
                  (mulf (subf q (broadcastTo ⟨2, ![a, 128]⟩ μ hb)) (subf q (broadcastTo ⟨2, ![a, 128]⟩ μ hb)))
                  0x00000000#32 hr hφ hacc) hs (ix2 p (0 : Fin 1))) (Ideal.ofBits .f32 0x43000000#32) + Ideal.ofBits .f32 0x3727C5AC#32)
        * g (ix2 (0 : Fin 1) j) + β (ix2 (0 : Fin 1) j))
      (Ideal.ofBits .f32 0x00000000#32) = _
  rw [hvar]
  rfl

end Cert.KernelIdeal.Body

end
-- ==== Proof.Walk.lean ====
/-
  The buffer contents at the boundaries of the program's segments, walked back: a buffer that a stretch of host
  operations does not write, and that is none of a region's arrays, holds after the stretch or the region what it held
  before; a region's input array holds what it held at the region's entry; a region's output array holds what the
  region's write-backs leave.  So at each region's entry every argument the region reads still holds its launch
  contents, and each region's output array is the one the next segments read.
-/
import proofs.«171430_j23888608100644_2_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-- No operation of the named stretch writes the buffer: each operation's written buffers are listed, and the buffer
    differs from each of them. -/
local macro "not_written " ops:ident : tactic => `(tactic| (
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## At region 0's entry: the first stretch writes no argument -/

theorem W1_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by not_written hostOps0))
    _ = m ((c : Thread nD τ).loc main_arg1) := rfl
theorem W1_arg2 : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by not_written hostOps0))
    _ = m ((c : Thread nD τ).loc main_arg2) := rfl
theorem W1_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by not_written hostOps0))
    _ = m ((c : Thread nD τ).loc main_arg3) := rfl
theorem W1_arg5 : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by not_written hostOps0))
    _ = m ((c : Thread nD τ).loc main_arg5) := rfl
theorem W1_arg6 : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by not_written hostOps0))
    _ = m ((c : Thread nD τ).loc main_arg6) := rfl
theorem W1_arg7 : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by not_written hostOps0))
    _ = m ((c : Thread nD τ).loc main_arg7) := rfl
theorem W1_arg9 : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by not_written hostOps0))
    _ = m ((c : Thread nD τ).loc main_arg9) := rfl
theorem W1_arg10 : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by not_written hostOps0))
    _ = m ((c : Thread nD τ).loc main_arg10) := rfl
theorem W1_arg11 : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by not_written hostOps0))
    _ = m ((c : Thread nD τ).loc main_arg11) := rfl
theorem W1_arg12 : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by not_written hostOps0))
    _ = m ((c : Thread nD τ).loc main_arg12) := rfl
theorem W1_arg13 : W1 m ρ c (Proc.devRef .tc main_arg13) = m ((c : Thread nD τ).loc main_arg13) :=
  calc W1 m ρ c (Proc.devRef .tc main_arg13)
    _ = W0 m ρ c (Proc.devRef .tc main_arg13) := StableHlo.after_of_forall_not_mem (b := Proc.devRef .tc main_arg13) _ _ (List.forall_iff_forall_mem.mp (by not_written hostOps0))
    _ = m ((c : Thread nD τ).loc main_arg13) := rfl

/-! ## At region 0's exit: the arguments that are none of its arrays -/

theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)

/-! ## At region 1's exit: the arguments that are none of its arrays and that the second stretch does not write -/

theorem W4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by not_written hostOps1))
    _ = m ((c : Thread nD τ).loc main_arg2) := W2_arg2 m ρ c
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by not_written hostOps1))
    _ = m ((c : Thread nD τ).loc main_arg3) := W2_arg3 m ρ c
theorem W4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by not_written hostOps1))
    _ = m ((c : Thread nD τ).loc main_arg5) := W2_arg5 m ρ c
theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by not_written hostOps1))
    _ = m ((c : Thread nD τ).loc main_arg6) := W2_arg6 m ρ c
theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by not_written hostOps1))
    _ = m ((c : Thread nD τ).loc main_arg7) := W2_arg7 m ρ c
theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by not_written hostOps1))
    _ = m ((c : Thread nD τ).loc main_arg10) := W2_arg10 m ρ c
theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by not_written hostOps1))
    _ = m ((c : Thread nD τ).loc main_arg11) := W2_arg11 m ρ c
theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by not_written hostOps1))
    _ = m ((c : Thread nD τ).loc main_arg12) := W2_arg12 m ρ c
theorem W4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by not_written hostOps1))
    _ = m ((c : Thread nD τ).loc main_arg13) := W2_arg13 m ρ c

/-! ## Host-computed buffers across the regions -/

/-- The two author-side neighbourhood buffers are none of region 0's arrays. -/
theorem W2_v79 : W2 m ρ c (Proc.devRef .tc main_v79) = V1 m ρ c main_v79 := W2_of_ne m ρ c main_v79 (by decide)
theorem W2_v34 : W2 m ρ c (Proc.devRef .tc main_v34) = V1 m ρ c main_v34 := W2_of_ne m ρ c main_v34 (by decide)

/-- Region 0's output array is none of region 1's arrays, and the second stretch does not write it. -/
theorem W4_v105 : W4 m ρ c (Proc.devRef .tc main_v105) = W2 m ρ c (Proc.devRef .tc main_v105) :=
  calc W4 m ρ c (Proc.devRef .tc main_v105)
    _ = W3 m ρ c (Proc.devRef .tc main_v105) := W4_of_ne m ρ c main_v105 (by decide)
    _ = W2 m ρ c (Proc.devRef .tc main_v105) := StableHlo.after_of_forall_not_mem (b := Proc.devRef .tc main_v105) _ _ (List.forall_iff_forall_mem.mp (by not_written hostOps1))

/-- The two reciprocal-degree columns of the paper nodes pass region 1 and the second stretch untouched, and region 0
    reads them through input windows 1 and 3, which leave them as entered. -/
theorem W4_v12 : W4 m ρ c (Proc.devRef .tc main_v12) = V1 m ρ c main_v12 :=
  calc W4 m ρ c (Proc.devRef .tc main_v12)
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by not_written hostOps1))
    _ = V1 m ρ c main_v12 := (W2_arr m ρ c 1).trans (((dat0 (V1 m ρ) c).arrAt_in 1 rfl _).trans (A_eq0 (V1 m ρ) c 1))
theorem W4_v23 : W4 m ρ c (Proc.devRef .tc main_v23) = V1 m ρ c main_v23 :=
  calc W4 m ρ c (Proc.devRef .tc main_v23)
    _ = W3 m ρ c (Proc.devRef .tc main_v23) := W4_of_ne m ρ c main_v23 (by decide)
    _ = W2 m ρ c (Proc.devRef .tc main_v23) := StableHlo.after_of_forall_not_mem (b := Proc.devRef .tc main_v23) _ _ (List.forall_iff_forall_mem.mp (by not_written hostOps1))
    _ = V1 m ρ c main_v23 := (W2_arr m ρ c 3).trans (((dat0 (V1 m ρ) c).arrAt_in 3 rfl _).trans (A_eq0 (V1 m ρ) c 3))

/-! ## Each region's output array at the region's exit -/

theorem W2_v105 : W2 m ρ c (Proc.devRef .tc main_v105) = (dat0 (V1 m ρ) c).arrAt 12 cfg0.N := W2_arr m ρ c 12
theorem W4_v122 : W4 m ρ c (Proc.devRef .tc main_v122) = (dat1 (V3 m ρ) c).arrAt 9 cfg1.N := W4_arr m ρ c 9
theorem W6_v180 : W6 m ρ c (Proc.devRef .tc main_v180) = (dat2 (V5 m ρ) c).arrAt 13 cfg2.N := W6_arr m ρ c 13

end Cert.Bridge

end
-- ==== Proof.Host0.lean ====
/-
  The first tiled region's input arrays, as the region finds them, against the reference's stages.

  Before its first region the idealized kernel program computes, on the host, the two neighbourhood sums of the
  paper nodes (gathered through a narrower float format, which changes nothing on the extended reals), the
  reciprocal in-degrees, the transposed neighbour weights, the transposed SUM of the two self-weights, the SUM
  of the two biases, and the layer-norm rows.  Each is the reference's own stage of the same arguments, or an
  entrywise sum or reciprocal of such stages; no gather or scatter is opened: the two programs apply the same
  chain of operations to the same arguments.
-/
import proofs.«171430_j23888608100644_2_alg».proof.Proof.Gen.KernelIdeal.Frame
import proofs.«171430_j23888608100644_2_alg».proof.Proof.RefRead
import proofs.«171430_j23888608100644_2_alg».proof.Proof.Spec
import proofs.«171430_j23888608100644_2_alg».proof.Proof.BodyLib
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Two small reads -/

/-- A vector of 100000 entries cast to a column reads, at `(r, 0)`, the vector at `r`. -/
theorem col_cast_paper (Y : FVec Ideal S100000 .f32) (h : S100000.ShapeCasts S100000x1) (r : Fin 100000) :
    shapeCast S100000x1 Y h (ix2 r 0) = Y (ix1 r) := Cert.KernelIdeal.Body.shapeCast_a_a1_apply Y h r 0

/-- One over the in-degree clipped below at one, entry by entry. -/
theorem inv_read_paper (cnt : FVec Ideal S100000 .f32) (hb : S_.BroadcastsInDim S100000 (![] : Fin 0 → Fin S100000.rank)) (r : Fin 100000) :
    Host.divf (broadcastInDim S100000 ![] hb (constant (F := Ideal) S_ .f32 0x3F800000#32))
      (maximumf cnt (broadcastInDim S100000 ![] hb (constant (F := Ideal) S_ .f32 0x3F800000#32))) (ix1 r)
      = Ideal.div Cert.Sage.one (max (cnt (ix1 r)) Cert.Sage.one) := rfl

/-! ## Region 0's twelve input arrays -/

set_option maxHeartbeats 4000000 in
/-- The sum over the citing papers' rows. -/
theorem in0_sum_cites : V1 (F := Ideal) m ρ c (Pipeline.arrRef spec0 0) = Cert.ReferenceIdeal.Read.val_main_v19 (F := Ideal) (m ((c : Thread nD τ).loc main_arg0)) (m ((c : Thread nD τ).loc main_arg2)) := by
  show StableHlo.after hostOps0 (W0 m ρ c) (Proc.devRef .tc main_v49) = _
  after_results_simp <;> rfl

set_option maxHeartbeats 4000000 in
/-- The reciprocal of the cites in-degree (at least one), kept as a column. -/
theorem in0_inv_cites (r : Fin 100000) : V1 (F := Ideal) m ρ c (Pipeline.arrRef spec0 1) (ix2 r 0)
    = Ideal.div Cert.Sage.one (max (Cert.ReferenceIdeal.Read.val_main_v25 (F := Ideal) (m ((c : Thread nD τ).loc main_arg2)) (ix1 r)) Cert.Sage.one) := by
  have e : V1 (F := Ideal) m ρ c (Pipeline.arrRef spec0 1)
      = shapeCast S100000x1 (Host.divf (broadcastInDim S100000 ![] (by decide) (constant (F := Ideal) S_ .f32 0x3F800000#32))
          (maximumf (Cert.ReferenceIdeal.Read.val_main_v25 (F := Ideal) (m ((c : Thread nD τ).loc main_arg2))) (broadcastInDim S100000 ![] (by decide) (constant (F := Ideal) S_ .f32 0x3F800000#32)))) (by decide) := by
    show StableHlo.after hostOps0 (W0 m ρ c) (Proc.devRef .tc main_v12) = _
    after_results_simp
    rfl
  rw [e]
  refine (col_cast_paper _ _ r).trans ?_
  exact inv_read_paper _ _ r

set_option maxHeartbeats 4000000 in
/-- The sum over the writing authors' rows. -/
theorem in0_sum_writes : V1 (F := Ideal) m ρ c (Pipeline.arrRef spec0 2) = Cert.ReferenceIdeal.Read.val_main_v58 (F := Ideal) (m ((c : Thread nD τ).loc main_arg1)) (m ((c : Thread nD τ).loc main_arg3)) := by
  show StableHlo.after hostOps0 (W0 m ρ c) (Proc.devRef .tc main_v64) = _
  after_results_simp <;> rfl

set_option maxHeartbeats 4000000 in
/-- The reciprocal of the writes in-degree (at least one), kept as a column. -/
theorem in0_inv_writes (r : Fin 100000) : V1 (F := Ideal) m ρ c (Pipeline.arrRef spec0 3) (ix2 r 0)
    = Ideal.div Cert.Sage.one (max (Cert.ReferenceIdeal.Read.val_main_v64 (F := Ideal) (m ((c : Thread nD τ).loc main_arg3)) (ix1 r)) Cert.Sage.one) := by
  have e : V1 (F := Ideal) m ρ c (Pipeline.arrRef spec0 3)
      = shapeCast S100000x1 (Host.divf (broadcastInDim S100000 ![] (by decide) (constant (F := Ideal) S_ .f32 0x3F800000#32))
          (maximumf (Cert.ReferenceIdeal.Read.val_main_v64 (F := Ideal) (m ((c : Thread nD τ).loc main_arg3))) (broadcastInDim S100000 ![] (by decide) (constant (F := Ideal) S_ .f32 0x3F800000#32)))) (by decide) := by
    show StableHlo.after hostOps0 (W0 m ρ c) (Proc.devRef .tc main_v23) = _
    after_results_simp
    rfl
  rw [e]
  refine (col_cast_paper _ _ r).trans ?_
  exact inv_read_paper _ _ r

set_option maxHeartbeats 4000000 in
/-- The paper features themselves. -/
theorem in0_self : V1 (F := Ideal) m ρ c (Pipeline.arrRef spec0 4) = (m ((c : Thread nD τ).loc main_arg0)) := by
  show StableHlo.after hostOps0 (W0 m ρ c) (Proc.devRef .tc main_arg0) = _
  after_results_simp <;> rfl

set_option maxHeartbeats 4000000 in
/-- The transposed neighbour weight of the cites edges. -/
theorem in0_wl_cites : V1 (F := Ideal) m ρ c (Pipeline.arrRef spec0 5) = Cert.ReferenceIdeal.Read.val_main_v31 (F := Ideal) (m ((c : Thread nD τ).loc main_arg5)) := by
  show StableHlo.after hostOps0 (W0 m ρ c) (Proc.devRef .tc main_v82) = _
  after_results_simp <;> rfl

set_option maxHeartbeats 4000000 in
/-- The transposed neighbour weight of the writes edges. -/
theorem in0_wl_writes : V1 (F := Ideal) m ρ c (Pipeline.arrRef spec0 6) = Cert.ReferenceIdeal.Read.val_main_v70 (F := Ideal) (m ((c : Thread nD τ).loc main_arg5)) := by
  show StableHlo.after hostOps0 (W0 m ρ c) (Proc.devRef .tc main_v85) = _
  after_results_simp <;> rfl

set_option maxHeartbeats 4000000 in
/-- The transposed SUM of the two self-weights is, entry by entry, the sum of the two transposed self-weights. -/
theorem in0_wr (k j : Fin 128) : V1 (F := Ideal) m ρ c (Pipeline.arrRef spec0 7) (ix2 k j)
    = Cert.ReferenceIdeal.Read.val_main_v36 (F := Ideal) (m ((c : Thread nD τ).loc main_arg6)) (ix2 k j) + Cert.ReferenceIdeal.Read.val_main_v75 (F := Ideal) (m ((c : Thread nD τ).loc main_arg6)) (ix2 k j) := by
  show StableHlo.after hostOps0 (W0 m ρ c) (Proc.devRef .tc main_v91) (ix2 k j) = _
  after_results_simp
  refine (transpose_ix2_apply _ _ k j).trans ?_
  refine Eq.trans ?_ (congrArg₂ (· + ·) (transpose_ix2_apply _ _ k j).symm (transpose_ix2_apply _ _ k j).symm)
  rfl

set_option maxHeartbeats 4000000 in
/-- The SUM of the two biases, kept as a row, is entry by entry the sum of the two biases. -/
theorem in0_bias (j : Fin 128) : V1 (F := Ideal) m ρ c (Pipeline.arrRef spec0 8) (ix2 0 j)
    = Cert.ReferenceIdeal.Read.val_main_v5 (F := Ideal) (m ((c : Thread nD τ).loc main_arg7)) (ix1 j) + Cert.ReferenceIdeal.Read.val_main_v44 (F := Ideal) (m ((c : Thread nD τ).loc main_arg7)) (ix1 j) := by
  show StableHlo.after hostOps0 (W0 m ρ c) (Proc.devRef .tc main_v97) (ix2 0 j) = _
  after_results_simp
  refine (shapeCast_a_1a_apply _ _ 0 j).trans ?_
  rfl

set_option maxHeartbeats 4000000 in
/-- The transposed residual weight. -/
theorem in0_lin : V1 (F := Ideal) m ρ c (Pipeline.arrRef spec0 9) = Cert.ReferenceIdeal.Read.val_main_v118 (F := Ideal) (m ((c : Thread nD τ).loc main_arg8)) := by
  show StableHlo.after hostOps0 (W0 m ρ c) (Proc.devRef .tc main_v98) = _
  after_results_simp <;> rfl

set_option maxHeartbeats 4000000 in
/-- The layer-norm scale, kept as a row. -/
theorem in0_scale (j : Fin 128) : V1 (F := Ideal) m ρ c (Pipeline.arrRef spec0 10) (ix2 0 j) = Cert.ReferenceIdeal.Read.val_main_v125 (F := Ideal) (m ((c : Thread nD τ).loc main_arg10)) (ix1 j) := by
  show StableHlo.after hostOps0 (W0 m ρ c) (Proc.devRef .tc main_v101) (ix2 0 j) = _
  after_results_simp
  refine (shapeCast_a_1a_apply _ _ 0 j).trans ?_
  rfl

set_option maxHeartbeats 4000000 in
/-- The layer-norm shift, kept as a row. -/
theorem in0_shift (j : Fin 128) : V1 (F := Ideal) m ρ c (Pipeline.arrRef spec0 11) (ix2 0 j) = Cert.ReferenceIdeal.Read.val_main_v127 (F := Ideal) (m ((c : Thread nD τ).loc main_arg11)) (ix1 j) := by
  show StableHlo.after hostOps0 (W0 m ρ c) (Proc.devRef .tc main_v104) (ix2 0 j) = _
  after_results_simp
  refine (shapeCast_a_1a_apply _ _ 0 j).trans ?_
  rfl

end Cert.Bridge

end
-- ==== Proof.Body0.lean ====
/-
  Region 0 (a hidden layer at a node of two incoming edge types): the staging buffer the body leaves,
  read at row `p` and lane `j`, is the fused spelling `Cert.Sage.hidden2F` of the input blocks.
-/
import proofs.«171430_j23888608100644_2_alg».proof.Proof.Gen.KernelIdeal.Frame
import proofs.«171430_j23888608100644_2_alg».proof.Proof.Spec
import proofs.«171430_j23888608100644_2_alg».proof.Proof.BodyLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## A `[4000,128] × [128,128]` product into a zero accumulator, at an index -/

theorem dot0_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot0_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot0_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot0_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product at `(p, j)` is the sum over the contracted lane `k` of left `(p, k)` times right `(k, j)`. -/
theorem mm0_apply {φ₁ φ₂ : FTy} (l : FVec Ideal S4000x128 φ₁) (r : FVec Ideal S128x128 φ₂) (p : Fin 4000) (j : Fin 128) :
    matmul dot_S4000x128_S128x128_S4000x128_1_0_0_1_n_n none l r (constant (F := Ideal) S4000x128 .f32 0x00000000#32) (ix2 p j)
      = ∑ k : Fin 128, l (ix2 p k) * r (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact dot0_lhs0 _ _
      | ⟨1, _⟩ => exact (dot0_lhs1 _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (dot0_rhs0 _ _).trans hk
      | ⟨1, _⟩ => exact dot0_rhs1 _ _)
  rw [el, er]

/-! ## The pre-activation: three products and the bias row -/

/-- The first part of the body at `(p, j)`: both scaled neighbourhood sums through their weights, the self
    features through theirs, and the bias. -/
theorem pre0_apply (v0 : Vec Ideal S4000x128 .f32) (v2 : Vec Ideal S4000x1 .f32) (v7 : Vec Ideal S4000x128 .f32)
    (v9 : Vec Ideal S4000x1 .f32) (v14 : Vec Ideal S4000x128 .f32) (v16 v19 v22 : Vec Ideal S128x128 .f32)
    (v30 : Vec Ideal S1x128 .f32) (p : Fin 4000) (j : Fin 128) :
    k0_pay2 (F := Ideal) v0 v2 v7 v9 v14 v16 v19 v22 v30 (ix2 p j)
      = Cert.Sage.pre2F (fun r k => v0 (ix2 r k)) (fun r => v2 (ix2 r (0 : Fin 1))) (fun r k => v7 (ix2 r k))
          (fun r => v9 (ix2 r (0 : Fin 1))) (fun r k => v14 (ix2 r k)) (fun k j => v16 (ix2 k j)) (fun k j => v19 (ix2 k j))
          (fun k j => v22 (ix2 k j)) (fun j => v30 (ix2 (0 : Fin 1) j)) p j := by
  unfold k0_pay2
  simp only [shapeCast_self]
  rw [addf_apply, addf_apply, addf_apply, mm0_apply, mm0_apply, mm0_apply, broadcastTo_1b_ab_apply]
  simp only [truncf_apply, mulf_apply, broadcastTo_a1_ab_apply]
  rfl

/-! ## The whole body -/

/-- The rows the layer norm is applied to: the pre-activation plus its product with the residual matrix. -/
theorem resid0_apply (P : FVec Ideal S4000x128 .f32) (L : FVec Ideal S128x128 .f32) (r : Fin 4000) (k : Fin 128) :
    addf P (matmul dot_S4000x128_S128x128_S4000x128_1_0_0_1_n_n none (truncf .bf16 P bitsLt_bf16_f32) (truncf .bf16 L bitsLt_bf16_f32)
        (constant (F := Ideal) S4000x128 .f32 0x00000000#32)) (ix2 r k)
      = Cert.Sage.resid (fun r k => P (ix2 r k)) (fun k j => L (ix2 k j)) r k := by
  rw [addf_apply, mm0_apply]
  rfl

theorem out0_apply (x0 : Vec Ideal S4000x128 .f32) (x1 : Vec Ideal S4000x1 .f32) (x2 : Vec Ideal S4000x128 .f32)
    (x3 : Vec Ideal S4000x1 .f32) (x4 : Vec Ideal S4000x128 .f32) (x5 x6 x7 : Vec Ideal S128x128 .f32) (x8 : Vec Ideal S1x128 .f32)
    (x9 : Vec Ideal S128x128 .f32) (x10 x11 : Vec Ideal S1x128 .f32) (p : Fin 4000) (j : Fin 128) :
    Cert.KernelIdeal.Gen.out0_12 (F := Ideal) x0 x1 x2 x3 x4 x5 x6 x7 x8 x9 x10 x11 (ix2 p j)
      = Cert.Sage.hidden2F (fun r k => x0 (ix2 r k)) (fun r => x1 (ix2 r 0)) (fun r k => x2 (ix2 r k)) (fun r => x3 (ix2 r 0))
          (fun r k => x4 (ix2 r k)) (fun k j => x5 (ix2 k j)) (fun k j => x6 (ix2 k j)) (fun k j => x7 (ix2 k j))
          (fun j => x8 (ix2 0 j)) (fun k j => x9 (ix2 k j)) (fun j => x10 (ix2 0 j)) (fun j => x11 (ix2 0 j)) p j := by
  unfold Cert.KernelIdeal.Gen.out0_12
  rw [View.canon_unit_zero hz]
  simp only [View.ld_unit_zero (S := S4000x128) hz, View.ld_unit_zero (S := S4000x1) hz,
    View.ld_unit_zero (S := S128x128) hz, View.ld_unit_zero (S := S1x128) hz]
  generalize hP : k0_pay2 (F := Ideal) x0 x1 x2 x3 x4 x5 x6 x7 x8 = P
  have hpre : (fun r k => P (ix2 r k)) = Cert.Sage.pre2F (fun r k => x0 (ix2 r k)) (fun r => x1 (ix2 r (0 : Fin 1)))
      (fun r k => x2 (ix2 r k)) (fun r => x3 (ix2 r (0 : Fin 1))) (fun r k => x4 (ix2 r k)) (fun k j => x5 (ix2 k j))
      (fun k j => x6 (ix2 k j)) (fun k j => x7 (ix2 k j)) (fun j => x8 (ix2 (0 : Fin 1) j)) :=
    funext fun r => funext fun k => by rw [← hP]; exact pre0_apply x0 x1 x2 x3 x4 x5 x6 x7 x8 r k
  have hpay : k0_pay1 (F := Ideal) P (k0_pay3 x9) x10 x11
      = lnOps (addf P (matmul dot_S4000x128_S128x128_S4000x128_1_0_0_1_n_n none (truncf .bf16 P bitsLt_bf16_f32)
            (truncf .bf16 (shapeCast S128x128 x9 shapeCasts_S128x128_S128x128) bitsLt_bf16_f32) (constant (F := Ideal) S4000x128 .f32 0x00000000#32)))
          (meanOps (addf P (matmul dot_S4000x128_S128x128_S4000x128_1_0_0_1_n_n none (truncf .bf16 P bitsLt_bf16_f32)
            (truncf .bf16 (shapeCast S128x128 x9 shapeCasts_S128x128_S128x128) bitsLt_bf16_f32) (constant (F := Ideal) S4000x128 .f32 0x00000000#32)))
            reduces_S4000x128_S4000 (.inl rfl) rfl shapeCasts_S4000_S4000x1)
          (shapeCast S1x128 x10 shapeCasts_S1x128_S1x128) (shapeCast S1x128 x11 shapeCasts_S1x128_S1x128)
          broadcasts_S4000x1_S4000x128 broadcasts_S1x128_S4000x128 reduces_S4000x128_S4000 (.inl rfl) rfl shapeCasts_S4000_S4000x1 := rfl
  rw [hpay]
  refine (lnOps_apply _ _ _ _ _ _ _ _ _ _ (fun r u => meanOps_apply _ _ _ _ _ r u) p j).trans ?_
  simp only [shapeCast_self]
  have hq : (fun r k => addf P (matmul dot_S4000x128_S128x128_S4000x128_1_0_0_1_n_n none (truncf .bf16 P bitsLt_bf16_f32)
        (truncf .bf16 x9 bitsLt_bf16_f32) (constant (F := Ideal) S4000x128 .f32 0x00000000#32)) (ix2 r k))
      = Cert.Sage.resid (fun r k => P (ix2 r k)) (fun k j => x9 (ix2 k j)) :=
    funext fun r => funext fun k => resid0_apply P x9 r k
  rw [hq, hpre]
  rfl

end Cert.KernelIdeal.Body

end
-- ==== Proof.Tile0.lean ====
/-
  From tiles to the array: the paper nodes' hidden layer.

  A tiled region stages a tile of every operand at each grid point, runs its body, and writes the output
  tile back.  The body's result at a tile is the layer's row-wise formula of the staged rows; since the
  formula treats every row alike, the tile a point writes back is the corresponding tile of ONE function
  of the region's whole input arrays, and the tiles cover the output array.  So the output array after the
  region IS that function of the input arrays.
-/
import proofs.«171430_j23888608100644_2_alg».proof.Proof.Gen.KernelIdeal.Frame
import proofs.«171430_j23888608100644_2_alg».proof.Proof.Spec
import proofs.«171430_j23888608100644_2_alg».proof.Proof.Body0
import Idealize.ShloMosaic.Lib.ValueIdx
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat)

/-- The hidden layer of the paper nodes as ONE function of the region's twelve input arrays: row `r` of the result is the
    fused layer formula of row `r` of the two neighbourhood sums, the two reciprocal degrees and the self features, and of
    the whole weight, bias and layer-norm arrays. -/
def paperHidden (a0 : FVec Ideal S100000x128 .f32) (a1 : FVec Ideal S100000x1 .f32) (a2 : FVec Ideal S100000x128 .f32) (a3 : FVec Ideal S100000x1 .f32) (a4 : FVec Ideal S100000x128 .f32) (a5 : FVec Ideal S128x128 .f32) (a6 : FVec Ideal S128x128 .f32) (a7 : FVec Ideal S128x128 .f32) (a8 : FVec Ideal S1x128 .f32) (a9 : FVec Ideal S128x128 .f32) (a10 : FVec Ideal S1x128 .f32) (a11 : FVec Ideal S1x128 .f32) : FVec Ideal S100000x128 .f32 :=
  fun i => Cert.Sage.hidden2F (R := Fin 100000) (fun r k => a0 (ix2 r k)) (fun r => a1 (ix2 r 0)) (fun r k => a2 (ix2 r k)) (fun r => a3 (ix2 r 0)) (fun r k => a4 (ix2 r k)) (fun k j => a5 (ix2 k j)) (fun k j => a6 (ix2 k j)) (fun k j => a7 (ix2 k j)) (fun j => a8 (ix2 0 j)) (fun k j => a9 (ix2 k j)) (fun j => a10 (ix2 0 j)) (fun j => a11 (ix2 0 j)) (i 0) (i 1)

/-- The tiling, decided over the 25 grid points: the row windows move with the output's row tile, the column
    tile is always the first, and the weight, bias and layer-norm windows stay at the origin. -/
theorem idx0 : ∀ t : Fin cfg0.N,
    win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_2.index t (0 : Fin 2) = win0_12.index t (0 : Fin 2) ∧ win0_2.index t (1 : Fin 2) = 0
    ∧ win0_3.index t (0 : Fin 2) = win0_12.index t (0 : Fin 2) ∧ win0_3.index t (1 : Fin 2) = 0
    ∧ win0_4.index t (0 : Fin 2) = win0_12.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) ≤ 24 ∧ win0_12.index t (1 : Fin 2) = 0 :=
  (by decide +kernel : ∀ t : Fin grid0.N, _)

/-- Every row tile is some point's. -/
theorem onto0 : ∀ q : Fin 25, ∃ t : Fin cfg0.N, win0_12.index t = ![q.val, 0] :=
  (by decide +kernel : ∀ q : Fin 25, ∃ t : Fin grid0.N, win0_12.index t = ![q.val, 0])

/-- The array row that row `r` of point `t`'s tile is. -/
def row0 (t : Fin cfg0.N) (r : Fin 4000) : Fin 100000 :=
  ⟨win0_12.index t (0 : Fin 2) * 4000 + r.val, by
    have h := (idx0 t).2.2.2.2.2.2.2.2.2.2.2.2.2.2.2.2.2.2.2.2.2.2.2.2.1
    have hr := r.isLt
    omega⟩

variable (V : (c : Dev nD) → (b : Ref sig .tc) → Buf (Elt Ideal) ((c : Thread nD τ).loc b))

section blocks
variable (c : Dev nD) (t : Fin cfg0.N)

theorem blk0_0 (r : Fin 4000) (k : Fin 128) : iblk0 V c 0 t (ix2 r k) = V c (Pipeline.arrRef spec0 0) (ix2 (row0 t r) k) := by
  obtain ⟨a0, b0, a1, b1, a2, b2, a3, b3, a4, b4, a5, b5, a6, b6, a7, b7, a8, b8, a9, b9, a10, b10, a11, b11, hle, bo⟩ := idx0 t
  show V c (Pipeline.arrRef spec0 0) (((cfg0.win 0).blk t).view.emb (ix2 r k)) = _
  congr 1; funext a; apply Fin.ext
  match a with
  | ⟨0, _⟩ => show win0_0.index t (0 : Fin 2) * 4000 + 1 * r.val = win0_12.index t (0 : Fin 2) * 4000 + r.val; omega
  | ⟨1, _⟩ => show win0_0.index t (1 : Fin 2) * 128 + 1 * k.val = k.val; omega

theorem blk0_1 (r : Fin 4000) : iblk0 V c 1 t (ix2 r 0) = V c (Pipeline.arrRef spec0 1) (ix2 (row0 t r) 0) := by
  obtain ⟨a0, b0, a1, b1, a2, b2, a3, b3, a4, b4, a5, b5, a6, b6, a7, b7, a8, b8, a9, b9, a10, b10, a11, b11, hle, bo⟩ := idx0 t
  show V c (Pipeline.arrRef spec0 1) (((cfg0.win 1).blk t).view.emb (ix2 r 0)) = _
  congr 1; funext a; apply Fin.ext
  match a with
  | ⟨0, _⟩ => show win0_1.index t (0 : Fin 2) * 4000 + 1 * r.val = win0_12.index t (0 : Fin 2) * 4000 + r.val; omega
  | ⟨1, _⟩ => show win0_1.index t (1 : Fin 2) * 1 + 1 * 0 = 0; omega

theorem blk0_2 (r : Fin 4000) (k : Fin 128) : iblk0 V c 2 t (ix2 r k) = V c (Pipeline.arrRef spec0 2) (ix2 (row0 t r) k) := by
  obtain ⟨a0, b0, a1, b1, a2, b2, a3, b3, a4, b4, a5, b5, a6, b6, a7, b7, a8, b8, a9, b9, a10, b10, a11, b11, hle, bo⟩ := idx0 t
  show V c (Pipeline.arrRef spec0 2) (((cfg0.win 2).blk t).view.emb (ix2 r k)) = _
  congr 1; funext a; apply Fin.ext
  match a with
  | ⟨0, _⟩ => show win0_2.index t (0 : Fin 2) * 4000 + 1 * r.val = win0_12.index t (0 : Fin 2) * 4000 + r.val; omega
  | ⟨1, _⟩ => show win0_2.index t (1 : Fin 2) * 128 + 1 * k.val = k.val; omega

theorem blk0_3 (r : Fin 4000) : iblk0 V c 3 t (ix2 r 0) = V c (Pipeline.arrRef spec0 3) (ix2 (row0 t r) 0) := by
  obtain ⟨a0, b0, a1, b1, a2, b2, a3, b3, a4, b4, a5, b5, a6, b6, a7, b7, a8, b8, a9, b9, a10, b10, a11, b11, hle, bo⟩ := idx0 t
  show V c (Pipeline.arrRef spec0 3) (((cfg0.win 3).blk t).view.emb (ix2 r 0)) = _
  congr 1; funext a; apply Fin.ext
  match a with
  | ⟨0, _⟩ => show win0_3.index t (0 : Fin 2) * 4000 + 1 * r.val = win0_12.index t (0 : Fin 2) * 4000 + r.val; omega
  | ⟨1, _⟩ => show win0_3.index t (1 : Fin 2) * 1 + 1 * 0 = 0; omega

theorem blk0_4 (r : Fin 4000) (k : Fin 128) : iblk0 V c 4 t (ix2 r k) = V c (Pipeline.arrRef spec0 4) (ix2 (row0 t r) k) := by
  obtain ⟨a0, b0, a1, b1, a2, b2, a3, b3, a4, b4, a5, b5, a6, b6, a7, b7, a8, b8, a9, b9, a10, b10, a11, b11, hle, bo⟩ := idx0 t
  show V c (Pipeline.arrRef spec0 4) (((cfg0.win 4).blk t).view.emb (ix2 r k)) = _
  congr 1; funext a; apply Fin.ext
  match a with
  | ⟨0, _⟩ => show win0_4.index t (0 : Fin 2) * 4000 + 1 * r.val = win0_12.index t (0 : Fin 2) * 4000 + r.val; omega
  | ⟨1, _⟩ => show win0_4.index t (1 : Fin 2) * 128 + 1 * k.val = k.val; omega

theorem blk0_5 (k j : Fin 128) : iblk0 V c 5 t (ix2 k j) = V c (Pipeline.arrRef spec0 5) (ix2 k j) := by
  obtain ⟨a0, b0, a1, b1, a2, b2, a3, b3, a4, b4, a5, b5, a6, b6, a7, b7, a8, b8, a9, b9, a10, b10, a11, b11, hle, bo⟩ := idx0 t
  show V c (Pipeline.arrRef spec0 5) (((cfg0.win 5).blk t).view.emb (ix2 k j)) = _
  congr 1; funext a; apply Fin.ext
  match a with
  | ⟨0, _⟩ => show win0_5.index t (0 : Fin 2) * 128 + 1 * k.val = k.val; omega
  | ⟨1, _⟩ => show win0_5.index t (1 : Fin 2) * 128 + 1 * j.val = j.val; omega

theorem blk0_6 (k j : Fin 128) : iblk0 V c 6 t (ix2 k j) = V c (Pipeline.arrRef spec0 6) (ix2 k j) := by
  obtain ⟨a0, b0, a1, b1, a2, b2, a3, b3, a4, b4, a5, b5, a6, b6, a7, b7, a8, b8, a9, b9, a10, b10, a11, b11, hle, bo⟩ := idx0 t
  show V c (Pipeline.arrRef spec0 6) (((cfg0.win 6).blk t).view.emb (ix2 k j)) = _
  congr 1; funext a; apply Fin.ext
  match a with
  | ⟨0, _⟩ => show win0_6.index t (0 : Fin 2) * 128 + 1 * k.val = k.val; omega
  | ⟨1, _⟩ => show win0_6.index t (1 : Fin 2) * 128 + 1 * j.val = j.val; omega

theorem blk0_7 (k j : Fin 128) : iblk0 V c 7 t (ix2 k j) = V c (Pipeline.arrRef spec0 7) (ix2 k j) := by
  obtain ⟨a0, b0, a1, b1, a2, b2, a3, b3, a4, b4, a5, b5, a6, b6, a7, b7, a8, b8, a9, b9, a10, b10, a11, b11, hle, bo⟩ := idx0 t
  show V c (Pipeline.arrRef spec0 7) (((cfg0.win 7).blk t).view.emb (ix2 k j)) = _
  congr 1; funext a; apply Fin.ext
  match a with
  | ⟨0, _⟩ => show win0_7.index t (0 : Fin 2) * 128 + 1 * k.val = k.val; omega
  | ⟨1, _⟩ => show win0_7.index t (1 : Fin 2) * 128 + 1 * j.val = j.val; omega

theorem blk0_8 (j : Fin 128) : iblk0 V c 8 t (ix2 0 j) = V c (Pipeline.arrRef spec0 8) (ix2 0 j) := by
  obtain ⟨a0, b0, a1, b1, a2, b2, a3, b3, a4, b4, a5, b5, a6, b6, a7, b7, a8, b8, a9, b9, a10, b10, a11, b11, hle, bo⟩ := idx0 t
  show V c (Pipeline.arrRef spec0 8) (((cfg0.win 8).blk t).view.emb (ix2 0 j)) = _
  congr 1; funext a; apply Fin.ext
  match a with
  | ⟨0, _⟩ => show win0_8.index t (0 : Fin 2) * 1 + 1 * 0 = 0; omega
  | ⟨1, _⟩ => show win0_8.index t (1 : Fin 2) * 128 + 1 * j.val = j.val; omega

theorem blk0_9 (k j : Fin 128) : iblk0 V c 9 t (ix2 k j) = V c (Pipeline.arrRef spec0 9) (ix2 k j) := by
  obtain ⟨a0, b0, a1, b1, a2, b2, a3, b3, a4, b4, a5, b5, a6, b6, a7, b7, a8, b8, a9, b9, a10, b10, a11, b11, hle, bo⟩ := idx0 t
  show V c (Pipeline.arrRef spec0 9) (((cfg0.win 9).blk t).view.emb (ix2 k j)) = _
  congr 1; funext a; apply Fin.ext
  match a with
  | ⟨0, _⟩ => show win0_9.index t (0 : Fin 2) * 128 + 1 * k.val = k.val; omega
  | ⟨1, _⟩ => show win0_9.index t (1 : Fin 2) * 128 + 1 * j.val = j.val; omega

theorem blk0_10 (j : Fin 128) : iblk0 V c 10 t (ix2 0 j) = V c (Pipeline.arrRef spec0 10) (ix2 0 j) := by
  obtain ⟨a0, b0, a1, b1, a2, b2, a3, b3, a4, b4, a5, b5, a6, b6, a7, b7, a8, b8, a9, b9, a10, b10, a11, b11, hle, bo⟩ := idx0 t
  show V c (Pipeline.arrRef spec0 10) (((cfg0.win 10).blk t).view.emb (ix2 0 j)) = _
  congr 1; funext a; apply Fin.ext
  match a with
  | ⟨0, _⟩ => show win0_10.index t (0 : Fin 2) * 1 + 1 * 0 = 0; omega
  | ⟨1, _⟩ => show win0_10.index t (1 : Fin 2) * 128 + 1 * j.val = j.val; omega

theorem blk0_11 (j : Fin 128) : iblk0 V c 11 t (ix2 0 j) = V c (Pipeline.arrRef spec0 11) (ix2 0 j) := by
  obtain ⟨a0, b0, a1, b1, a2, b2, a3, b3, a4, b4, a5, b5, a6, b6, a7, b7, a8, b8, a9, b9, a10, b10, a11, b11, hle, bo⟩ := idx0 t
  show V c (Pipeline.arrRef spec0 11) (((cfg0.win 11).blk t).view.emb (ix2 0 j)) = _
  congr 1; funext a; apply Fin.ext
  match a with
  | ⟨0, _⟩ => show win0_11.index t (0 : Fin 2) * 1 + 1 * 0 = 0; omega
  | ⟨1, _⟩ => show win0_11.index t (1 : Fin 2) * 128 + 1 * j.val = j.val; omega

end blocks

set_option maxHeartbeats 1000000 in
/-- What point `t` writes back is tile `t` of the whole-array function of the region's input arrays: the layer
    acts row by row, and the tile's rows are the array's rows `row0 t ·`. -/
theorem flushed0_eq (c : Dev nD) (t : Fin cfg0.N) :
    (dat0 V c).flushed 12 t = ((cfg0.win 12).blk t).view.read (Elt Ideal) (paperHidden (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11))) := by
  show (cfg0.win 12).cut (grid0.coords t) ((dat0 V c).after 12 t) = _
  rw [after0_12]
  funext y
  have h0 : (y 0).val < 4000 := Nat.lt_of_lt_of_le (y 0).isLt ((cfg0.win 12).xsize_le (grid0.coords t) 0)
  have h1 : (y 1).val < 128 := Nat.lt_of_lt_of_le (y 1).isLt ((cfg0.win 12).xsize_le (grid0.coords t) 1)
  have hx : (cfg0.win 12).xinj (grid0.coords t) y = ix2 (⟨(y 0).val, h0⟩ : Fin 4000) (⟨(y 1).val, h1⟩ : Fin 128) := by
    funext a; apply Fin.ext
    match a with
    | ⟨0, _⟩ => rfl
    | ⟨1, _⟩ => rfl
  have he : ((cfg0.win 12).blk t).view.emb y = ix2 (row0 t ⟨(y 0).val, h0⟩) (⟨(y 1).val, h1⟩ : Fin 128) := by
    obtain ⟨a0, b0, a1, b1, a2, b2, a3, b3, a4, b4, a5, b5, a6, b6, a7, b7, a8, b8, a9, b9, a10, b10, a11, b11, hle, bo⟩ := idx0 t
    funext a; apply Fin.ext
    match a with
    | ⟨0, _⟩ => show win0_12.index t (0 : Fin 2) * 4000 + 1 * (y 0).val = win0_12.index t (0 : Fin 2) * 4000 + (y 0).val; omega
    | ⟨1, _⟩ => show win0_12.index t (1 : Fin 2) * 128 + 1 * (y 1).val = (y 1).val; omega
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) ((cfg0.win 12).xinj (grid0.coords t) y) = paperHidden (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (((cfg0.win 12).blk t).view.emb y)
  rw [hx, he]
  refine (Cert.KernelIdeal.Body.out0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ _).trans ?_
  simp only [blk0_0, blk0_1, blk0_2, blk0_3, blk0_4, blk0_5, blk0_6, blk0_7, blk0_8, blk0_9, blk0_10, blk0_11]
  rfl

/-- An index of the array is in point `t`'s tile iff each coordinate is in the tile's range on its axis. -/
theorem mem_blk0 (t : Fin cfg0.N) (i : S100000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v105).slice (win0_12.rect t)).set ↔ _
  rw [View.set_slice_whole, Rect.mem_set_unit]
  exact Iff.rfl

/-- The 25 row tiles cover the array: row `r` is in tile `r / 4000`. -/
theorem cover0 (i : S100000x128.Idx) : ∃ t : Fin cfg0.N, (cfg0.win 12).flush t = true ∧ i ∈ ((cfg0.win 12).blk t).view.set := by
  have hi0 : (i 0).val < 100000 := (i 0).isLt
  have hi1 : (i 1).val < 128 := (i 1).isLt
  obtain ⟨t, ht⟩ := onto0 ⟨(i 0).val / 4000, by omega⟩
  have q0 : win0_12.index t (0 : Fin 2) = (i 0).val / 4000 := congrFun ht 0
  have q1 : win0_12.index t (1 : Fin 2) = 0 := congrFun ht 1
  refine ⟨t, flush0_12 t, ?_⟩
  rw [mem_blk0]
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 128 ≤ (i 1).val ∧ (i 1).val < win0_12.index t (1 : Fin 2) * 128 + 128; omega

/-- THE REGION'S OUTPUT ARRAY after its 25 points, as one function of the region's input arrays as the region
    finds them. -/
theorem arr0 (c : Dev nD) : (dat0 V c).arrAt 12 cfg0.N = paperHidden (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) :=
  (dat0 V c).arrAt_eq_of_cover 12 _ (fun t _ => flushed0_eq V c t) cover0

end Cert.KernelIdeal.Tiles

end
-- ==== Proof.RefHidden.lean ====
/-
  The reference program's two hidden-layer outputs of layer 0, read at an index on the extended reals.

  Each stage of the reference is read at a coordinate pair `(r, j)`: a bias or layer-norm row broadcast over the rows
  reads the row at `j`; the neighbourhood sum divided by the broadcast in-degree reads the degree of row `r`; a product
  with a (transposed) weight stage is the sum over `k` of row `r` at `k` times the weight at `(k, j)`; a sum along a row
  starting from the zero word is the plain sum. Chained, the layer-0 output of a paper node is the plain spelling
  `Sage.hidden2P` (two incoming edge types) and that of an author node is `Sage.hidden1P` (one), each applied to the
  neighbourhood sums and in-degrees (kept as opaque arrays), the node's own features, and the reference's own weight,
  bias and layer-norm stages.
-/
import proofs.«171430_j23888608100644_2_alg».proof.Proof.RefRead
import proofs.«171430_j23888608100644_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S50000x128, .f32⟩ : BufTy).Contents (Elt Ideal))
  (x2 x3 x4 : (⟨S2x500000, .i32⟩ : BufTy).Contents (Elt Ideal))
  (x5 x6 : (⟨S2x3x128x128, .f32⟩ : BufTy).Contents (Elt Ideal)) (x7 : (⟨S2x3x128, .f32⟩ : BufTy).Contents (Elt Ideal))
  (x8 x9 : (⟨S128x128, .f32⟩ : BufTy).Contents (Elt Ideal)) (x10 x11 : (⟨S2x2x128, .f32⟩ : BufTy).Contents (Elt Ideal))
  (x12 : (⟨S128x16, .f32⟩ : BufTy).Contents (Elt Ideal)) (x13 : (⟨S16, .f32⟩ : BufTy).Contents (Elt Ideal))

/-- Two indices of rank 1 are equal when their coordinates are, by computation. -/
local macro "idx1" : tactic => `(tactic| exact funext fun a => Fin.ext (by match a with | ⟨0, _⟩ => rfl))
/-- Two indices of rank 2 are equal when their coordinates are, each by computation. -/
local macro "idx2" : tactic => `(tactic| exact funext fun a => Fin.ext (by match a with | ⟨0, _⟩ => rfl | ⟨1, _⟩ => rfl))

/-! ## Layer 0, paper nodes: the two convolutions (edge types cites and writes) -/

/-- The bias row of the first convolution, broadcast over the rows. -/
theorem bias_34 (r : Fin 100000) (j : Fin 128) : val_main_v34 (F := Ideal) x7 (ix2 r j) = val_main_v5 (F := Ideal) x7 (ix1 j) := by
  rw [val_main_v34_apply, val_main_v33_apply]
  exact congrArg _ (by idx1)

/-- The neighbourhood sum of the first edge type divided by the in-degree, the degree clipped below at one. -/
theorem mean_30 (r : Fin 100000) (k : Fin 128) :
    val_main_v30 (F := Ideal) x0 x2 (ix2 r k) = Ideal.div (val_main_v19 (F := Ideal) x0 x2 (ix2 r k)) (max (val_main_v25 (F := Ideal) x2 (ix1 r)) Cert.Sage.one) := by
  rw [val_main_v30_apply, val_main_v29_apply, val_main_v28_apply, val_main_v27_apply, val_main_v26_apply, val_main_cst_3_apply,
    show idx_main_v28 (idx_main_v29 (ix2 r k)) = ix1 r by idx1]
  rfl

/-- The first convolution at `(r, j)`: the neighbours' mean through the neighbour weight, plus the bias, plus the
    node's own features through the self weight. -/
theorem conv_38 (r : Fin 100000) (j : Fin 128) :
    val_main_v38 (F := Ideal) x0 x2 x5 x6 x7 (ix2 r j)
      = Cert.Sage.conv (fun r k => val_main_v19 (F := Ideal) x0 x2 (ix2 r k)) (fun r => val_main_v25 (F := Ideal) x2 (ix1 r)) (fun r k => x0 (ix2 r k))
          (fun k j => val_main_v31 (F := Ideal) x5 (ix2 k j)) (fun k j => val_main_v36 (F := Ideal) x6 (ix2 k j)) (fun j => val_main_v5 (F := Ideal) x7 (ix1 j)) r j := by
  rw [val_main_v38_apply, val_main_v35_apply, val_main_v32_apply, val_main_v37_apply, bias_34]
  simp only [Ideal.addf_def]
  refine congrArg₂ (· + ·) (congrArg₂ (· + ·) (Finset.sum_congr rfl fun k _ => ?_) rfl) (Finset.sum_congr rfl fun k _ => ?_)
  · rw [show lidx_main_v32 (ix2 r j) k = ix2 r k by idx2, show ridx_main_v32 (ix2 r j) k = ix2 k j by idx2, mean_30]
  · rw [show lidx_main_v37 (ix2 r j) k = ix2 r k by idx2, show ridx_main_v37 (ix2 r j) k = ix2 k j by idx2]

/-- The bias row of the second convolution, broadcast over the rows. -/
theorem bias_73 (r : Fin 100000) (j : Fin 128) : val_main_v73 (F := Ideal) x7 (ix2 r j) = val_main_v44 (F := Ideal) x7 (ix1 j) := by
  rw [val_main_v73_apply, val_main_v72_apply]
  exact congrArg _ (by idx1)

/-- The neighbourhood sum of the second edge type divided by its clipped in-degree. -/
theorem mean_69 (r : Fin 100000) (k : Fin 128) :
    val_main_v69 (F := Ideal) x1 x3 (ix2 r k) = Ideal.div (val_main_v58 (F := Ideal) x1 x3 (ix2 r k)) (max (val_main_v64 (F := Ideal) x3 (ix1 r)) Cert.Sage.one) := by
  rw [val_main_v69_apply, val_main_v68_apply, val_main_v67_apply, val_main_v66_apply, val_main_v65_apply, val_main_cst_9_apply,
    show idx_main_v67 (idx_main_v68 (ix2 r k)) = ix1 r by idx1]
  rfl

/-- The second convolution at `(r, j)`. -/
theorem conv_77 (r : Fin 100000) (j : Fin 128) :
    val_main_v77 (F := Ideal) x0 x1 x3 x5 x6 x7 (ix2 r j)
      = Cert.Sage.conv (fun r k => val_main_v58 (F := Ideal) x1 x3 (ix2 r k)) (fun r => val_main_v64 (F := Ideal) x3 (ix1 r)) (fun r k => x0 (ix2 r k))
          (fun k j => val_main_v70 (F := Ideal) x5 (ix2 k j)) (fun k j => val_main_v75 (F := Ideal) x6 (ix2 k j)) (fun j => val_main_v44 (F := Ideal) x7 (ix1 j)) r j := by
  rw [val_main_v77_apply, val_main_v74_apply, val_main_v71_apply, val_main_v76_apply, bias_73]
  simp only [Ideal.addf_def]
  refine congrArg₂ (· + ·) (congrArg₂ (· + ·) (Finset.sum_congr rfl fun k _ => ?_) rfl) (Finset.sum_congr rfl fun k _ => ?_)
  · rw [show lidx_main_v71 (ix2 r j) k = ix2 r k by idx2, show ridx_main_v71 (ix2 r j) k = ix2 k j by idx2, mean_69]
  · rw [show lidx_main_v76 (ix2 r j) k = ix2 r k by idx2, show ridx_main_v76 (ix2 r j) k = ix2 k j by idx2]

/-- The sum of the two convolutions: the pre-activation of a paper node. -/
theorem pre_78 (r : Fin 100000) (j : Fin 128) :
    val_main_v78 (F := Ideal) x0 x1 x2 x3 x5 x6 x7 (ix2 r j)
      = Cert.Sage.pre2P (fun r k => val_main_v19 (F := Ideal) x0 x2 (ix2 r k)) (fun r => val_main_v25 (F := Ideal) x2 (ix1 r))
          (fun r k => val_main_v58 (F := Ideal) x1 x3 (ix2 r k)) (fun r => val_main_v64 (F := Ideal) x3 (ix1 r)) (fun r k => x0 (ix2 r k))
          (fun k j => val_main_v31 (F := Ideal) x5 (ix2 k j)) (fun k j => val_main_v36 (F := Ideal) x6 (ix2 k j)) (fun j => val_main_v5 (F := Ideal) x7 (ix1 j))
          (fun k j => val_main_v70 (F := Ideal) x5 (ix2 k j)) (fun k j => val_main_v75 (F := Ideal) x6 (ix2 k j)) (fun j => val_main_v44 (F := Ideal) x7 (ix1 j)) r j := by
  rw [val_main_v78_apply, conv_38, conv_77]
  rfl

/-- The residual linear map applied to the pre-activation: `p + p · lin`. -/
theorem resid_120 (r : Fin 100000) (j : Fin 128) :
    val_main_v120 (F := Ideal) x0 x1 x2 x3 x5 x6 x7 x8 (ix2 r j)
      = Cert.Sage.resid (fun r k => val_main_v78 (F := Ideal) x0 x1 x2 x3 x5 x6 x7 (ix2 r k)) (fun k j => val_main_v118 (F := Ideal) x8 (ix2 k j)) r j := by
  rw [val_main_v120_apply, val_main_v119_apply]
  simp only [Ideal.addf_def]
  refine congrArg₂ (· + ·) rfl (Finset.sum_congr rfl fun k _ => ?_)
  rw [show lidx_main_v119 (ix2 r j) k = ix2 r k by idx2, show ridx_main_v119 (ix2 r j) k = ix2 k j by idx2]

/-! ## Layer 0, paper nodes: layer norm and the positive part -/

/-- The mean of row `r` of the residual output. -/
theorem mean_131 (r : Fin 100000) :
    val_main_v131 (F := Ideal) x0 x1 x2 x3 x5 x6 x7 x8 (ix2 r 0) = Cert.Sage.rowMean (fun r k => val_main_v120 (F := Ideal) x0 x1 x2 x3 x5 x6 x7 x8 (ix2 r k)) r := by
  rw [val_main_v131_apply, val_main_v129_apply, val_main_v128_apply, val_main_v130_apply, val_main_cst_17_apply, val_main_cst_16_apply]
  simp only [Ideal.hostDivf_def, Ideal.ofBits_def, Ideal.ofBits_zero_f32, zero_add]
  exact congrArg (Ideal.div · Cert.Sage.width) (Finset.sum_congr rfl fun k _ => congrArg _ (by idx2))

/-- An entry of the row minus the row's mean. -/
theorem centred_133 (r : Fin 100000) (j : Fin 128) :
    val_main_v133 (F := Ideal) x0 x1 x2 x3 x5 x6 x7 x8 (ix2 r j)
      = val_main_v120 (F := Ideal) x0 x1 x2 x3 x5 x6 x7 x8 (ix2 r j) - Cert.Sage.rowMean (fun r k => val_main_v120 (F := Ideal) x0 x1 x2 x3 x5 x6 x7 x8 (ix2 r k)) r := by
  rw [val_main_v133_apply, val_main_v132_apply, show idx_main_v132 (ix2 r j) = ix2 r 0 by idx2, mean_131]
  rfl

/-- The variance of row `r`: the mean of the squared deviations. -/
theorem var_138 (r : Fin 100000) :
    val_main_v138 (F := Ideal) x0 x1 x2 x3 x5 x6 x7 x8 (ix2 r 0) = Cert.Sage.rowVar (fun r k => val_main_v120 (F := Ideal) x0 x1 x2 x3 x5 x6 x7 x8 (ix2 r k)) r := by
  rw [val_main_v138_apply, val_main_v136_apply, val_main_v135_apply, val_main_v137_apply, val_main_cst_19_apply, val_main_cst_18_apply]
  simp only [Ideal.hostDivf_def, Ideal.ofBits_def, Ideal.ofBits_zero_f32, zero_add]
  refine congrArg (Ideal.div · Cert.Sage.width) (Finset.sum_congr rfl fun k _ => ?_)
  rw [show idx_main_v135 (idx_main_v136 (ix2 r 0)) k = ix2 r k by idx2, val_main_v134_apply, centred_133]
  rfl

/-- The reciprocal square root of the variance plus the small constant. -/
theorem rstd_143 (r : Fin 100000) :
    val_main_v143 (F := Ideal) x0 x1 x2 x3 x5 x6 x7 x8 (ix2 r 0)
      = Ideal.rsqrt (Cert.Sage.rowVar (fun r k => val_main_v120 (F := Ideal) x0 x1 x2 x3 x5 x6 x7 x8 (ix2 r k)) r + Cert.Sage.eps) := by
  rw [val_main_v143_apply, val_main_v142_apply, var_138, val_main_v141_apply, val_main_cst_20_apply]
  rfl

/-- The scale row broadcast over the rows. -/
theorem scale_147 (r : Fin 100000) (j : Fin 128) : val_main_v147 (F := Ideal) x10 (ix2 r j) = val_main_v125 (F := Ideal) x10 (ix1 j) := by
  rw [val_main_v147_apply, val_main_v146_apply]
  exact congrArg _ (by idx1)

/-- The shift row broadcast over the rows. -/
theorem shift_150 (r : Fin 100000) (j : Fin 128) : val_main_v150 (F := Ideal) x11 (ix2 r j) = val_main_v127 (F := Ideal) x11 (ix1 j) := by
  rw [val_main_v150_apply, val_main_v149_apply]
  exact congrArg _ (by idx1)

/-- Layer norm of the residual output followed by the positive part. -/
theorem lnrelu_152 (r : Fin 100000) (j : Fin 128) :
    val_main_v152 (F := Ideal) x0 x1 x2 x3 x5 x6 x7 x8 x10 x11 (ix2 r j)
      = Cert.Sage.lnRelu (fun r k => val_main_v120 (F := Ideal) x0 x1 x2 x3 x5 x6 x7 x8 (ix2 r k))
          (fun j => val_main_v125 (F := Ideal) x10 (ix1 j)) (fun j => val_main_v127 (F := Ideal) x11 (ix1 j)) r j := by
  rw [val_main_v152_apply, val_main_v151_apply, val_main_v148_apply, val_main_v145_apply, val_main_v140_apply, val_main_v139_apply, val_main_v144_apply,
    show idx_main_v139 (ix2 r j) = ix2 r 0 by idx2, show idx_main_v144 (ix2 r j) = ix2 r 0 by idx2,
    mean_131, rstd_143, scale_147, shift_150, val_main_call0_v0_apply, val_main_call0_cst_apply]
  rfl

/-- THE LAYER-0 OUTPUT OF A PAPER NODE is the plain spelling of the hidden layer, applied to the two
    neighbourhood sums and in-degrees, the node's own features, and the reference's own weight stages. -/
theorem ref_paper0 (r : Fin 100000) (j : Fin 128) :
    val_main_v152 (F := Ideal) x0 x1 x2 x3 x5 x6 x7 x8 x10 x11 (ix2 r j)
      = Cert.Sage.hidden2P (fun r k => val_main_v19 (F := Ideal) x0 x2 (ix2 r k)) (fun r => val_main_v25 (F := Ideal) x2 (ix1 r))
          (fun r k => val_main_v58 (F := Ideal) x1 x3 (ix2 r k)) (fun r => val_main_v64 (F := Ideal) x3 (ix1 r)) (fun r k => x0 (ix2 r k))
          (fun k j => val_main_v31 (F := Ideal) x5 (ix2 k j)) (fun k j => val_main_v36 (F := Ideal) x6 (ix2 k j)) (fun j => val_main_v5 (F := Ideal) x7 (ix1 j))
          (fun k j => val_main_v70 (F := Ideal) x5 (ix2 k j)) (fun k j => val_main_v75 (F := Ideal) x6 (ix2 k j)) (fun j => val_main_v44 (F := Ideal) x7 (ix1 j))
          (fun k j => val_main_v118 (F := Ideal) x8 (ix2 k j)) (fun j => val_main_v125 (F := Ideal) x10 (ix1 j)) (fun j => val_main_v127 (F := Ideal) x11 (ix1 j)) r j := by
  have h78 : (fun (r : Fin 100000) (k : Fin 128) => val_main_v78 (F := Ideal) x0 x1 x2 x3 x5 x6 x7 (ix2 r k))
      = Cert.Sage.pre2P (fun r k => val_main_v19 (F := Ideal) x0 x2 (ix2 r k)) (fun r => val_main_v25 (F := Ideal) x2 (ix1 r))
          (fun r k => val_main_v58 (F := Ideal) x1 x3 (ix2 r k)) (fun r => val_main_v64 (F := Ideal) x3 (ix1 r)) (fun r k => x0 (ix2 r k))
          (fun k j => val_main_v31 (F := Ideal) x5 (ix2 k j)) (fun k j => val_main_v36 (F := Ideal) x6 (ix2 k j)) (fun j => val_main_v5 (F := Ideal) x7 (ix1 j))
          (fun k j => val_main_v70 (F := Ideal) x5 (ix2 k j)) (fun k j => val_main_v75 (F := Ideal) x6 (ix2 k j)) (fun j => val_main_v44 (F := Ideal) x7 (ix1 j)) :=
    funext fun r => funext fun k => pre_78 x0 x1 x2 x3 x5 x6 x7 r k
  have h120 : (fun (r : Fin 100000) (k : Fin 128) => val_main_v120 (F := Ideal) x0 x1 x2 x3 x5 x6 x7 x8 (ix2 r k))
      = Cert.Sage.resid (Cert.Sage.pre2P (fun r k => val_main_v19 (F := Ideal) x0 x2 (ix2 r k)) (fun r => val_main_v25 (F := Ideal) x2 (ix1 r))
          (fun r k => val_main_v58 (F := Ideal) x1 x3 (ix2 r k)) (fun r => val_main_v64 (F := Ideal) x3 (ix1 r)) (fun r k => x0 (ix2 r k))
          (fun k j => val_main_v31 (F := Ideal) x5 (ix2 k j)) (fun k j => val_main_v36 (F := Ideal) x6 (ix2 k j)) (fun j => val_main_v5 (F := Ideal) x7 (ix1 j))
          (fun k j => val_main_v70 (F := Ideal) x5 (ix2 k j)) (fun k j => val_main_v75 (F := Ideal) x6 (ix2 k j)) (fun j => val_main_v44 (F := Ideal) x7 (ix1 j))) (fun k j => val_main_v118 (F := Ideal) x8 (ix2 k j)) :=
    funext fun r => funext fun k => (resid_120 x0 x1 x2 x3 x5 x6 x7 x8 r k).trans (by rw [h78])
  rw [lnrelu_152, h120]
  rfl

/-! ## Layer 0, author nodes: one convolution (edge type rev), the residual map, layer norm, the positive part -/

/-- The bias row of the convolution, broadcast over the rows. -/
theorem bias_113 (r : Fin 50000) (j : Fin 128) : val_main_v113 (F := Ideal) x7 (ix2 r j) = val_main_v84 (F := Ideal) x7 (ix1 j) := by
  rw [val_main_v113_apply, val_main_v112_apply]
  exact congrArg _ (by idx1)

/-- The neighbourhood sum divided by the clipped in-degree. -/
theorem mean_109 (r : Fin 50000) (k : Fin 128) :
    val_main_v109 (F := Ideal) x0 x4 (ix2 r k) = Ideal.div (val_main_v98 (F := Ideal) x0 x4 (ix2 r k)) (max (val_main_v104 (F := Ideal) x4 (ix1 r)) Cert.Sage.one) := by
  rw [val_main_v109_apply, val_main_v108_apply, val_main_v107_apply, val_main_v106_apply, val_main_v105_apply, val_main_cst_15_apply,
    show idx_main_v107 (idx_main_v108 (ix2 r k)) = ix1 r by idx1]
  rfl

/-- The convolution at `(r, j)`. -/
theorem conv_117 (r : Fin 50000) (j : Fin 128) :
    val_main_v117 (F := Ideal) x0 x1 x4 x5 x6 x7 (ix2 r j)
      = Cert.Sage.conv (fun r k => val_main_v98 (F := Ideal) x0 x4 (ix2 r k)) (fun r => val_main_v104 (F := Ideal) x4 (ix1 r)) (fun r k => x1 (ix2 r k))
          (fun k j => val_main_v110 (F := Ideal) x5 (ix2 k j)) (fun k j => val_main_v115 (F := Ideal) x6 (ix2 k j)) (fun j => val_main_v84 (F := Ideal) x7 (ix1 j)) r j := by
  rw [val_main_v117_apply, val_main_v114_apply, val_main_v111_apply, val_main_v116_apply, bias_113]
  simp only [Ideal.addf_def]
  refine congrArg₂ (· + ·) (congrArg₂ (· + ·) (Finset.sum_congr rfl fun k _ => ?_) rfl) (Finset.sum_congr rfl fun k _ => ?_)
  · rw [show lidx_main_v111 (ix2 r j) k = ix2 r k by idx2, show ridx_main_v111 (ix2 r j) k = ix2 k j by idx2, mean_109]
  · rw [show lidx_main_v116 (ix2 r j) k = ix2 r k by idx2, show ridx_main_v116 (ix2 r j) k = ix2 k j by idx2]

/-- The residual linear map applied to the convolution. -/
theorem resid_123 (r : Fin 50000) (j : Fin 128) :
    val_main_v123 (F := Ideal) x0 x1 x4 x5 x6 x7 x9 (ix2 r j)
      = Cert.Sage.resid (fun r k => val_main_v117 (F := Ideal) x0 x1 x4 x5 x6 x7 (ix2 r k)) (fun k j => val_main_v121 (F := Ideal) x9 (ix2 k j)) r j := by
  rw [val_main_v123_apply, val_main_v122_apply]
  simp only [Ideal.addf_def]
  refine congrArg₂ (· + ·) rfl (Finset.sum_congr rfl fun k _ => ?_)
  rw [show lidx_main_v122 (ix2 r j) k = ix2 r k by idx2, show ridx_main_v122 (ix2 r j) k = ix2 k j by idx2]

/-- The mean of row `r` of the residual output. -/
theorem mean_160 (r : Fin 50000) :
    val_main_v160 (F := Ideal) x0 x1 x4 x5 x6 x7 x9 (ix2 r 0) = Cert.Sage.rowMean (fun r k => val_main_v123 (F := Ideal) x0 x1 x4 x5 x6 x7 x9 (ix2 r k)) r := by
  rw [val_main_v160_apply, val_main_v158_apply, val_main_v157_apply, val_main_v159_apply, val_main_cst_22_apply, val_main_cst_21_apply]
  simp only [Ideal.hostDivf_def, Ideal.ofBits_def, Ideal.ofBits_zero_f32, zero_add]
  exact congrArg (Ideal.div · Cert.Sage.width) (Finset.sum_congr rfl fun k _ => congrArg _ (by idx2))

/-- An entry of the row minus the row's mean. -/
theorem centred_162 (r : Fin 50000) (j : Fin 128) :
    val_main_v162 (F := Ideal) x0 x1 x4 x5 x6 x7 x9 (ix2 r j)
      = val_main_v123 (F := Ideal) x0 x1 x4 x5 x6 x7 x9 (ix2 r j) - Cert.Sage.rowMean (fun r k => val_main_v123 (F := Ideal) x0 x1 x4 x5 x6 x7 x9 (ix2 r k)) r := by
  rw [val_main_v162_apply, val_main_v161_apply, show idx_main_v161 (ix2 r j) = ix2 r 0 by idx2, mean_160]
  rfl

/-- The variance of row `r`. -/
theorem var_167 (r : Fin 50000) :
    val_main_v167 (F := Ideal) x0 x1 x4 x5 x6 x7 x9 (ix2 r 0) = Cert.Sage.rowVar (fun r k => val_main_v123 (F := Ideal) x0 x1 x4 x5 x6 x7 x9 (ix2 r k)) r := by
  rw [val_main_v167_apply, val_main_v165_apply, val_main_v164_apply, val_main_v166_apply, val_main_cst_24_apply, val_main_cst_23_apply]
  simp only [Ideal.hostDivf_def, Ideal.ofBits_def, Ideal.ofBits_zero_f32, zero_add]
  refine congrArg (Ideal.div · Cert.Sage.width) (Finset.sum_congr rfl fun k _ => ?_)
  rw [show idx_main_v164 (idx_main_v165 (ix2 r 0)) k = ix2 r k by idx2, val_main_v163_apply, centred_162]
  rfl

/-- The reciprocal square root of the variance plus the small constant. -/
theorem rstd_172 (r : Fin 50000) :
    val_main_v172 (F := Ideal) x0 x1 x4 x5 x6 x7 x9 (ix2 r 0)
      = Ideal.rsqrt (Cert.Sage.rowVar (fun r k => val_main_v123 (F := Ideal) x0 x1 x4 x5 x6 x7 x9 (ix2 r k)) r + Cert.Sage.eps) := by
  rw [val_main_v172_apply, val_main_v171_apply, var_167, val_main_v170_apply, val_main_cst_25_apply]
  rfl

/-- The scale row broadcast over the rows. -/
theorem scale_176 (r : Fin 50000) (j : Fin 128) : val_main_v176 (F := Ideal) x10 (ix2 r j) = val_main_v154 (F := Ideal) x10 (ix1 j) := by
  rw [val_main_v176_apply, val_main_v175_apply]
  exact congrArg _ (by idx1)

/-- The shift row broadcast over the rows. -/
theorem shift_179 (r : Fin 50000) (j : Fin 128) : val_main_v179 (F := Ideal) x11 (ix2 r j) = val_main_v156 (F := Ideal) x11 (ix1 j) := by
  rw [val_main_v179_apply, val_main_v178_apply]
  exact congrArg _ (by idx1)

/-- Layer norm of the residual output followed by the positive part. -/
theorem lnrelu_181 (r : Fin 50000) (j : Fin 128) :
    val_main_v181 (F := Ideal) x0 x1 x4 x5 x6 x7 x9 x10 x11 (ix2 r j)
      = Cert.Sage.lnRelu (fun r k => val_main_v123 (F := Ideal) x0 x1 x4 x5 x6 x7 x9 (ix2 r k))
          (fun j => val_main_v154 (F := Ideal) x10 (ix1 j)) (fun j => val_main_v156 (F := Ideal) x11 (ix1 j)) r j := by
  rw [val_main_v181_apply, val_main_v180_apply, val_main_v177_apply, val_main_v174_apply, val_main_v169_apply, val_main_v168_apply, val_main_v173_apply,
    show idx_main_v168 (ix2 r j) = ix2 r 0 by idx2, show idx_main_v173 (ix2 r j) = ix2 r 0 by idx2,
    mean_160, rstd_172, scale_176, shift_179, val_main_call1_v0_apply, val_main_call1_cst_apply]
  rfl

/-- THE LAYER-0 OUTPUT OF AN AUTHOR NODE is the plain spelling of the hidden layer of one edge type. -/
theorem ref_author0 (r : Fin 50000) (j : Fin 128) :
    val_main_v181 (F := Ideal) x0 x1 x4 x5 x6 x7 x9 x10 x11 (ix2 r j)
      = Cert.Sage.hidden1P (fun r k => val_main_v98 (F := Ideal) x0 x4 (ix2 r k)) (fun r => val_main_v104 (F := Ideal) x4 (ix1 r)) (fun r k => x1 (ix2 r k))
          (fun k j => val_main_v110 (F := Ideal) x5 (ix2 k j)) (fun k j => val_main_v115 (F := Ideal) x6 (ix2 k j)) (fun j => val_main_v84 (F := Ideal) x7 (ix1 j))
          (fun k j => val_main_v121 (F := Ideal) x9 (ix2 k j)) (fun j => val_main_v154 (F := Ideal) x10 (ix1 j)) (fun j => val_main_v156 (F := Ideal) x11 (ix1 j)) r j := by
  have h117 : (fun (r : Fin 50000) (k : Fin 128) => val_main_v117 (F := Ideal) x0 x1 x4 x5 x6 x7 (ix2 r k))
      = Cert.Sage.conv (fun r k => val_main_v98 (F := Ideal) x0 x4 (ix2 r k)) (fun r => val_main_v104 (F := Ideal) x4 (ix1 r)) (fun r k => x1 (ix2 r k))
          (fun k j => val_main_v110 (F := Ideal) x5 (ix2 k j)) (fun k j => val_main_v115 (F := Ideal) x6 (ix2 k j)) (fun j => val_main_v84 (F := Ideal) x7 (ix1 j)) :=
    funext fun r => funext fun k => conv_117 x0 x1 x4 x5 x6 x7 r k
  have h123 : (fun (r : Fin 50000) (k : Fin 128) => val_main_v123 (F := Ideal) x0 x1 x4 x5 x6 x7 x9 (ix2 r k))
      = Cert.Sage.resid (Cert.Sage.conv (fun r k => val_main_v98 (F := Ideal) x0 x4 (ix2 r k)) (fun r => val_main_v104 (F := Ideal) x4 (ix1 r)) (fun r k => x1 (ix2 r k))
          (fun k j => val_main_v110 (F := Ideal) x5 (ix2 k j)) (fun k j => val_main_v115 (F := Ideal) x6 (ix2 k j)) (fun j => val_main_v84 (F := Ideal) x7 (ix1 j))) (fun k j => val_main_v121 (F := Ideal) x9 (ix2 k j)) :=
    funext fun r => funext fun k => (resid_123 x0 x1 x4 x5 x6 x7 x9 r k).trans (by rw [h117])
  rw [lnrelu_181, h123]
  rfl

end Cert.ReferenceIdeal.RefValue

end
-- ==== Proof.RefFinite.lean ====
/-
  The reference's transposed self-weight stages hold entries of the stacked self-weight array, so they are finite
  wherever the array is.
  The neighbourhood sums of layer 0 are finite wherever the node features are.
-/
import proofs.«171430_j23888608100644_2_alg».proof.Proof.RefRead
import proofs.«171430_j23888608100644_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S50000x128, .f32⟩ : BufTy).Contents (Elt Ideal))
  (x2 x3 x4 : (⟨S2x500000, .i32⟩ : BufTy).Contents (Elt Ideal))
  (x5 x6 : (⟨S2x3x128x128, .f32⟩ : BufTy).Contents (Elt Ideal)) (x7 : (⟨S2x3x128, .f32⟩ : BufTy).Contents (Elt Ideal))
  (x8 x9 : (⟨S128x128, .f32⟩ : BufTy).Contents (Elt Ideal)) (x10 x11 : (⟨S2x2x128, .f32⟩ : BufTy).Contents (Elt Ideal))
  (x12 : (⟨S128x16, .f32⟩ : BufTy).Contents (Elt Ideal)) (x13 : (⟨S16, .f32⟩ : BufTy).Contents (Elt Ideal))

/-- Two indices of rank 1 are equal when their coordinates are, by computation. -/
local macro "idx1" : tactic => `(tactic| exact funext fun a => Fin.ext (by match a with | ⟨0, _⟩ => rfl))
/-- Two indices of rank 2 are equal when their coordinates are, each by computation. -/
local macro "idx2" : tactic => `(tactic| exact funext fun a => Fin.ext (by match a with | ⟨0, _⟩ => rfl | ⟨1, _⟩ => rfl))

/-! ## The transposed self-weight stages are entries of the stacked self weights

Each of these stages is a slice of the stacked array, reshaped to a matrix and transposed: every entry of the stage IS
an entry of the array, so it is a real number when every entry of the array is. -/

/-- Layer 0, first edge type. -/
theorem finite_36 (h : ∀ i, ∃ a : ℝ, x6 i = (a : EReal)) :
    ∀ i, ∃ a : ℝ, val_main_v36 (F := Ideal) x6 i = (a : EReal) := by
  intro i
  rw [val_main_v36_apply, val_main_v3_apply, val_main_v2_apply]
  exact h _

/-- Layer 0, second edge type. -/
theorem finite_75 (h : ∀ i, ∃ a : ℝ, x6 i = (a : EReal)) :
    ∀ i, ∃ a : ℝ, val_main_v75 (F := Ideal) x6 i = (a : EReal) := by
  intro i
  rw [val_main_v75_apply, val_main_v42_apply, val_main_v41_apply]
  exact h _

/-- Layer 1, first edge type. -/
theorem finite_218 (h : ∀ i, ∃ a : ℝ, x6 i = (a : EReal)) :
    ∀ i, ∃ a : ℝ, val_main_v218 (F := Ideal) x6 i = (a : EReal) := by
  intro i
  rw [val_main_v218_apply, val_main_v185_apply, val_main_v184_apply]
  exact h _

/-- Layer 1, second edge type. -/
theorem finite_257 (h : ∀ i, ∃ a : ℝ, x6 i = (a : EReal)) :
    ∀ i, ∃ a : ℝ, val_main_v257 (F := Ideal) x6 i = (a : EReal) := by
  intro i
  rw [val_main_v257_apply, val_main_v224_apply, val_main_v223_apply]
  exact h _

/-! ## The other weight, bias and layer-norm stages of the paper nodes' hidden layer

Each is a slice of its array, reshaped (and, for a matrix, transposed): every entry of the stage is an entry of the
array. -/

/-- The neighbour weight of the first edge type, transposed. -/
theorem finite_31 (h : ∀ i, ∃ a : ℝ, x5 i = (a : EReal)) :
    ∀ i, ∃ a : ℝ, val_main_v31 (F := Ideal) x5 i = (a : EReal) := by
  intro i
  rw [val_main_v31_apply, val_main_v1_apply, val_main_v0_apply]
  exact h _

/-- The neighbour weight of the second edge type, transposed. -/
theorem finite_70 (h : ∀ i, ∃ a : ℝ, x5 i = (a : EReal)) :
    ∀ i, ∃ a : ℝ, val_main_v70 (F := Ideal) x5 i = (a : EReal) := by
  intro i
  rw [val_main_v70_apply, val_main_v40_apply, val_main_v39_apply]
  exact h _

/-- The bias row of the first edge type. -/
theorem finite_5 (h : ∀ i, ∃ a : ℝ, x7 i = (a : EReal)) :
    ∀ i, ∃ a : ℝ, val_main_v5 (F := Ideal) x7 i = (a : EReal) := by
  intro i
  rw [val_main_v5_apply, val_main_v4_apply]
  exact h _

/-- The bias row of the second edge type. -/
theorem finite_44 (h : ∀ i, ∃ a : ℝ, x7 i = (a : EReal)) :
    ∀ i, ∃ a : ℝ, val_main_v44 (F := Ideal) x7 i = (a : EReal) := by
  intro i
  rw [val_main_v44_apply, val_main_v43_apply]
  exact h _

/-- The residual matrix of the paper nodes, transposed. -/
theorem finite_118 (h : ∀ i, ∃ a : ℝ, x8 i = (a : EReal)) :
    ∀ i, ∃ a : ℝ, val_main_v118 (F := Ideal) x8 i = (a : EReal) := by
  intro i
  rw [val_main_v118_apply]
  exact h _

/-- The layer-norm scale row of the paper nodes, layer 0. -/
theorem finite_125 (h : ∀ i, ∃ a : ℝ, x10 i = (a : EReal)) :
    ∀ i, ∃ a : ℝ, val_main_v125 (F := Ideal) x10 i = (a : EReal) := by
  intro i
  rw [val_main_v125_apply, val_main_v124_apply]
  exact h _

/-- The layer-norm shift row of the paper nodes, layer 0. -/
theorem finite_127 (h : ∀ i, ∃ a : ℝ, x11 i = (a : EReal)) :
    ∀ i, ∃ a : ℝ, val_main_v127 (F := Ideal) x11 i = (a : EReal) := by
  intro i
  rw [val_main_v127_apply, val_main_v126_apply]
  exact h _

/-! ## The neighbourhood sums of layer 0

A neighbourhood sum scatters gathered rows of a feature array into the zero array, adding those that land on the same
row. Every gathered entry is an entry of the feature array, and a finite sum of real numbers added to a real number is
a real number, so the sums are finite wherever the features are. -/

/-- A scatter with addition of real updates into a real array is real everywhere: each entry is the operand's plus
    the sum of the updates that land on it. -/
theorem scatterAdd_real {s si su : Shape} {φ : FTy} {w : Nat} (d : ScatterDims s si su) (x : FVec Ideal s φ)
    (idx : IVec si w) (upd : FVec Ideal su φ) (hx : ∀ i, ∃ a : ℝ, x i = (a : EReal))
    (hu : ∀ j, ∃ a : ℝ, upd j = (a : EReal)) :
    ∀ i, ∃ a : ℝ, Host.scatterAdd d x idx upd i = (a : EReal) := by
  intro i
  unfold Host.scatterAdd
  rw [Ideal.hostScatterAdd_def]
  unfold Ideal.hostScatterAdd
  obtain ⟨a, ha⟩ := hx i
  obtain ⟨b, hb⟩ := Finset.sum_induction upd (fun v : EReal => ∃ c : ℝ, v = (c : EReal))
    (fun u v hu hv => by
      obtain ⟨p, rfl⟩ := hu
      obtain ⟨q, rfl⟩ := hv
      exact ⟨p + q, (EReal.coe_add p q).symm⟩)
    ⟨0, EReal.coe_zero.symm⟩ (fun j _ => hu j)
  refine ⟨a + b, ?_⟩
  rw [EReal.coe_add, ← ha, ← hb]

/-- The neighbourhood sum of edge type cites into the paper nodes. -/
theorem finite_19 (h0 : ∀ i, ∃ a : ℝ, x0 i = (a : EReal)) :
    ∀ i, ∃ a : ℝ, val_main_v19 (F := Ideal) x0 x2 i = (a : EReal) := by
  unfold val_main_v19
  refine scatterAdd_real _ _ _ _ (fun i => ⟨0, ?_⟩) (fun j => ?_)
  · rw [val_main_v17_apply, val_main_cst_apply, Ideal.ofBits_def, Ideal.ofBits_zero_f32, EReal.coe_zero]
  · unfold val_main_v14 Host.gather
    exact h0 _

/-- The neighbourhood sum of edge type writes into the paper nodes. -/
theorem finite_58 (h1 : ∀ i, ∃ a : ℝ, x1 i = (a : EReal)) :
    ∀ i, ∃ a : ℝ, val_main_v58 (F := Ideal) x1 x3 i = (a : EReal) := by
  unfold val_main_v58
  refine scatterAdd_real _ _ _ _ (fun i => ⟨0, ?_⟩) (fun j => ?_)
  · rw [val_main_v56_apply, val_main_cst_6_apply, Ideal.ofBits_def, Ideal.ofBits_zero_f32, EReal.coe_zero]
  · unfold val_main_v53 Host.gather
    exact h1 _

end Cert.ReferenceIdeal.RefValue

end
-- ==== Proof.Laws.lean ====
/-
  The algebra between the two spellings of a GraphSAGE layer, on the extended reals.

  The FUSED spelling scales a neighbourhood sum by the reciprocal of the clipped in-degree, uses the sum of the two
  self weights and the sum of the two biases; the PLAIN spelling divides by the clipped in-degree and adds the two
  edge types' convolutions. Three facts make them equal:
  (i)   a clipped degree `max c 1` is at least one, so it is never zero, and dividing by it is multiplying by its
        reciprocal, for EVERY extended real numerator and degree;
  (ii)  a real number times a sum of two real numbers distributes (on the extended reals distributivity fails at the
        infinities, so this is where the self features and the self weights must be finite);
  (iii) addition of extended reals is commutative and associative.
  A node of one edge type needs only (i) and (iii), hence no finiteness.
-/
import proofs.«171430_j23888608100644_2_alg».proof.Proof.Spec
import Idealize.ShloMosaic.PureOps.Ideal
import Mathlib.Tactic

noncomputable section

namespace Cert.Sage

open Idealize.ShloMosaic

/-! ## The clipped degree -/

/-- The word `0x3F800000` denotes the real number one. -/
theorem one_eq : one = 1 := by
  show Ideal.ofBits .f32 0x3F800000#32 = 1
  simp [Ideal.ofBits, Ideal.ieee, -EReal.coe_mul]; norm_num

/-- A degree clipped below at one is never zero. -/
theorem max_one_ne_zero (c : EReal) : max c one ≠ 0 := by
  have h : (0 : EReal) < max c one :=
    lt_of_lt_of_le (by rw [one_eq]; exact zero_lt_one) (le_max_right c one)
  exact ne_of_gt h

/-- (i) Dividing by a clipped degree is multiplying by its reciprocal, whatever the numerator and the degree. -/
theorem div_max_one (s c : EReal) : Ideal.div s (max c one) = s * Ideal.div one (max c one) := by
  unfold Ideal.div
  rw [if_neg (max_one_ne_zero c), if_neg (max_one_ne_zero c), one_eq, one_mul]

/-- (i) under a sum against a weight column. -/
theorem sum_div_max_one {K : Type} [Fintype K] (s : K → EReal) (c : EReal) (w : K → EReal) :
    ∑ k, Ideal.div (s k) (max c one) * w k = ∑ k, (s k * Ideal.div one (max c one)) * w k :=
  Finset.sum_congr rfl fun k _ => by rw [div_max_one]

/-! ## Distributivity on real numbers -/

/-- (ii) A real number times the sum of two real numbers. -/
theorem mul_add_of_real {x a b : EReal} (hx : ∃ r : ℝ, x = (r : EReal)) (ha : ∃ r : ℝ, a = (r : EReal))
    (hb : ∃ r : ℝ, b = (r : EReal)) : x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- (ii) under a sum: a real row against the sum of two real weight columns. -/
theorem sum_mul_add_of_real {K : Type} [Fintype K] (x w1 w2 : K → EReal) (hx : ∀ k, ∃ r : ℝ, x k = (r : EReal))
    (h1 : ∀ k, ∃ r : ℝ, w1 k = (r : EReal)) (h2 : ∀ k, ∃ r : ℝ, w2 k = (r : EReal)) :
    ∑ k, x k * (w1 k + w2 k) = ∑ k, x k * w1 k + ∑ k, x k * w2 k := by
  rw [← Finset.sum_add_distrib]
  exact Finset.sum_congr rfl fun k _ => mul_add_of_real (hx k) (h1 k) (h2 k)

/-! ## The pre-activations -/

section
variable {R : Type}

/-- A node of two edge types: the fused pre-activation is the plain one, where the self features and the two self
    weights are finite. -/
theorem pre2_fused_eq_plain (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal)
    (hx : ∀ r k, ∃ a : ℝ, x r k = (a : EReal)) (h1 : ∀ k j, ∃ a : ℝ, Wr1 k j = (a : EReal))
    (h2 : ∀ k j, ∃ a : ℝ, Wr2 k j = (a : EReal)) :
    pre2F s1 (fun r => Ideal.div one (max (c1 r) one)) s2 (fun r => Ideal.div one (max (c2 r) one)) x Wl1 Wl2
        (fun k j => Wr1 k j + Wr2 k j) (fun j => b1 j + b2 j)
      = pre2P s1 c1 s2 c2 x Wl1 Wr1 b1 Wl2 Wr2 b2 := by
  funext r j
  simp only [pre2F, pre2P, conv, mm]
  rw [sum_div_max_one (fun k => s1 r k) (c1 r) (fun k => Wl1 k j),
    sum_div_max_one (fun k => s2 r k) (c2 r) (fun k => Wl2 k j),
    sum_mul_add_of_real (fun k => x r k) (fun k => Wr1 k j) (fun k => Wr2 k j) (fun k => hx r k) (fun k => h1 k j)
      (fun k => h2 k j)]
  abel

/-- A node of one edge type: the fused pre-activation is the convolution; no finiteness is needed. -/
theorem pre1_fused_eq_plain (s : R → Fin 128 → EReal) (c : R → EReal) (x : R → Fin 128 → EReal)
    (Wl Wr : Fin 128 → Fin 128 → EReal) (b : Fin 128 → EReal) :
    pre1F s (fun r => Ideal.div one (max (c r) one)) x Wl Wr b = conv s c x Wl Wr b := by
  funext r j
  simp only [pre1F, conv, mm]
  rw [sum_div_max_one (fun k => s r k) (c r) (fun k => Wl k j)]
  exact add_right_comm _ _ _

/-! ## The layers -/

/-- (L1) A hidden layer at a node of two edge types. -/
theorem hidden2_fused_eq_plain (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal) (lin : Fin 128 → Fin 128 → EReal)
    (g β : Fin 128 → EReal)
    (hx : ∀ r k, ∃ a : ℝ, x r k = (a : EReal)) (h1 : ∀ k j, ∃ a : ℝ, Wr1 k j = (a : EReal))
    (h2 : ∀ k j, ∃ a : ℝ, Wr2 k j = (a : EReal)) :
    hidden2F s1 (fun r => Ideal.div one (max (c1 r) one)) s2 (fun r => Ideal.div one (max (c2 r) one)) x Wl1 Wl2
        (fun k j => Wr1 k j + Wr2 k j) (fun j => b1 j + b2 j) lin g β
      = hidden2P s1 c1 s2 c2 x Wl1 Wr1 b1 Wl2 Wr2 b2 lin g β := by
  unfold hidden2F hidden2P
  rw [pre2_fused_eq_plain s1 c1 s2 c2 x Wl1 Wr1 b1 Wl2 Wr2 b2 hx h1 h2]

/-- (L2) The last layer at a node of two edge types, and the classification head. -/
theorem head_fused_eq_plain (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal) (g β : Fin 128 → EReal)
    (Wh : Fin 128 → Fin 16 → EReal) (bh : Fin 16 → EReal)
    (hx : ∀ r k, ∃ a : ℝ, x r k = (a : EReal)) (h1 : ∀ k j, ∃ a : ℝ, Wr1 k j = (a : EReal))
    (h2 : ∀ k j, ∃ a : ℝ, Wr2 k j = (a : EReal)) :
    headF s1 (fun r => Ideal.div one (max (c1 r) one)) s2 (fun r => Ideal.div one (max (c2 r) one)) x Wl1 Wl2
        (fun k j => Wr1 k j + Wr2 k j) (fun j => b1 j + b2 j) g β Wh bh
      = headP s1 c1 s2 c2 x Wl1 Wr1 b1 Wl2 Wr2 b2 g β Wh bh := by
  unfold headF headP
  rw [pre2_fused_eq_plain s1 c1 s2 c2 x Wl1 Wr1 b1 Wl2 Wr2 b2 hx h1 h2]

/-- (L3) A hidden layer at a node of one edge type: no finiteness hypothesis. -/
theorem hidden1_fused_eq_plain (s : R → Fin 128 → EReal) (c : R → EReal) (x : R → Fin 128 → EReal)
    (Wl Wr : Fin 128 → Fin 128 → EReal) (b : Fin 128 → EReal) (lin : Fin 128 → Fin 128 → EReal)
    (g β : Fin 128 → EReal) :
    hidden1F s (fun r => Ideal.div one (max (c r) one)) x Wl Wr b lin g β = hidden1P s c x Wl Wr b lin g β := by
  unfold hidden1F hidden1P
  rw [pre1_fused_eq_plain s c x Wl Wr b]

end

end Cert.Sage

end
-- ==== Proof.Bridge0.lean ====
/-
  The paper nodes' hidden layer: the first tiled region's output array is the reference's stage.

  The region's output is the FUSED hidden-layer formula of its input arrays, row by row; the input arrays are
  the reference's neighbourhood sums, the reciprocals of its clipped in-degrees, its transposed neighbour
  weights, the entrywise sum of its two transposed self-weights, the sum of its two biases, its residual weight
  and layer-norm rows.  The reference's stage is the PLAIN formula of the same stages.  The two formulas agree
  where the self features and the two self-weights are finite: division by the in-degree is multiplication by
  its reciprocal because the clipped in-degree is never zero, the self features times a sum of weights is the
  sum of the two products term by term because all three are real, and the rest is reordering a sum.
-/
import proofs.«171430_j23888608100644_2_alg».proof.Proof.Gen.KernelIdeal.Frame
import proofs.«171430_j23888608100644_2_alg».proof.Proof.RefRead
import proofs.«171430_j23888608100644_2_alg».proof.Proof.Spec
import proofs.«171430_j23888608100644_2_alg».proof.Proof.BodyLib
import proofs.«171430_j23888608100644_2_alg».proof.Proof.Host0
import proofs.«171430_j23888608100644_2_alg».proof.Proof.Tile0
import proofs.«171430_j23888608100644_2_alg».proof.Proof.RefHidden
import proofs.«171430_j23888608100644_2_alg».proof.Proof.RefFinite
import proofs.«171430_j23888608100644_2_alg».proof.Proof.Laws
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- Region 0's output array, after its 25 points, is the reference's hidden layer of the paper nodes. -/
theorem layer0_paper (hx0 : ∀ i, ∃ a : ℝ, (m ((c : Thread nD τ).loc main_arg0)) i = (a : EReal)) (hx6 : ∀ i, ∃ a : ℝ, (m ((c : Thread nD τ).loc main_arg6)) i = (a : EReal)) :
    (dat0 (V1 (F := Ideal) m ρ) c).arrAt 12 cfg0.N = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  rw [Cert.KernelIdeal.Tiles.arr0]
  funext i
  obtain ⟨r, j, rfl⟩ : ∃ (r : Fin 100000) (j : Fin 128), i = ix2 r j := ⟨i 0, i 1, eq_ix2 i⟩
  refine Eq.trans ?_ (Cert.ReferenceIdeal.RefValue.ref_paper0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) r j).symm
  show Cert.Sage.hidden2F (R := Fin 100000) (fun r k => V1 (F := Ideal) m ρ c (Pipeline.arrRef spec0 0) (ix2 r k))
      (fun r => V1 (F := Ideal) m ρ c (Pipeline.arrRef spec0 1) (ix2 r 0))
      (fun r k => V1 (F := Ideal) m ρ c (Pipeline.arrRef spec0 2) (ix2 r k))
      (fun r => V1 (F := Ideal) m ρ c (Pipeline.arrRef spec0 3) (ix2 r 0))
      (fun r k => V1 (F := Ideal) m ρ c (Pipeline.arrRef spec0 4) (ix2 r k))
      (fun k j => V1 (F := Ideal) m ρ c (Pipeline.arrRef spec0 5) (ix2 k j))
      (fun k j => V1 (F := Ideal) m ρ c (Pipeline.arrRef spec0 6) (ix2 k j))
      (fun k j => V1 (F := Ideal) m ρ c (Pipeline.arrRef spec0 7) (ix2 k j))
      (fun j => V1 (F := Ideal) m ρ c (Pipeline.arrRef spec0 8) (ix2 0 j))
      (fun k j => V1 (F := Ideal) m ρ c (Pipeline.arrRef spec0 9) (ix2 k j))
      (fun j => V1 (F := Ideal) m ρ c (Pipeline.arrRef spec0 10) (ix2 0 j))
      (fun j => V1 (F := Ideal) m ρ c (Pipeline.arrRef spec0 11) (ix2 0 j)) r j = _
  simp only [in0_sum_cites m ρ c, in0_inv_cites m ρ c, in0_sum_writes m ρ c, in0_inv_writes m ρ c, in0_self m ρ c,
    in0_wl_cites m ρ c, in0_wl_writes m ρ c, in0_wr m ρ c, in0_bias m ρ c, in0_lin m ρ c, in0_scale m ρ c, in0_shift m ρ c]
  exact congrFun (congrFun (Cert.Sage.hidden2_fused_eq_plain _ _ _ _ _ _ _ _ _ _ _ _ _ _
    (fun r k => hx0 _) (fun k j => Cert.ReferenceIdeal.RefValue.finite_36 _ hx6 _) (fun k j => Cert.ReferenceIdeal.RefValue.finite_75 _ hx6 _)) r) j

end Cert.Bridge

end
-- ==== Proof.Body1.lean ====
/-
  Region 1 (a hidden layer at a node of one incoming edge type): the staging buffer the body leaves,
  read at row `p` and lane `j`, is the fused spelling `Cert.Sage.hidden1F` of the input blocks.
-/
import proofs.«171430_j23888608100644_2_alg».proof.Proof.Gen.KernelIdeal.Frame
import proofs.«171430_j23888608100644_2_alg».proof.Proof.Spec
import proofs.«171430_j23888608100644_2_alg».proof.Proof.BodyLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## A `[5000,128] × [128,128]` product into a zero accumulator, at an index -/

theorem mm1_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mm1_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm1_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm1_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product at `(p, j)` is the sum over the contracted lane `k` of left `(p, k)` times right `(k, j)`. -/
theorem mm1_apply {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k :=
    funext fun a => Fin.ext (by
      match a with
      | ⟨0, _⟩ => exact mm1_lhs0 _ _
      | ⟨1, _⟩ => exact (mm1_lhs1 _ _).trans hk)
  have er : dot_S5000x128_S128x128_S5000x128_1_0_0_1_n_n.rhsIdx (ix2 p j) ((contrEquiv1 dot_S5000x128_S128x128_S5000x128_1_0_0_1_n_n 128 rfl rfl).symm k) = ix2 k j :=
    funext fun a => Fin.ext (by
      match a with
      | ⟨0, _⟩ => exact (mm1_rhs0 _ _).trans hk
      | ⟨1, _⟩ => exact mm1_rhs1 _ _)
  rw [el, er]

/-! ## The pre-activation: two products and the bias row -/

/-- The scaled neighbourhood sum through its weight, the self features through theirs, and the bias, as
    the body computes them. -/
def pre1Ops (v0 : Vec Ideal S5000x128 .f32) (v2 : Vec Ideal S5000x1 .f32) (v7 : Vec Ideal S5000x128 .f32)
    (v9 v12 : Vec Ideal S128x128 .f32) (v18 : Vec Ideal S1x128 .f32) : FVec Ideal S5000x128 .f32 :=
  addf
    (addf
      (matmul dot_S5000x128_S128x128_S5000x128_1_0_0_1_n_n none
        (truncf .bf16 (mulf (shapeCast S5000x128 v0 shapeCasts_S5000x128_S5000x128)
          (broadcastTo S5000x128 (shapeCast S5000x1 v2 shapeCasts_S5000x1_S5000x1) broadcasts_S5000x1_S5000x128)) bitsLt_bf16_f32)
        (truncf .bf16 (shapeCast S128x128 v9 shapeCasts_S128x128_S128x128) bitsLt_bf16_f32)
        (constant (F := Ideal) S5000x128 .f32 0x00000000#32))
      (matmul dot_S5000x128_S128x128_S5000x128_1_0_0_1_n_n none (truncf .bf16 v7 bitsLt_bf16_f32)
        (truncf .bf16 (shapeCast S128x128 v12 shapeCasts_S128x128_S128x128) bitsLt_bf16_f32)
        (constant (F := Ideal) S5000x128 .f32 0x00000000#32)))
    (broadcastTo S5000x128 (shapeCast S1x128 v18 shapeCasts_S1x128_S1x128) broadcasts_S1x128_S5000x128)

theorem pre1Ops_apply (v0 : Vec Ideal S5000x128 .f32) (v2 : Vec Ideal S5000x1 .f32) (v7 : Vec Ideal S5000x128 .f32)
    (v9 v12 : Vec Ideal S128x128 .f32) (v18 : Vec Ideal S1x128 .f32) (p : Fin 5000) (j : Fin 128) :
    pre1Ops v0 v2 v7 v9 v12 v18 (ix2 p j)
      = Cert.Sage.pre1F (fun r k => v0 (ix2 r k)) (fun r => v2 (ix2 r (0 : Fin 1))) (fun r k => v7 (ix2 r k))
          (fun k j => v9 (ix2 k j)) (fun k j => v12 (ix2 k j)) (fun j => v18 (ix2 (0 : Fin 1) j)) p j := by
  unfold pre1Ops
  simp only [shapeCast_self]
  rw [addf_apply, addf_apply, mm1_apply, mm1_apply, broadcastTo_1b_ab_apply]
  simp only [truncf_apply, mulf_apply, broadcastTo_a1_ab_apply]
  rfl

/-- The rows the layer norm is applied to: the pre-activation plus its product with the residual matrix. -/
theorem resid1_apply (P : FVec Ideal S5000x128 .f32) (L : FVec Ideal S128x128 .f32) (r : Fin 5000) (k : Fin 128) :
    addf P (matmul dot_S5000x128_S128x128_S5000x128_1_0_0_1_n_n none (truncf .bf16 P bitsLt_bf16_f32) (truncf .bf16 L bitsLt_bf16_f32)
        (constant (F := Ideal) S5000x128 .f32 0x00000000#32)) (ix2 r k)
      = Cert.Sage.resid (fun r k => P (ix2 r k)) (fun k j => L (ix2 k j)) r k := by
  rw [addf_apply, mm1_apply]
  rfl

/-- The first part of the body at `(p, j)`: the pre-activation through the residual map. -/
theorem pay1_apply (v0 : Vec Ideal S5000x128 .f32) (v2 : Vec Ideal S5000x1 .f32) (v7 : Vec Ideal S5000x128 .f32)
    (v9 v12 : Vec Ideal S128x128 .f32) (v18 : Vec Ideal S1x128 .f32) (v22 : Vec Ideal S128x128 .f32) (p : Fin 5000) (j : Fin 128) :
    k1_pay2 (F := Ideal) v0 v2 v7 v9 v12 v18 v22 (ix2 p j)
      = Cert.Sage.resid (Cert.Sage.pre1F (fun r k => v0 (ix2 r k)) (fun r => v2 (ix2 r (0 : Fin 1))) (fun r k => v7 (ix2 r k))
          (fun k j => v9 (ix2 k j)) (fun k j => v12 (ix2 k j)) (fun j => v18 (ix2 (0 : Fin 1) j))) (fun k j => v22 (ix2 k j)) p j := by
  have e : k1_pay2 (F := Ideal) v0 v2 v7 v9 v12 v18 v22
      = addf (pre1Ops v0 v2 v7 v9 v12 v18) (matmul dot_S5000x128_S128x128_S5000x128_1_0_0_1_n_n none (truncf .bf16 (pre1Ops v0 v2 v7 v9 v12 v18) bitsLt_bf16_f32)
          (truncf .bf16 (shapeCast S128x128 v22 shapeCasts_S128x128_S128x128) bitsLt_bf16_f32)
          (constant (F := Ideal) S5000x128 .f32 0x00000000#32)) := rfl
  have hpre : (fun r k => pre1Ops v0 v2 v7 v9 v12 v18 (ix2 r k))
      = Cert.Sage.pre1F (fun r k => v0 (ix2 r k)) (fun r => v2 (ix2 r (0 : Fin 1))) (fun r k => v7 (ix2 r k))
          (fun k j => v9 (ix2 k j)) (fun k j => v12 (ix2 k j)) (fun j => v18 (ix2 (0 : Fin 1) j)) :=
    funext fun r => funext fun k => pre1Ops_apply v0 v2 v7 v9 v12 v18 r k
  rw [e, resid1_apply, shapeCast_self, hpre]

/-! ## The whole body -/

theorem out1_apply (x0 : Vec Ideal S5000x128 .f32) (x1 : Vec Ideal S5000x1 .f32) (x2 : Vec Ideal S5000x128 .f32)
    (x3 x4 : Vec Ideal S128x128 .f32) (x5 : Vec Ideal S1x128 .f32) (x6 : Vec Ideal S128x128 .f32) (x7 x8 : Vec Ideal S1x128 .f32)
    (p : Fin 5000) (j : Fin 128) :
    Cert.KernelIdeal.Gen.out1_9 (F := Ideal) x0 x1 x2 x3 x4 x5 x6 x7 x8 (ix2 p j)
      = Cert.Sage.hidden1F (fun r k => x0 (ix2 r k)) (fun r => x1 (ix2 r 0)) (fun r k => x2 (ix2 r k)) (fun k j => x3 (ix2 k j))
          (fun k j => x4 (ix2 k j)) (fun j => x5 (ix2 0 j)) (fun k j => x6 (ix2 k j)) (fun j => x7 (ix2 0 j))
          (fun j => x8 (ix2 0 j)) p j := by
  unfold Cert.KernelIdeal.Gen.out1_9
  rw [View.canon_unit_zero hz]
  simp only [View.ld_unit_zero (S := S5000x128) hz, View.ld_unit_zero (S := S5000x1) hz,
    View.ld_unit_zero (S := S128x128) hz, View.ld_unit_zero (S := S1x128) hz]
  have h5 : k1_pay5 (F := Ideal) x0 x1 x2 x3 x4 x5 x6
      = meanOps (k1_pay2 (F := Ideal) x0 x1 x2 x3 x4 x5 x6) reduces_S5000x128_S5000 (.inl rfl) rfl shapeCasts_S5000_S5000x1 := rfl
  rw [h5]
  generalize hQ : k1_pay2 (F := Ideal) x0 x1 x2 x3 x4 x5 x6 = Q
  have hq : (fun r k => Q (ix2 r k))
      = Cert.Sage.resid (Cert.Sage.pre1F (fun r k => x0 (ix2 r k)) (fun r => x1 (ix2 r (0 : Fin 1))) (fun r k => x2 (ix2 r k))
          (fun k j => x3 (ix2 k j)) (fun k j => x4 (ix2 k j)) (fun j => x5 (ix2 (0 : Fin 1) j))) (fun k j => x6 (ix2 k j)) :=
    funext fun r => funext fun k => by rw [← hQ]; exact pay1_apply x0 x1 x2 x3 x4 x5 x6 r k
  have hpay : k1_pay1 (F := Ideal) Q (k1_pay3 x7) (k1_pay4 x8)
        (meanOps Q reduces_S5000x128_S5000 (.inl rfl) rfl shapeCasts_S5000_S5000x1)
      = lnOps Q (meanOps Q reduces_S5000x128_S5000 (.inl rfl) rfl shapeCasts_S5000_S5000x1)
          (shapeCast S1x128 x7 shapeCasts_S1x128_S1x128) (shapeCast S1x128 x8 shapeCasts_S1x128_S1x128)
          broadcasts_S5000x1_S5000x128 broadcasts_S1x128_S5000x128 reduces_S5000x128_S5000 (.inl rfl) rfl shapeCasts_S5000_S5000x1 := rfl
  rw [hpay]
  refine (lnOps_apply _ _ _ _ _ _ _ _ _ _ (fun r u => meanOps_apply _ _ _ _ _ r u) p j).trans ?_
  simp only [shapeCast_self]
  rw [hq]
  rfl

end Cert.KernelIdeal.Body

end
-- ==== Proof.Tile1.lean ====
/-
  From tiles to the array: the author nodes' hidden layer.

  A tiled region stages a tile of every operand at each grid point, runs its body, and writes the output
  tile back.  The body's result at a tile is the layer's row-wise formula of the staged rows; since the
  formula treats every row alike, the tile a point writes back is the corresponding tile of ONE function
  of the region's whole input arrays, and the tiles cover the output array.  So the output array after the
  region IS that function of the input arrays.
-/
import proofs.«171430_j23888608100644_2_alg».proof.Proof.Gen.KernelIdeal.Frame
import proofs.«171430_j23888608100644_2_alg».proof.Proof.Spec
import proofs.«171430_j23888608100644_2_alg».proof.Proof.Body1
import Idealize.ShloMosaic.Lib.ValueIdx
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat)

/-- The hidden layer of the author nodes as ONE function of the region's nine input arrays, row by row. -/
def authorHidden (a0 : FVec Ideal S50000x128 .f32) (a1 : FVec Ideal S50000x1 .f32) (a2 : FVec Ideal S50000x128 .f32) (a3 : FVec Ideal S128x128 .f32) (a4 : FVec Ideal S128x128 .f32) (a5 : FVec Ideal S1x128 .f32) (a6 : FVec Ideal S128x128 .f32) (a7 : FVec Ideal S1x128 .f32) (a8 : FVec Ideal S1x128 .f32) : FVec Ideal S50000x128 .f32 :=
  fun i => Cert.Sage.hidden1F (R := Fin 50000) (fun r k => a0 (ix2 r k)) (fun r => a1 (ix2 r 0)) (fun r k => a2 (ix2 r k)) (fun k j => a3 (ix2 k j)) (fun k j => a4 (ix2 k j)) (fun j => a5 (ix2 0 j)) (fun k j => a6 (ix2 k j)) (fun j => a7 (ix2 0 j)) (fun j => a8 (ix2 0 j)) (i 0) (i 1)

/-- The tiling, decided over the 10 grid points: the row windows move with the output's row tile, the column
    tile is always the first, and the weight, bias and layer-norm windows stay at the origin. -/
theorem idx1 : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 9 ∧ win1_9.index t (1 : Fin 2) = 0 :=
  (by decide +kernel : ∀ t : Fin grid1.N, _)

/-- Every row tile is some point's. -/
theorem onto1 : ∀ q : Fin 10, ∃ t : Fin cfg1.N, win1_9.index t = ![q.val, 0] :=
  (by decide +kernel : ∀ q : Fin 10, ∃ t : Fin grid1.N, win1_9.index t = ![q.val, 0])

/-- The array row that row `r` of point `t`'s tile is. -/
def row1 (t : Fin cfg1.N) (r : Fin 5000) : Fin 50000 :=
  ⟨win1_9.index t (0 : Fin 2) * 5000 + r.val, by
    have h := (idx1 t).2.2.2.2.2.2.2.2.2.2.2.2.2.2.2.2.2.2.1
    have hr := r.isLt
    omega⟩

variable (V : (c : Dev nD) → (b : Ref sig .tc) → Buf (Elt Ideal) ((c : Thread nD τ).loc b))

section blocks
variable (c : Dev nD) (t : Fin cfg1.N)

theorem blk1_0 (r : Fin 5000) (k : Fin 128) : iblk1 V c 0 t (ix2 r k) = V c (Pipeline.arrRef spec1 0) (ix2 (row1 t r) k) := by
  obtain ⟨a0, b0, a1, b1, a2, b2, a3, b3, a4, b4, a5, b5, a6, b6, a7, b7, a8, b8, hle, bo⟩ := idx1 t
  show V c (Pipeline.arrRef spec1 0) (((cfg1.win 0).blk t).view.emb (ix2 r k)) = _
  congr 1; funext a; apply Fin.ext
  match a with
  | ⟨0, _⟩ => show win1_0.index t (0 : Fin 2) * 5000 + 1 * r.val = win1_9.index t (0 : Fin 2) * 5000 + r.val; omega
  | ⟨1, _⟩ => show win1_0.index t (1 : Fin 2) * 128 + 1 * k.val = k.val; omega

theorem blk1_1 (r : Fin 5000) : iblk1 V c 1 t (ix2 r 0) = V c (Pipeline.arrRef spec1 1) (ix2 (row1 t r) 0) := by
  obtain ⟨a0, b0, a1, b1, a2, b2, a3, b3, a4, b4, a5, b5, a6, b6, a7, b7, a8, b8, hle, bo⟩ := idx1 t
  show V c (Pipeline.arrRef spec1 1) (((cfg1.win 1).blk t).view.emb (ix2 r 0)) = _
  congr 1; funext a; apply Fin.ext
  match a with
  | ⟨0, _⟩ => show win1_1.index t (0 : Fin 2) * 5000 + 1 * r.val = win1_9.index t (0 : Fin 2) * 5000 + r.val; omega
  | ⟨1, _⟩ => show win1_1.index t (1 : Fin 2) * 1 + 1 * 0 = 0; omega

theorem blk1_2 (r : Fin 5000) (k : Fin 128) : iblk1 V c 2 t (ix2 r k) = V c (Pipeline.arrRef spec1 2) (ix2 (row1 t r) k) := by
  obtain ⟨a0, b0, a1, b1, a2, b2, a3, b3, a4, b4, a5, b5, a6, b6, a7, b7, a8, b8, hle, bo⟩ := idx1 t
  show V c (Pipeline.arrRef spec1 2) (((cfg1.win 2).blk t).view.emb (ix2 r k)) = _
  congr 1; funext a; apply Fin.ext
  match a with
  | ⟨0, _⟩ => show win1_2.index t (0 : Fin 2) * 5000 + 1 * r.val = win1_9.index t (0 : Fin 2) * 5000 + r.val; omega
  | ⟨1, _⟩ => show win1_2.index t (1 : Fin 2) * 128 + 1 * k.val = k.val; omega

theorem blk1_3 (k j : Fin 128) : iblk1 V c 3 t (ix2 k j) = V c (Pipeline.arrRef spec1 3) (ix2 k j) := by
  obtain ⟨a0, b0, a1, b1, a2, b2, a3, b3, a4, b4, a5, b5, a6, b6, a7, b7, a8, b8, hle, bo⟩ := idx1 t
  show V c (Pipeline.arrRef spec1 3) (((cfg1.win 3).blk t).view.emb (ix2 k j)) = _
  congr 1; funext a; apply Fin.ext
  match a with
  | ⟨0, _⟩ => show win1_3.index t (0 : Fin 2) * 128 + 1 * k.val = k.val; omega
  | ⟨1, _⟩ => show win1_3.index t (1 : Fin 2) * 128 + 1 * j.val = j.val; omega

theorem blk1_4 (k j : Fin 128) : iblk1 V c 4 t (ix2 k j) = V c (Pipeline.arrRef spec1 4) (ix2 k j) := by
  obtain ⟨a0, b0, a1, b1, a2, b2, a3, b3, a4, b4, a5, b5, a6, b6, a7, b7, a8, b8, hle, bo⟩ := idx1 t
  show V c (Pipeline.arrRef spec1 4) (((cfg1.win 4).blk t).view.emb (ix2 k j)) = _
  congr 1; funext a; apply Fin.ext
  match a with
  | ⟨0, _⟩ => show win1_4.index t (0 : Fin 2) * 128 + 1 * k.val = k.val; omega
  | ⟨1, _⟩ => show win1_4.index t (1 : Fin 2) * 128 + 1 * j.val = j.val; omega

theorem blk1_5 (j : Fin 128) : iblk1 V c 5 t (ix2 0 j) = V c (Pipeline.arrRef spec1 5) (ix2 0 j) := by
  obtain ⟨a0, b0, a1, b1, a2, b2, a3, b3, a4, b4, a5, b5, a6, b6, a7, b7, a8, b8, hle, bo⟩ := idx1 t
  show V c (Pipeline.arrRef spec1 5) (((cfg1.win 5).blk t).view.emb (ix2 0 j)) = _
  congr 1; funext a; apply Fin.ext
  match a with
  | ⟨0, _⟩ => show win1_5.index t (0 : Fin 2) * 1 + 1 * 0 = 0; omega
  | ⟨1, _⟩ => show win1_5.index t (1 : Fin 2) * 128 + 1 * j.val = j.val; omega

theorem blk1_6 (k j : Fin 128) : iblk1 V c 6 t (ix2 k j) = V c (Pipeline.arrRef spec1 6) (ix2 k j) := by
  obtain ⟨a0, b0, a1, b1, a2, b2, a3, b3, a4, b4, a5, b5, a6, b6, a7, b7, a8, b8, hle, bo⟩ := idx1 t
  show V c (Pipeline.arrRef spec1 6) (((cfg1.win 6).blk t).view.emb (ix2 k j)) = _
  congr 1; funext a; apply Fin.ext
  match a with
  | ⟨0, _⟩ => show win1_6.index t (0 : Fin 2) * 128 + 1 * k.val = k.val; omega
  | ⟨1, _⟩ => show win1_6.index t (1 : Fin 2) * 128 + 1 * j.val = j.val; omega

theorem blk1_7 (j : Fin 128) : iblk1 V c 7 t (ix2 0 j) = V c (Pipeline.arrRef spec1 7) (ix2 0 j) := by
  obtain ⟨a0, b0, a1, b1, a2, b2, a3, b3, a4, b4, a5, b5, a6, b6, a7, b7, a8, b8, hle, bo⟩ := idx1 t
  show V c (Pipeline.arrRef spec1 7) (((cfg1.win 7).blk t).view.emb (ix2 0 j)) = _
  congr 1; funext a; apply Fin.ext
  match a with
  | ⟨0, _⟩ => show win1_7.index t (0 : Fin 2) * 1 + 1 * 0 = 0; omega
  | ⟨1, _⟩ => show win1_7.index t (1 : Fin 2) * 128 + 1 * j.val = j.val; omega

theorem blk1_8 (j : Fin 128) : iblk1 V c 8 t (ix2 0 j) = V c (Pipeline.arrRef spec1 8) (ix2 0 j) := by
  obtain ⟨a0, b0, a1, b1, a2, b2, a3, b3, a4, b4, a5, b5, a6, b6, a7, b7, a8, b8, hle, bo⟩ := idx1 t
  show V c (Pipeline.arrRef spec1 8) (((cfg1.win 8).blk t).view.emb (ix2 0 j)) = _
  congr 1; funext a; apply Fin.ext
  match a with
  | ⟨0, _⟩ => show win1_8.index t (0 : Fin 2) * 1 + 1 * 0 = 0; omega
  | ⟨1, _⟩ => show win1_8.index t (1 : Fin 2) * 128 + 1 * j.val = j.val; omega

end blocks

set_option maxHeartbeats 1000000 in
/-- What point `t` writes back is tile `t` of the whole-array function of the region's input arrays: the layer
    acts row by row, and the tile's rows are the array's rows `row1 t ·`. -/
theorem flushed1_eq (c : Dev nD) (t : Fin cfg1.N) :
    (dat1 V c).flushed 9 t = ((cfg1.win 9).blk t).view.read (Elt Ideal) (authorHidden (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) := by
  show (cfg1.win 9).cut (grid1.coords t) ((dat1 V c).after 9 t) = _
  rw [after1_9]
  funext y
  have h0 : (y 0).val < 5000 := Nat.lt_of_lt_of_le (y 0).isLt ((cfg1.win 9).xsize_le (grid1.coords t) 0)
  have h1 : (y 1).val < 128 := Nat.lt_of_lt_of_le (y 1).isLt ((cfg1.win 9).xsize_le (grid1.coords t) 1)
  have hx : (cfg1.win 9).xinj (grid1.coords t) y = ix2 (⟨(y 0).val, h0⟩ : Fin 5000) (⟨(y 1).val, h1⟩ : Fin 128) := by
    funext a; apply Fin.ext
    match a with
    | ⟨0, _⟩ => rfl
    | ⟨1, _⟩ => rfl
  have he : ((cfg1.win 9).blk t).view.emb y = ix2 (row1 t ⟨(y 0).val, h0⟩) (⟨(y 1).val, h1⟩ : Fin 128) := by
    obtain ⟨a0, b0, a1, b1, a2, b2, a3, b3, a4, b4, a5, b5, a6, b6, a7, b7, a8, b8, hle, bo⟩ := idx1 t
    funext a; apply Fin.ext
    match a with
    | ⟨0, _⟩ => show win1_9.index t (0 : Fin 2) * 5000 + 1 * (y 0).val = win1_9.index t (0 : Fin 2) * 5000 + (y 0).val; omega
    | ⟨1, _⟩ => show win1_9.index t (1 : Fin 2) * 128 + 1 * (y 1).val = (y 1).val; omega
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) ((cfg1.win 9).xinj (grid1.coords t) y) = authorHidden (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (((cfg1.win 9).blk t).view.emb y)
  rw [hx, he]
  refine (Cert.KernelIdeal.Body.out1_apply (iblk1 V c 0 t) (iblk1 V c 1 t) (iblk1 V c 2 t) (iblk1 V c 3 t) (iblk1 V c 4 t) (iblk1 V c 5 t) (iblk1 V c 6 t) (iblk1 V c 7 t) (iblk1 V c 8 t) _ _).trans ?_
  simp only [blk1_0, blk1_1, blk1_2, blk1_3, blk1_4, blk1_5, blk1_6, blk1_7, blk1_8]
  rfl

/-- An index of the array is in point `t`'s tile iff each coordinate is in the tile's range on its axis. -/
theorem mem_blk1 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v122).slice (win1_9.rect t)).set ↔ _
  rw [View.set_slice_whole, Rect.mem_set_unit]
  exact Iff.rfl

/-- The 10 row tiles cover the array: row `r` is in tile `r / 5000`. -/
theorem cover1 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := onto1 ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk1]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- THE REGION'S OUTPUT ARRAY after its 10 points, as one function of the region's input arrays as the region
    finds them. -/
theorem arr1 (c : Dev nD) : (dat1 V c).arrAt 9 cfg1.N = authorHidden (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 V c).arrAt_eq_of_cover 9 _ (fun t _ => flushed1_eq V c t) cover1

end Cert.KernelIdeal.Tiles

end
-- ==== Proof.Host1.lean ====
/-
  The second tiled region's input arrays, as the region finds them, against the reference's stages; and the
  region's output array as the reference's layer-0 output of the author nodes.

  Between its first and second regions the idealized kernel program only slices, reshapes and transposes
  weights, biases and layer-norm rows of its arguments; the author nodes' neighbourhood sum and reciprocal
  in-degree were computed before the first region, which touches neither.  Each input array of the second
  region is the reference's own stage of the same arguments (the reciprocal in-degree: one over the
  reference's count clipped below at one).  The region's output is the fused spelling of the hidden layer of
  one edge type of those arrays, which equals the plain spelling the reference computes.
-/
import proofs.«171430_j23888608100644_2_alg».proof.Proof.Gen.KernelIdeal.Frame
import proofs.«171430_j23888608100644_2_alg».proof.Proof.RefRead
import proofs.«171430_j23888608100644_2_alg».proof.Proof.Spec
import proofs.«171430_j23888608100644_2_alg».proof.Proof.BodyLib
import proofs.«171430_j23888608100644_2_alg».proof.Proof.Walk
import proofs.«171430_j23888608100644_2_alg».proof.Proof.Tile1
import proofs.«171430_j23888608100644_2_alg».proof.Proof.RefHidden
import proofs.«171430_j23888608100644_2_alg».proof.Proof.Laws
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Two small reads -/

/-- A vector of 50000 entries cast to a column reads, at `(r, 0)`, the vector at `r`. -/
theorem col_cast_author (Y : FVec Ideal S50000 .f32) (h : S50000.ShapeCasts S50000x1) (r : Fin 50000) :
    shapeCast S50000x1 Y h (ix2 r 0) = Y (ix1 r) := Cert.KernelIdeal.Body.shapeCast_a_a1_apply Y h r 0

/-- One over the in-degree clipped below at one, entry by entry. -/
theorem inv_read_author (cnt : FVec Ideal S50000 .f32) (hb : S_.BroadcastsInDim S50000 (![] : Fin 0 → Fin S50000.rank)) (r : Fin 50000) :
    Host.divf (broadcastInDim S50000 ![] hb (constant (F := Ideal) S_ .f32 0x3F800000#32))
      (maximumf cnt (broadcastInDim S50000 ![] hb (constant (F := Ideal) S_ .f32 0x3F800000#32))) (ix1 r)
      = Ideal.div Cert.Sage.one (max (cnt (ix1 r)) Cert.Sage.one) := rfl

/-! ## Region 1's nine input arrays -/

set_option maxHeartbeats 4000000 in
/-- The sum over the written papers' rows. -/
theorem in1_sum : V3 (F := Ideal) m ρ c (Pipeline.arrRef spec1 0) = Cert.ReferenceIdeal.Read.val_main_v98 (F := Ideal) (m ((c : Thread nD τ).loc main_arg0)) (m ((c : Thread nD τ).loc main_arg4)) := by
  show StableHlo.after hostOps1 (W2 m ρ c) (Proc.devRef .tc main_v79) = _
  after_results_simp
  rw [W2_v79 m ρ c]
  show StableHlo.after hostOps0 (W0 m ρ c) (Proc.devRef .tc main_v79) = _
  after_results_simp <;> rfl

set_option maxHeartbeats 4000000 in
/-- The reciprocal of the in-degree (at least one), kept as a column. -/
theorem in1_inv (r : Fin 50000) : V3 (F := Ideal) m ρ c (Pipeline.arrRef spec1 1) (ix2 r 0)
    = Ideal.div Cert.Sage.one (max (Cert.ReferenceIdeal.Read.val_main_v104 (F := Ideal) (m ((c : Thread nD τ).loc main_arg4)) (ix1 r)) Cert.Sage.one) := by
  have e : V3 (F := Ideal) m ρ c (Pipeline.arrRef spec1 1)
      = shapeCast S50000x1 (Host.divf (broadcastInDim S50000 ![] (by decide) (constant (F := Ideal) S_ .f32 0x3F800000#32))
          (maximumf (Cert.ReferenceIdeal.Read.val_main_v104 (F := Ideal) (m ((c : Thread nD τ).loc main_arg4))) (broadcastInDim S50000 ![] (by decide) (constant (F := Ideal) S_ .f32 0x3F800000#32)))) (by decide) := by
    show StableHlo.after hostOps1 (W2 m ρ c) (Proc.devRef .tc main_v34) = _
    after_results_simp
    rw [W2_v34 m ρ c]
    show StableHlo.after hostOps0 (W0 m ρ c) (Proc.devRef .tc main_v34) = _
    after_results_simp
    rfl
  rw [e]
  refine (col_cast_author _ _ r).trans ?_
  exact inv_read_author _ _ r

set_option maxHeartbeats 4000000 in
/-- The author features themselves. -/
theorem in1_self : V3 (F := Ideal) m ρ c (Pipeline.arrRef spec1 2) = (m ((c : Thread nD τ).loc main_arg1)) := by
  show StableHlo.after hostOps1 (W2 m ρ c) (Proc.devRef .tc main_arg1) = _
  after_results_simp
  exact W2_arg1 m ρ c

set_option maxHeartbeats 4000000 in
/-- The transposed neighbour weight. -/
theorem in1_wl : V3 (F := Ideal) m ρ c (Pipeline.arrRef spec1 3) = Cert.ReferenceIdeal.Read.val_main_v110 (F := Ideal) (m ((c : Thread nD τ).loc main_arg5)) := by
  show StableHlo.after hostOps1 (W2 m ρ c) (Proc.devRef .tc main_v108) = _
  after_results_simp
  rw [W2_arg5 m ρ c]
  rfl

set_option maxHeartbeats 4000000 in
/-- The transposed self weight. -/
theorem in1_wr : V3 (F := Ideal) m ρ c (Pipeline.arrRef spec1 4) = Cert.ReferenceIdeal.Read.val_main_v115 (F := Ideal) (m ((c : Thread nD τ).loc main_arg6)) := by
  show StableHlo.after hostOps1 (W2 m ρ c) (Proc.devRef .tc main_v111) = _
  after_results_simp
  rw [W2_arg6 m ρ c]
  rfl

set_option maxHeartbeats 4000000 in
/-- The bias, kept as a row. -/
theorem in1_bias (j : Fin 128) : V3 (F := Ideal) m ρ c (Pipeline.arrRef spec1 5) (ix2 0 j) = Cert.ReferenceIdeal.Read.val_main_v84 (F := Ideal) (m ((c : Thread nD τ).loc main_arg7)) (ix1 j) := by
  show StableHlo.after hostOps1 (W2 m ρ c) (Proc.devRef .tc main_v114) (ix2 0 j) = _
  after_results_simp
  rw [W2_arg7 m ρ c]
  refine (shapeCast_a_1a_apply _ _ 0 j).trans ?_
  rfl

set_option maxHeartbeats 4000000 in
/-- The transposed residual weight. -/
theorem in1_lin : V3 (F := Ideal) m ρ c (Pipeline.arrRef spec1 6) = Cert.ReferenceIdeal.Read.val_main_v121 (F := Ideal) (m ((c : Thread nD τ).loc main_arg9)) := by
  show StableHlo.after hostOps1 (W2 m ρ c) (Proc.devRef .tc main_v115) = _
  after_results_simp
  rw [W2_arg9 m ρ c]
  rfl

set_option maxHeartbeats 4000000 in
/-- The layer-norm scale, kept as a row. -/
theorem in1_scale (j : Fin 128) : V3 (F := Ideal) m ρ c (Pipeline.arrRef spec1 7) (ix2 0 j) = Cert.ReferenceIdeal.Read.val_main_v154 (F := Ideal) (m ((c : Thread nD τ).loc main_arg10)) (ix1 j) := by
  show StableHlo.after hostOps1 (W2 m ρ c) (Proc.devRef .tc main_v118) (ix2 0 j) = _
  after_results_simp
  rw [W2_arg10 m ρ c]
  refine (shapeCast_a_1a_apply _ _ 0 j).trans ?_
  rfl

set_option maxHeartbeats 4000000 in
/-- The layer-norm shift, kept as a row. -/
theorem in1_shift (j : Fin 128) : V3 (F := Ideal) m ρ c (Pipeline.arrRef spec1 8) (ix2 0 j) = Cert.ReferenceIdeal.Read.val_main_v156 (F := Ideal) (m ((c : Thread nD τ).loc main_arg11)) (ix1 j) := by
  show StableHlo.after hostOps1 (W2 m ρ c) (Proc.devRef .tc main_v121) (ix2 0 j) = _
  after_results_simp
  rw [W2_arg11 m ρ c]
  refine (shapeCast_a_1a_apply _ _ 0 j).trans ?_
  rfl

/-! ## The region's output array -/

set_option maxHeartbeats 4000000 in
/-- THE SECOND REGION'S OUTPUT ARRAY is the reference's layer-0 output of the author nodes: the fused spelling of the
    hidden layer of one edge type, of arrays that are the reference's stages, is the plain spelling. -/
theorem layer0_author : (dat1 (V3 (F := Ideal) m ρ) c).arrAt 9 cfg1.N
    = Cert.ReferenceIdeal.Read.val_main_v181 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  rw [Cert.KernelIdeal.Tiles.arr1 (V3 (F := Ideal) m ρ) c]
  funext i
  obtain ⟨r, j, rfl⟩ : ∃ (r : Fin 50000) (j : Fin 128), i = ix2 r j := ⟨i 0, i 1, eq_ix2 i⟩
  refine Eq.trans ?_ (Cert.ReferenceIdeal.RefValue.ref_author0 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) r j).symm
  show Cert.Sage.hidden1F (fun r k => V3 (F := Ideal) m ρ c (Pipeline.arrRef spec1 0) (ix2 r k))
      (fun r => V3 (F := Ideal) m ρ c (Pipeline.arrRef spec1 1) (ix2 r 0))
      (fun r k => V3 (F := Ideal) m ρ c (Pipeline.arrRef spec1 2) (ix2 r k))
      (fun k j => V3 (F := Ideal) m ρ c (Pipeline.arrRef spec1 3) (ix2 k j))
      (fun k j => V3 (F := Ideal) m ρ c (Pipeline.arrRef spec1 4) (ix2 k j))
      (fun j => V3 (F := Ideal) m ρ c (Pipeline.arrRef spec1 5) (ix2 0 j))
      (fun k j => V3 (F := Ideal) m ρ c (Pipeline.arrRef spec1 6) (ix2 k j))
      (fun j => V3 (F := Ideal) m ρ c (Pipeline.arrRef spec1 7) (ix2 0 j))
      (fun j => V3 (F := Ideal) m ρ c (Pipeline.arrRef spec1 8) (ix2 0 j)) r j = _
  simp only [in1_sum m ρ c, in1_inv m ρ c, in1_self m ρ c, in1_wl m ρ c, in1_wr m ρ c, in1_bias m ρ c, in1_lin m ρ c,
    in1_scale m ρ c, in1_shift m ρ c]
  exact congrFun (congrFun (Cert.Sage.hidden1_fused_eq_plain _ _ _ _ _ _ _ _ _) r) j

end Cert.Bridge

end
-- ==== Proof.Body2.lean ====
/-
  Region 2 (the last layer at a node of two incoming edge types, and the classification head): the staging
  buffer the body leaves, read at row `p` and class `j`, is the fused spelling `Cert.Sage.headF` of the input blocks.
-/
import proofs.«171430_j23888608100644_2_alg».proof.Proof.Gen.KernelIdeal.Frame
import proofs.«171430_j23888608100644_2_alg».proof.Proof.Spec
import proofs.«171430_j23888608100644_2_alg».proof.Proof.BodyLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## A `[4000,128] × [128,128]` product into a zero accumulator, at an index -/

theorem mm2h_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem mm2h_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mm2h_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mm2h_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product at `(p, j)` is the sum over the contracted lane `k` of left `(p, k)` times right `(k, j)`. -/
theorem mm2h_apply {φ₁ φ₂ : FTy} (l : FVec Ideal S4000x128 φ₁) (r : FVec Ideal S128x128 φ₂) (p : Fin 4000) (j : Fin 128) :
    matmul dot_S4000x128_S128x128_S4000x128_1_0_0_1_n_n none l r (constant (F := Ideal) S4000x128 .f32 0x00000000#32) (ix2 p j)
      = ∑ k : Fin 128, l (ix2 p k) * r (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact mm2h_lhs0 _ _
      | ⟨1, _⟩ => exact (mm2h_lhs1 _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (mm2h_rhs0 _ _).trans hk
      | ⟨1, _⟩ => exact mm2h_rhs1 _ _)
  rw [el, er]

/-! ## A `[4000,128] × [128,16]` product into a zero accumulator, at an index -/

theorem mm2c_lhs0 (i : S4000x16.Idx) (q : dot_S4000x128_S128x16_S4000x16_1_0_0_1_n_n.contr.Idx) :
    (dot_S4000x128_S128x16_S4000x16_1_0_0_1_n_n.lhsIdx i q 0).val = (i 0).val := by
  unfold DotDims.lhsIdx
  rw [dif_neg (show ¬(0 : Fin S4000x128.rank) ∈ dot_S4000x128_S128x16_S4000x16_1_0_0_1_n_n.lhsBatch by decide),
    dif_pos (show (0 : Fin S4000x128.rank) ∈ dot_S4000x128_S128x16_S4000x16_1_0_0_1_n_n.lhsNonContracting by decide)]
  rfl
theorem mm2c_lhs1 (i : S4000x16.Idx) (q : dot_S4000x128_S128x16_S4000x16_1_0_0_1_n_n.contr.Idx) :
    (dot_S4000x128_S128x16_S4000x16_1_0_0_1_n_n.lhsIdx i q 1).val = (q ⟨0, by decide⟩).val :=
  dot_S4000x128_S128x16_S4000x16_1_0_0_1_n_n.lhsIdx_val_of_single rfl i q
theorem mm2c_rhs0 (i : S4000x16.Idx) (q : dot_S4000x128_S128x16_S4000x16_1_0_0_1_n_n.contr.Idx) :
    (dot_S4000x128_S128x16_S4000x16_1_0_0_1_n_n.rhsIdx i q 0).val = (q ⟨0, by decide⟩).val :=
  dot_S4000x128_S128x16_S4000x16_1_0_0_1_n_n.rhsIdx_val_of_single rfl i q
theorem mm2c_rhs1 (i : S4000x16.Idx) (q : dot_S4000x128_S128x16_S4000x16_1_0_0_1_n_n.contr.Idx) :
    (dot_S4000x128_S128x16_S4000x16_1_0_0_1_n_n.rhsIdx i q 1).val = (i 1).val := by
  unfold DotDims.rhsIdx
  rw [dif_neg (show ¬(1 : Fin S128x16.rank) ∈ dot_S4000x128_S128x16_S4000x16_1_0_0_1_n_n.rhsBatch by decide),
    dif_pos (show (1 : Fin S128x16.rank) ∈ dot_S4000x128_S128x16_S4000x16_1_0_0_1_n_n.rhsNonContracting by decide)]
  rfl

/-- The product at `(p, j)` is the sum over the contracted lane `k` of left `(p, k)` times right `(k, j)`. -/
theorem mm2c_apply {φ₁ φ₂ : FTy} (l : FVec Ideal S4000x128 φ₁) (r : FVec Ideal S128x16 φ₂) (p : Fin 4000) (j : Fin 16) :
    matmul dot_S4000x128_S128x16_S4000x16_1_0_0_1_n_n none l r (constant (F := Ideal) S4000x16 .f32 0x00000000#32) (ix2 p j)
      = ∑ k : Fin 128, l (ix2 p k) * r (ix2 k j) := by
  simp only [matmul]
  rw [Ideal.matmul_constant_zero_apply, ← Equiv.sum_comp (contrEquiv1 dot_S4000x128_S128x16_S4000x16_1_0_0_1_n_n 128 rfl rfl).symm]
  refine Finset.sum_congr rfl fun k _ => ?_
  have hk := contrEquiv1_symm_val dot_S4000x128_S128x16_S4000x16_1_0_0_1_n_n 128 rfl rfl k
  have el : dot_S4000x128_S128x16_S4000x16_1_0_0_1_n_n.lhsIdx (ix2 p j) ((contrEquiv1 dot_S4000x128_S128x16_S4000x16_1_0_0_1_n_n 128 rfl rfl).symm k) = ix2 p k :=
    funext fun a => Fin.ext (by
      match a with
      | ⟨0, _⟩ => exact mm2c_lhs0 _ _
      | ⟨1, _⟩ => exact (mm2c_lhs1 _ _).trans hk)
  have er : dot_S4000x128_S128x16_S4000x16_1_0_0_1_n_n.rhsIdx (ix2 p j) ((contrEquiv1 dot_S4000x128_S128x16_S4000x16_1_0_0_1_n_n 128 rfl rfl).symm k) = ix2 k j :=
    funext fun a => Fin.ext (by
      match a with
      | ⟨0, _⟩ => exact (mm2c_rhs0 _ _).trans hk
      | ⟨1, _⟩ => exact mm2c_rhs1 _ _)
  rw [el, er]

/-! ## The pre-activation: three products and the bias row -/

/-- The first part of the body at `(p, j)`: both scaled neighbourhood sums through their weights, the self
    features through theirs, and the bias. -/
theorem pre2_apply (v0 : Vec Ideal S4000x128 .f32) (v2 : Vec Ideal S4000x1 .f32) (v7 : Vec Ideal S4000x128 .f32)
    (v9 : Vec Ideal S4000x1 .f32) (v14 : Vec Ideal S4000x128 .f32) (v17 v20 v23 : Vec Ideal S128x128 .f32)
    (v31 : Vec Ideal S1x128 .f32) (p : Fin 4000) (j : Fin 128) :
    k2_pay2 (F := Ideal) v0 v2 v7 v9 v14 v17 v20 v23 v31 (ix2 p j)
      = Cert.Sage.pre2F (fun r k => v0 (ix2 r k)) (fun r => v2 (ix2 r (0 : Fin 1))) (fun r k => v7 (ix2 r k))
          (fun r => v9 (ix2 r (0 : Fin 1))) (fun r k => v14 (ix2 r k)) (fun k j => v17 (ix2 k j)) (fun k j => v20 (ix2 k j))
          (fun k j => v23 (ix2 k j)) (fun j => v31 (ix2 (0 : Fin 1) j)) p j := by
  unfold k2_pay2
  simp only [shapeCast_self]
  rw [addf_apply, addf_apply, addf_apply, mm2h_apply, mm2h_apply, mm2h_apply, broadcastTo_1b_ab_apply]
  simp only [truncf_apply, mulf_apply, broadcastTo_a1_ab_apply]
  rfl

/-! ## The whole body -/

theorem out2_apply (x0 : Vec Ideal S4000x128 .f32) (x1 : Vec Ideal S4000x1 .f32) (x2 : Vec Ideal S4000x128 .f32)
    (x3 : Vec Ideal S4000x1 .f32) (x4 : Vec Ideal S4000x128 .f32) (x5 x6 x7 : Vec Ideal S128x128 .f32)
    (x8 x9 x10 : Vec Ideal S1x128 .f32) (x11 : Vec Ideal S128x16 .f32) (x12 : Vec Ideal S1x16 .f32)
    (p : Fin 4000) (j : Fin 16) :
    Cert.KernelIdeal.Gen.out2_13 (F := Ideal) x0 x1 x2 x3 x4 x5 x6 x7 x8 x9 x10 x11 x12 (ix2 p j)
      = Cert.Sage.headF (fun r k => x0 (ix2 r k)) (fun r => x1 (ix2 r 0)) (fun r k => x2 (ix2 r k)) (fun r => x3 (ix2 r 0))
          (fun r k => x4 (ix2 r k)) (fun k j => x5 (ix2 k j)) (fun k j => x6 (ix2 k j)) (fun k j => x7 (ix2 k j))
          (fun j => x8 (ix2 0 j)) (fun j => x9 (ix2 0 j)) (fun j => x10 (ix2 0 j)) (fun k j => x11 (ix2 k j))
          (fun j => x12 (ix2 0 j)) p j := by
  unfold Cert.KernelIdeal.Gen.out2_13
  rw [View.canon_unit_zero hz]
  simp only [View.ld_unit_zero (S := S4000x128) hz, View.ld_unit_zero (S := S4000x1) hz,
    View.ld_unit_zero (S := S128x128) hz, View.ld_unit_zero (S := S1x128) hz,
    View.ld_unit_zero (S := S128x16) hz, View.ld_unit_zero (S := S1x16) hz]
  generalize hP : k2_pay2 (F := Ideal) x0 x1 x2 x3 x4 x5 x6 x7 x8 = P
  have hpre : (fun r k => P (ix2 r k)) = Cert.Sage.pre2F (fun r k => x0 (ix2 r k)) (fun r => x1 (ix2 r (0 : Fin 1)))
      (fun r k => x2 (ix2 r k)) (fun r => x3 (ix2 r (0 : Fin 1))) (fun r k => x4 (ix2 r k)) (fun k j => x5 (ix2 k j))
      (fun k j => x6 (ix2 k j)) (fun k j => x7 (ix2 k j)) (fun j => x8 (ix2 (0 : Fin 1) j)) :=
    funext fun r => funext fun k => by rw [← hP]; exact pre2_apply x0 x1 x2 x3 x4 x5 x6 x7 x8 r k
  have hpay : k2_pay1 (F := Ideal) P x9 x10 x11 x12
      = addf
          (matmul dot_S4000x128_S128x16_S4000x16_1_0_0_1_n_n none
            (truncf .bf16
              (lnOps P (meanOps P reduces_S4000x128_S4000 (.inl rfl) rfl shapeCasts_S4000_S4000x1)
                (shapeCast S1x128 x9 shapeCasts_S1x128_S1x128) (shapeCast S1x128 x10 shapeCasts_S1x128_S1x128)
                broadcasts_S4000x1_S4000x128 broadcasts_S1x128_S4000x128 reduces_S4000x128_S4000 (.inl rfl) rfl shapeCasts_S4000_S4000x1)
              bitsLt_bf16_f32)
            (truncf .bf16 x11 bitsLt_bf16_f32) (constant (F := Ideal) S4000x16 .f32 0x00000000#32))
          (broadcastTo S4000x16 (shapeCast S1x16 x12 shapeCasts_S1x16_S1x16) broadcasts_S1x16_S4000x16) := rfl
  have hln : ∀ k : Fin 128,
      truncf .bf16
          (lnOps P (meanOps P reduces_S4000x128_S4000 (.inl rfl) rfl shapeCasts_S4000_S4000x1)
            (shapeCast S1x128 x9 shapeCasts_S1x128_S1x128) (shapeCast S1x128 x10 shapeCasts_S1x128_S1x128)
            broadcasts_S4000x1_S4000x128 broadcasts_S1x128_S4000x128 reduces_S4000x128_S4000 (.inl rfl) rfl shapeCasts_S4000_S4000x1)
          bitsLt_bf16_f32 (ix2 p k)
        = Cert.Sage.lnRelu (fun r k => P (ix2 r k)) (fun j => x9 (ix2 (0 : Fin 1) j)) (fun j => x10 (ix2 (0 : Fin 1) j)) p k :=
    fun k => (lnOps_apply _ _ _ _ _ _ _ _ _ _ (fun r u => meanOps_apply _ _ _ _ _ r u) p k).trans (by
      simp only [shapeCast_self])
  rw [hpay, addf_apply, mm2c_apply, broadcastTo_1b_ab_apply, shapeCast_self x12]
  refine (congrArg (· + x12 (ix2 (0 : Fin 1) j)) (Finset.sum_congr rfl fun k _ =>
    congrArg (· * truncf .bf16 x11 bitsLt_bf16_f32 (ix2 k j)) (hln k))).trans ?_
  rw [hpre]
  rfl

end Cert.KernelIdeal.Body

end
-- ==== Proof.Tile2.lean ====
/-
  From tiles to the array: the paper nodes' last layer and the classification head.

  A tiled region stages a tile of every operand at each grid point, runs its body, and writes the output
  tile back.  The body's result at a tile is the layer's row-wise formula of the staged rows; since the
  formula treats every row alike, the tile a point writes back is the corresponding tile of ONE function
  of the region's whole input arrays, and the tiles cover the output array.  So the output array after the
  region IS that function of the input arrays.
-/
import proofs.«171430_j23888608100644_2_alg».proof.Proof.Gen.KernelIdeal.Frame
import proofs.«171430_j23888608100644_2_alg».proof.Proof.Spec
import proofs.«171430_j23888608100644_2_alg».proof.Proof.Body2
import Idealize.ShloMosaic.Lib.ValueIdx
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat)

/-- The last layer of the paper nodes and the classification head as ONE function of the region's thirteen input arrays,
    row by row. -/
def paperLogits (a0 : FVec Ideal S100000x128 .f32) (a1 : FVec Ideal S100000x1 .f32) (a2 : FVec Ideal S100000x128 .f32) (a3 : FVec Ideal S100000x1 .f32) (a4 : FVec Ideal S100000x128 .f32) (a5 : FVec Ideal S128x128 .f32) (a6 : FVec Ideal S128x128 .f32) (a7 : FVec Ideal S128x128 .f32) (a8 : FVec Ideal S1x128 .f32) (a9 : FVec Ideal S1x128 .f32) (a10 : FVec Ideal S1x128 .f32) (a11 : FVec Ideal S128x16 .f32) (a12 : FVec Ideal S1x16 .f32) : FVec Ideal S100000x16 .f32 :=
  fun i => Cert.Sage.headF (R := Fin 100000) (fun r k => a0 (ix2 r k)) (fun r => a1 (ix2 r 0)) (fun r k => a2 (ix2 r k)) (fun r => a3 (ix2 r 0)) (fun r k => a4 (ix2 r k)) (fun k j => a5 (ix2 k j)) (fun k j => a6 (ix2 k j)) (fun k j => a7 (ix2 k j)) (fun j => a8 (ix2 0 j)) (fun j => a9 (ix2 0 j)) (fun j => a10 (ix2 0 j)) (fun k j => a11 (ix2 k j)) (fun j => a12 (ix2 0 j)) (i 0) (i 1)

/-- The tiling, decided over the 25 grid points: the row windows move with the output's row tile, the column
    tile is always the first, and the weight, bias and layer-norm windows stay at the origin. -/
theorem idx2 : ∀ t : Fin cfg2.N,
    win2_0.index t (0 : Fin 2) = win2_13.index t (0 : Fin 2) ∧ win2_0.index t (1 : Fin 2) = 0
    ∧ win2_1.index t (0 : Fin 2) = win2_13.index t (0 : Fin 2) ∧ win2_1.index t (1 : Fin 2) = 0
    ∧ win2_2.index t (0 : Fin 2) = win2_13.index t (0 : Fin 2) ∧ win2_2.index t (1 : Fin 2) = 0
    ∧ win2_3.index t (0 : Fin 2) = win2_13.index t (0 : Fin 2) ∧ win2_3.index t (1 : Fin 2) = 0
    ∧ win2_4.index t (0 : Fin 2) = win2_13.index t (0 : Fin 2) ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) ≤ 24 ∧ win2_13.index t (1 : Fin 2) = 0 :=
  (by decide +kernel : ∀ t : Fin grid2.N, _)

/-- Every row tile is some point's. -/
theorem onto2 : ∀ q : Fin 25, ∃ t : Fin cfg2.N, win2_13.index t = ![q.val, 0] :=
  (by decide +kernel : ∀ q : Fin 25, ∃ t : Fin grid2.N, win2_13.index t = ![q.val, 0])

/-- The array row that row `r` of point `t`'s tile is. -/
def row2 (t : Fin cfg2.N) (r : Fin 4000) : Fin 100000 :=
  ⟨win2_13.index t (0 : Fin 2) * 4000 + r.val, by
    have h := (idx2 t).2.2.2.2.2.2.2.2.2.2.2.2.2.2.2.2.2.2.2.2.2.2.2.2.2.2.1
    have hr := r.isLt
    omega⟩

variable (V : (c : Dev nD) → (b : Ref sig .tc) → Buf (Elt Ideal) ((c : Thread nD τ).loc b))

section blocks
variable (c : Dev nD) (t : Fin cfg2.N)

theorem blk2_0 (r : Fin 4000) (k : Fin 128) : iblk2 V c 0 t (ix2 r k) = V c (Pipeline.arrRef spec2 0) (ix2 (row2 t r) k) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 0) (((cfg2.win 0).blk t).view.emb (ix2 r k)) = _
  congr 1; funext a; apply Fin.ext
  match a with
  | ⟨0, _⟩ => show win2_0.index t (0 : Fin 2) * 4000 + 1 * r.val = win2_13.index t (0 : Fin 2) * 4000 + r.val; omega
  | ⟨1, _⟩ => show win2_0.index t (1 : Fin 2) * 128 + 1 * k.val = k.val; omega

theorem blk2_1 (r : Fin 4000) : iblk2 V c 1 t (ix2 r 0) = V c (Pipeline.arrRef spec2 1) (ix2 (row2 t r) 0) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 1) (((cfg2.win 1).blk t).view.emb (ix2 r 0)) = _
  congr 1; funext a; apply Fin.ext
  match a with
  | ⟨0, _⟩ => show win2_1.index t (0 : Fin 2) * 4000 + 1 * r.val = win2_13.index t (0 : Fin 2) * 4000 + r.val; omega
  | ⟨1, _⟩ => show win2_1.index t (1 : Fin 2) * 1 + 1 * 0 = 0; omega

theorem blk2_2 (r : Fin 4000) (k : Fin 128) : iblk2 V c 2 t (ix2 r k) = V c (Pipeline.arrRef spec2 2) (ix2 (row2 t r) k) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 2) (((cfg2.win 2).blk t).view.emb (ix2 r k)) = _
  congr 1; funext a; apply Fin.ext
  match a with
  | ⟨0, _⟩ => show win2_2.index t (0 : Fin 2) * 4000 + 1 * r.val = win2_13.index t (0 : Fin 2) * 4000 + r.val; omega
  | ⟨1, _⟩ => show win2_2.index t (1 : Fin 2) * 128 + 1 * k.val = k.val; omega

theorem blk2_3 (r : Fin 4000) : iblk2 V c 3 t (ix2 r 0) = V c (Pipeline.arrRef spec2 3) (ix2 (row2 t r) 0) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 3) (((cfg2.win 3).blk t).view.emb (ix2 r 0)) = _
  congr 1; funext a; apply Fin.ext
  match a with
  | ⟨0, _⟩ => show win2_3.index t (0 : Fin 2) * 4000 + 1 * r.val = win2_13.index t (0 : Fin 2) * 4000 + r.val; omega
  | ⟨1, _⟩ => show win2_3.index t (1 : Fin 2) * 1 + 1 * 0 = 0; omega

theorem blk2_4 (r : Fin 4000) (k : Fin 128) : iblk2 V c 4 t (ix2 r k) = V c (Pipeline.arrRef spec2 4) (ix2 (row2 t r) k) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 4) (((cfg2.win 4).blk t).view.emb (ix2 r k)) = _
  congr 1; funext a; apply Fin.ext
  match a with
  | ⟨0, _⟩ => show win2_4.index t (0 : Fin 2) * 4000 + 1 * r.val = win2_13.index t (0 : Fin 2) * 4000 + r.val; omega
  | ⟨1, _⟩ => show win2_4.index t (1 : Fin 2) * 128 + 1 * k.val = k.val; omega

theorem blk2_5 (k j : Fin 128) : iblk2 V c 5 t (ix2 k j) = V c (Pipeline.arrRef spec2 5) (ix2 k j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 5) (((cfg2.win 5).blk t).view.emb (ix2 k j)) = _
  congr 1; funext a; apply Fin.ext
  match a with
  | ⟨0, _⟩ => show win2_5.index t (0 : Fin 2) * 128 + 1 * k.val = k.val; omega
  | ⟨1, _⟩ => show win2_5.index t (1 : Fin 2) * 128 + 1 * j.val = j.val; omega

theorem blk2_6 (k j : Fin 128) : iblk2 V c 6 t (ix2 k j) = V c (Pipeline.arrRef spec2 6) (ix2 k j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 6) (((cfg2.win 6).blk t).view.emb (ix2 k j)) = _
  congr 1; funext a; apply Fin.ext
  match a with
  | ⟨0, _⟩ => show win2_6.index t (0 : Fin 2) * 128 + 1 * k.val = k.val; omega
  | ⟨1, _⟩ => show win2_6.index t (1 : Fin 2) * 128 + 1 * j.val = j.val; omega

theorem blk2_7 (k j : Fin 128) : iblk2 V c 7 t (ix2 k j) = V c (Pipeline.arrRef spec2 7) (ix2 k j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 7) (((cfg2.win 7).blk t).view.emb (ix2 k j)) = _
  congr 1; funext a; apply Fin.ext
  match a with
  | ⟨0, _⟩ => show win2_7.index t (0 : Fin 2) * 128 + 1 * k.val = k.val; omega
  | ⟨1, _⟩ => show win2_7.index t (1 : Fin 2) * 128 + 1 * j.val = j.val; omega

theorem blk2_8 (j : Fin 128) : iblk2 V c 8 t (ix2 0 j) = V c (Pipeline.arrRef spec2 8) (ix2 0 j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 8) (((cfg2.win 8).blk t).view.emb (ix2 0 j)) = _
  congr 1; funext a; apply Fin.ext
  match a with
  | ⟨0, _⟩ => show win2_8.index t (0 : Fin 2) * 1 + 1 * 0 = 0; omega
  | ⟨1, _⟩ => show win2_8.index t (1 : Fin 2) * 128 + 1 * j.val = j.val; omega

theorem blk2_9 (j : Fin 128) : iblk2 V c 9 t (ix2 0 j) = V c (Pipeline.arrRef spec2 9) (ix2 0 j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 9) (((cfg2.win 9).blk t).view.emb (ix2 0 j)) = _
  congr 1; funext a; apply Fin.ext
  match a with
  | ⟨0, _⟩ => show win2_9.index t (0 : Fin 2) * 1 + 1 * 0 = 0; omega
  | ⟨1, _⟩ => show win2_9.index t (1 : Fin 2) * 128 + 1 * j.val = j.val; omega

theorem blk2_10 (j : Fin 128) : iblk2 V c 10 t (ix2 0 j) = V c (Pipeline.arrRef spec2 10) (ix2 0 j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 10) (((cfg2.win 10).blk t).view.emb (ix2 0 j)) = _
  congr 1; funext a; apply Fin.ext
  match a with
  | ⟨0, _⟩ => show win2_10.index t (0 : Fin 2) * 1 + 1 * 0 = 0; omega
  | ⟨1, _⟩ => show win2_10.index t (1 : Fin 2) * 128 + 1 * j.val = j.val; omega

theorem blk2_11 (k : Fin 128) (j : Fin 16) : iblk2 V c 11 t (ix2 k j) = V c (Pipeline.arrRef spec2 11) (ix2 k j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 11) (((cfg2.win 11).blk t).view.emb (ix2 k j)) = _
  congr 1; funext a; apply Fin.ext
  match a with
  | ⟨0, _⟩ => show win2_11.index t (0 : Fin 2) * 128 + 1 * k.val = k.val; omega
  | ⟨1, _⟩ => show win2_11.index t (1 : Fin 2) * 16 + 1 * j.val = j.val; omega

theorem blk2_12 (j : Fin 16) : iblk2 V c 12 t (ix2 0 j) = V c (Pipeline.arrRef spec2 12) (ix2 0 j) := by
  obtain ⟨a0, b0, a1, b1, a2, b2, a3, b3, a4, b4, a5, b5, a6, b6, a7, b7, a8, b8, a9, b9, a10, b10, a11, b11, a12, b12, hle, bo⟩ := idx2 t
  show V c (Pipeline.arrRef spec2 12) (((cfg2.win 12).blk t).view.emb (ix2 0 j)) = _
  congr 1; funext a; apply Fin.ext
  match a with
  | ⟨0, _⟩ => show win2_12.index t (0 : Fin 2) * 1 + 1 * 0 = 0; omega
  | ⟨1, _⟩ => show win2_12.index t (1 : Fin 2) * 16 + 1 * j.val = j.val; omega

end blocks

set_option maxHeartbeats 1000000 in
/-- What point `t` writes back is tile `t` of the whole-array function of the region's input arrays: the layer
    acts row by row, and the tile's rows are the array's rows `row2 t ·`. -/
theorem flushed2_eq (c : Dev nD) (t : Fin cfg2.N) :
    (dat2 V c).flushed 13 t = ((cfg2.win 13).blk t).view.read (Elt Ideal) (paperLogits (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12))) := by
  show (cfg2.win 13).cut (grid2.coords t) ((dat2 V c).after 13 t) = _
  rw [after2_13]
  funext y
  have h0 : (y 0).val < 4000 := Nat.lt_of_lt_of_le (y 0).isLt ((cfg2.win 13).xsize_le (grid2.coords t) 0)
  have h1 : (y 1).val < 16 := Nat.lt_of_lt_of_le (y 1).isLt ((cfg2.win 13).xsize_le (grid2.coords t) 1)
  have hx : (cfg2.win 13).xinj (grid2.coords t) y = ix2 (⟨(y 0).val, h0⟩ : Fin 4000) (⟨(y 1).val, h1⟩ : Fin 16) := by
    funext a; apply Fin.ext
    match a with
    | ⟨0, _⟩ => rfl
    | ⟨1, _⟩ => rfl
  have he : ((cfg2.win 13).blk t).view.emb y = ix2 (row2 t ⟨(y 0).val, h0⟩) (⟨(y 1).val, h1⟩ : Fin 16) := by
    obtain ⟨a0, b0, a1, b1, a2, b2, a3, b3, a4, b4, a5, b5, a6, b6, a7, b7, a8, b8, a9, b9, a10, b10, a11, b11, a12, b12, hle, bo⟩ := idx2 t
    funext a; apply Fin.ext
    match a with
    | ⟨0, _⟩ => show win2_13.index t (0 : Fin 2) * 4000 + 1 * (y 0).val = win2_13.index t (0 : Fin 2) * 4000 + (y 0).val; omega
    | ⟨1, _⟩ => show win2_13.index t (1 : Fin 2) * 16 + 1 * (y 1).val = (y 1).val; omega
  show out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) ((cfg2.win 13).xinj (grid2.coords t) y) = paperLogits (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (((cfg2.win 13).blk t).view.emb y)
  rw [hx, he]
  refine (Cert.KernelIdeal.Body.out2_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) _ _).trans ?_
  simp only [blk2_0, blk2_1, blk2_2, blk2_3, blk2_4, blk2_5, blk2_6, blk2_7, blk2_8, blk2_9, blk2_10, blk2_11, blk2_12]
  rfl

/-- An index of the array is in point `t`'s tile iff each coordinate is in the tile's range on its axis. -/
theorem mem_blk2 (t : Fin cfg2.N) (i : S100000x16.Idx) :
    i ∈ ((cfg2.win 13).blk t).view.set ↔ ∀ a : Fin 2, win2_13.index t a * S4000x16.size a ≤ (i a).val ∧ (i a).val < win2_13.index t a * S4000x16.size a + S4000x16.size a := by
  show i ∈ ((View.whole main_v180).slice (win2_13.rect t)).set ↔ _
  rw [View.set_slice_whole, Rect.mem_set_unit]
  exact Iff.rfl

/-- The 25 row tiles cover the array: row `r` is in tile `r / 4000`. -/
theorem cover2 (i : S100000x16.Idx) : ∃ t : Fin cfg2.N, (cfg2.win 13).flush t = true ∧ i ∈ ((cfg2.win 13).blk t).view.set := by
  have hi0 : (i 0).val < 100000 := (i 0).isLt
  have hi1 : (i 1).val < 16 := (i 1).isLt
  obtain ⟨t, ht⟩ := onto2 ⟨(i 0).val / 4000, by omega⟩
  have q0 : win2_13.index t (0 : Fin 2) = (i 0).val / 4000 := congrFun ht 0
  have q1 : win2_13.index t (1 : Fin 2) = 0 := congrFun ht 1
  refine ⟨t, flush2_13 t, ?_⟩
  rw [mem_blk2]
  intro a
  match a with
  | ⟨0, _⟩ => show win2_13.index t (0 : Fin 2) * 4000 ≤ (i 0).val ∧ (i 0).val < win2_13.index t (0 : Fin 2) * 4000 + 4000; omega
  | ⟨1, _⟩ => show win2_13.index t (1 : Fin 2) * 16 ≤ (i 1).val ∧ (i 1).val < win2_13.index t (1 : Fin 2) * 16 + 16; omega

/-- THE REGION'S OUTPUT ARRAY after its 25 points, as one function of the region's input arrays as the region
    finds them. -/
theorem arr2 (c : Dev nD) : (dat2 V c).arrAt 13 cfg2.N = paperLogits (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) :=
  (dat2 V c).arrAt_eq_of_cover 13 _ (fun t _ => flushed2_eq V c t) cover2

end Cert.KernelIdeal.Tiles

end
-- ==== Proof.RefHead.lean ====
/-
  The reference program's result, read at an index on the extended reals.

  Layer 1 acts on paper nodes only: two convolutions whose self features are the layer-0 output of the paper nodes and
  whose neighbourhood sums are taken over the layer-0 outputs (kept as opaque arrays), no residual map, layer norm, the
  positive part, and the classification head (a product with the head's weight plus its bias row). Chained, the result
  at `(r, j)` is the plain spelling `Sage.headP`.
-/
import proofs.«171430_j23888608100644_2_alg».proof.Proof.RefRead
import proofs.«171430_j23888608100644_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S50000x128, .f32⟩ : BufTy).Contents (Elt Ideal))
  (x2 x3 x4 : (⟨S2x500000, .i32⟩ : BufTy).Contents (Elt Ideal))
  (x5 x6 : (⟨S2x3x128x128, .f32⟩ : BufTy).Contents (Elt Ideal)) (x7 : (⟨S2x3x128, .f32⟩ : BufTy).Contents (Elt Ideal))
  (x8 x9 : (⟨S128x128, .f32⟩ : BufTy).Contents (Elt Ideal)) (x10 x11 : (⟨S2x2x128, .f32⟩ : BufTy).Contents (Elt Ideal))
  (x12 : (⟨S128x16, .f32⟩ : BufTy).Contents (Elt Ideal)) (x13 : (⟨S16, .f32⟩ : BufTy).Contents (Elt Ideal))

/-- Two indices of rank 1 are equal when their coordinates are, by computation. -/
local macro "idx1" : tactic => `(tactic| exact funext fun a => Fin.ext (by match a with | ⟨0, _⟩ => rfl))
/-- Two indices of rank 2 are equal when their coordinates are, each by computation. -/
local macro "idx2" : tactic => `(tactic| exact funext fun a => Fin.ext (by match a with | ⟨0, _⟩ => rfl | ⟨1, _⟩ => rfl))

/-! ## Layer 1, paper nodes: the two convolutions over the layer-0 outputs -/

/-- The bias row of the first convolution, broadcast over the rows. -/
theorem bias_216 (r : Fin 100000) (j : Fin 128) : val_main_v216 (F := Ideal) x7 (ix2 r j) = val_main_v187 (F := Ideal) x7 (ix1 j) := by
  rw [val_main_v216_apply, val_main_v215_apply]
  exact congrArg _ (by idx1)

/-- The neighbourhood sum of the first edge type divided by the clipped in-degree. -/
theorem mean_212 (r : Fin 100000) (k : Fin 128) :
    val_main_v212 (F := Ideal) x0 x1 x2 x3 x5 x6 x7 x8 x10 x11 (ix2 r k)
      = Ideal.div (val_main_v201 (F := Ideal) x0 x1 x2 x3 x5 x6 x7 x8 x10 x11 (ix2 r k)) (max (val_main_v207 (F := Ideal) x2 (ix1 r)) Cert.Sage.one) := by
  rw [val_main_v212_apply, val_main_v211_apply, val_main_v210_apply, val_main_v209_apply, val_main_v208_apply, val_main_cst_31_apply,
    show idx_main_v210 (idx_main_v211 (ix2 r k)) = ix1 r by idx1]
  rfl

/-- The first convolution at `(r, j)`; the node's own features are its layer-0 output. -/
theorem conv_220 (r : Fin 100000) (j : Fin 128) :
    val_main_v220 (F := Ideal) x0 x1 x2 x3 x5 x6 x7 x8 x10 x11 (ix2 r j)
      = Cert.Sage.conv (fun r k => val_main_v201 (F := Ideal) x0 x1 x2 x3 x5 x6 x7 x8 x10 x11 (ix2 r k)) (fun r => val_main_v207 (F := Ideal) x2 (ix1 r))
          (fun r k => val_main_v152 (F := Ideal) x0 x1 x2 x3 x5 x6 x7 x8 x10 x11 (ix2 r k))
          (fun k j => val_main_v213 (F := Ideal) x5 (ix2 k j)) (fun k j => val_main_v218 (F := Ideal) x6 (ix2 k j)) (fun j => val_main_v187 (F := Ideal) x7 (ix1 j)) r j := by
  rw [val_main_v220_apply, val_main_v217_apply, val_main_v214_apply, val_main_v219_apply, bias_216]
  simp only [Ideal.addf_def]
  refine congrArg₂ (· + ·) (congrArg₂ (· + ·) (Finset.sum_congr rfl fun k _ => ?_) rfl) (Finset.sum_congr rfl fun k _ => ?_)
  · rw [show lidx_main_v214 (ix2 r j) k = ix2 r k by idx2, show ridx_main_v214 (ix2 r j) k = ix2 k j by idx2, mean_212]
  · rw [show lidx_main_v219 (ix2 r j) k = ix2 r k by idx2, show ridx_main_v219 (ix2 r j) k = ix2 k j by idx2]

/-- The bias row of the second convolution, broadcast over the rows. -/
theorem bias_255 (r : Fin 100000) (j : Fin 128) : val_main_v255 (F := Ideal) x7 (ix2 r j) = val_main_v226 (F := Ideal) x7 (ix1 j) := by
  rw [val_main_v255_apply, val_main_v254_apply]
  exact congrArg _ (by idx1)

/-- The neighbourhood sum of the second edge type divided by its clipped in-degree. -/
theorem mean_251 (r : Fin 100000) (k : Fin 128) :
    val_main_v251 (F := Ideal) x0 x1 x3 x4 x5 x6 x7 x9 x10 x11 (ix2 r k)
      = Ideal.div (val_main_v240 (F := Ideal) x0 x1 x3 x4 x5 x6 x7 x9 x10 x11 (ix2 r k)) (max (val_main_v246 (F := Ideal) x3 (ix1 r)) Cert.Sage.one) := by
  rw [val_main_v251_apply, val_main_v250_apply, val_main_v249_apply, val_main_v248_apply, val_main_v247_apply, val_main_cst_37_apply,
    show idx_main_v249 (idx_main_v250 (ix2 r k)) = ix1 r by idx1]
  rfl

/-- The second convolution at `(r, j)`. -/
theorem conv_259 (r : Fin 100000) (j : Fin 128) :
    val_main_v259 (F := Ideal) x0 x1 x2 x3 x4 x5 x6 x7 x8 x9 x10 x11 (ix2 r j)
      = Cert.Sage.conv (fun r k => val_main_v240 (F := Ideal) x0 x1 x3 x4 x5 x6 x7 x9 x10 x11 (ix2 r k)) (fun r => val_main_v246 (F := Ideal) x3 (ix1 r))
          (fun r k => val_main_v152 (F := Ideal) x0 x1 x2 x3 x5 x6 x7 x8 x10 x11 (ix2 r k))
          (fun k j => val_main_v252 (F := Ideal) x5 (ix2 k j)) (fun k j => val_main_v257 (F := Ideal) x6 (ix2 k j)) (fun j => val_main_v226 (F := Ideal) x7 (ix1 j)) r j := by
  rw [val_main_v259_apply, val_main_v256_apply, val_main_v253_apply, val_main_v258_apply, bias_255]
  simp only [Ideal.addf_def]
  refine congrArg₂ (· + ·) (congrArg₂ (· + ·) (Finset.sum_congr rfl fun k _ => ?_) rfl) (Finset.sum_congr rfl fun k _ => ?_)
  · rw [show lidx_main_v253 (ix2 r j) k = ix2 r k by idx2, show ridx_main_v253 (ix2 r j) k = ix2 k j by idx2, mean_251]
  · rw [show lidx_main_v258 (ix2 r j) k = ix2 r k by idx2, show ridx_main_v258 (ix2 r j) k = ix2 k j by idx2]

/-- The sum of the two convolutions: the layer-1 pre-activation of a paper node. -/
theorem pre_260 (r : Fin 100000) (j : Fin 128) :
    val_main_v260 (F := Ideal) x0 x1 x2 x3 x4 x5 x6 x7 x8 x9 x10 x11 (ix2 r j)
      = Cert.Sage.pre2P (fun r k => val_main_v201 (F := Ideal) x0 x1 x2 x3 x5 x6 x7 x8 x10 x11 (ix2 r k)) (fun r => val_main_v207 (F := Ideal) x2 (ix1 r))
          (fun r k => val_main_v240 (F := Ideal) x0 x1 x3 x4 x5 x6 x7 x9 x10 x11 (ix2 r k)) (fun r => val_main_v246 (F := Ideal) x3 (ix1 r))
          (fun r k => val_main_v152 (F := Ideal) x0 x1 x2 x3 x5 x6 x7 x8 x10 x11 (ix2 r k))
          (fun k j => val_main_v213 (F := Ideal) x5 (ix2 k j)) (fun k j => val_main_v218 (F := Ideal) x6 (ix2 k j)) (fun j => val_main_v187 (F := Ideal) x7 (ix1 j))
          (fun k j => val_main_v252 (F := Ideal) x5 (ix2 k j)) (fun k j => val_main_v257 (F := Ideal) x6 (ix2 k j)) (fun j => val_main_v226 (F := Ideal) x7 (ix1 j)) r j := by
  rw [val_main_v260_apply, conv_220, conv_259]
  rfl

/-! ## Layer 1, paper nodes: layer norm and the positive part (no residual map in the last layer) -/

/-- The mean of row `r` of the pre-activation. -/
theorem mean_307 (r : Fin 100000) :
    val_main_v307 (F := Ideal) x0 x1 x2 x3 x4 x5 x6 x7 x8 x9 x10 x11 (ix2 r 0) = Cert.Sage.rowMean (fun r k => val_main_v260 (F := Ideal) x0 x1 x2 x3 x4 x5 x6 x7 x8 x9 x10 x11 (ix2 r k)) r := by
  rw [val_main_v307_apply, val_main_v305_apply, val_main_v304_apply, val_main_v306_apply, val_main_cst_45_apply, val_main_cst_44_apply]
  simp only [Ideal.hostDivf_def, Ideal.ofBits_def, Ideal.ofBits_zero_f32, zero_add]
  exact congrArg (Ideal.div · Cert.Sage.width) (Finset.sum_congr rfl fun k _ => congrArg _ (by idx2))

/-- An entry of the row minus the row's mean. -/
theorem centred_309 (r : Fin 100000) (j : Fin 128) :
    val_main_v309 (F := Ideal) x0 x1 x2 x3 x4 x5 x6 x7 x8 x9 x10 x11 (ix2 r j)
      = val_main_v260 (F := Ideal) x0 x1 x2 x3 x4 x5 x6 x7 x8 x9 x10 x11 (ix2 r j) - Cert.Sage.rowMean (fun r k => val_main_v260 (F := Ideal) x0 x1 x2 x3 x4 x5 x6 x7 x8 x9 x10 x11 (ix2 r k)) r := by
  rw [val_main_v309_apply, val_main_v308_apply, show idx_main_v308 (ix2 r j) = ix2 r 0 by idx2, mean_307]
  rfl

/-- The variance of row `r`. -/
theorem var_314 (r : Fin 100000) :
    val_main_v314 (F := Ideal) x0 x1 x2 x3 x4 x5 x6 x7 x8 x9 x10 x11 (ix2 r 0) = Cert.Sage.rowVar (fun r k => val_main_v260 (F := Ideal) x0 x1 x2 x3 x4 x5 x6 x7 x8 x9 x10 x11 (ix2 r k)) r := by
  rw [val_main_v314_apply, val_main_v312_apply, val_main_v311_apply, val_main_v313_apply, val_main_cst_47_apply, val_main_cst_46_apply]
  simp only [Ideal.hostDivf_def, Ideal.ofBits_def, Ideal.ofBits_zero_f32, zero_add]
  refine congrArg (Ideal.div · Cert.Sage.width) (Finset.sum_congr rfl fun k _ => ?_)
  rw [show idx_main_v311 (idx_main_v312 (ix2 r 0)) k = ix2 r k by idx2, val_main_v310_apply, centred_309]
  rfl

/-- The reciprocal square root of the variance plus the small constant. -/
theorem rstd_319 (r : Fin 100000) :
    val_main_v319 (F := Ideal) x0 x1 x2 x3 x4 x5 x6 x7 x8 x9 x10 x11 (ix2 r 0)
      = Ideal.rsqrt (Cert.Sage.rowVar (fun r k => val_main_v260 (F := Ideal) x0 x1 x2 x3 x4 x5 x6 x7 x8 x9 x10 x11 (ix2 r k)) r + Cert.Sage.eps) := by
  rw [val_main_v319_apply, val_main_v318_apply, var_314, val_main_v317_apply, val_main_cst_48_apply]
  rfl

/-- The scale row broadcast over the rows. -/
theorem scale_323 (r : Fin 100000) (j : Fin 128) : val_main_v323 (F := Ideal) x10 (ix2 r j) = val_main_v301 (F := Ideal) x10 (ix1 j) := by
  rw [val_main_v323_apply, val_main_v322_apply]
  exact congrArg _ (by idx1)

/-- The shift row broadcast over the rows. -/
theorem shift_326 (r : Fin 100000) (j : Fin 128) : val_main_v326 (F := Ideal) x11 (ix2 r j) = val_main_v303 (F := Ideal) x11 (ix1 j) := by
  rw [val_main_v326_apply, val_main_v325_apply]
  exact congrArg _ (by idx1)

/-- Layer norm of the pre-activation followed by the positive part: the layer-1 output of a paper node. -/
theorem lnrelu_328 (r : Fin 100000) (j : Fin 128) :
    val_main_v328 (F := Ideal) x0 x1 x2 x3 x4 x5 x6 x7 x8 x9 x10 x11 (ix2 r j)
      = Cert.Sage.lnRelu (fun r k => val_main_v260 (F := Ideal) x0 x1 x2 x3 x4 x5 x6 x7 x8 x9 x10 x11 (ix2 r k))
          (fun j => val_main_v301 (F := Ideal) x10 (ix1 j)) (fun j => val_main_v303 (F := Ideal) x11 (ix1 j)) r j := by
  rw [val_main_v328_apply, val_main_v327_apply, val_main_v324_apply, val_main_v321_apply, val_main_v316_apply, val_main_v315_apply, val_main_v320_apply,
    show idx_main_v315 (ix2 r j) = ix2 r 0 by idx2, show idx_main_v320 (ix2 r j) = ix2 r 0 by idx2,
    mean_307, rstd_319, scale_323, shift_326, val_main_call2_v0_apply, val_main_call2_cst_apply]
  rfl

/-! ## The classification head -/

/-- The head's bias row broadcast over the rows. -/
theorem bias_360 (r : Fin 100000) (j : Fin 16) : val_main_v360 (F := Ideal) x13 (ix2 r j) = x13 (ix1 j) := by
  rw [val_main_v360_apply, val_main_v359_apply]
  exact congrArg _ (by idx1)

/-- THE RESULT at `(r, j)` is the plain spelling of the last layer and the head, applied to the layer-1
    neighbourhood sums and in-degrees, the layer-0 output of the paper nodes, and the reference's own weight stages. -/
theorem ref_head (r : Fin 100000) (j : Fin 16) :
    val_main_v361 (F := Ideal) x0 x1 x2 x3 x4 x5 x6 x7 x8 x9 x10 x11 x12 x13 (ix2 r j)
      = Cert.Sage.headP (fun r k => val_main_v201 (F := Ideal) x0 x1 x2 x3 x5 x6 x7 x8 x10 x11 (ix2 r k)) (fun r => val_main_v207 (F := Ideal) x2 (ix1 r))
          (fun r k => val_main_v240 (F := Ideal) x0 x1 x3 x4 x5 x6 x7 x9 x10 x11 (ix2 r k)) (fun r => val_main_v246 (F := Ideal) x3 (ix1 r))
          (fun r k => val_main_v152 (F := Ideal) x0 x1 x2 x3 x5 x6 x7 x8 x10 x11 (ix2 r k))
          (fun k j => val_main_v213 (F := Ideal) x5 (ix2 k j)) (fun k j => val_main_v218 (F := Ideal) x6 (ix2 k j)) (fun j => val_main_v187 (F := Ideal) x7 (ix1 j))
          (fun k j => val_main_v252 (F := Ideal) x5 (ix2 k j)) (fun k j => val_main_v257 (F := Ideal) x6 (ix2 k j)) (fun j => val_main_v226 (F := Ideal) x7 (ix1 j))
          (fun j => val_main_v301 (F := Ideal) x10 (ix1 j)) (fun j => val_main_v303 (F := Ideal) x11 (ix1 j))
          (fun k j => x12 (ix2 k j)) (fun j => x13 (ix1 j)) r j := by
  have h260 : (fun (r : Fin 100000) (k : Fin 128) => val_main_v260 (F := Ideal) x0 x1 x2 x3 x4 x5 x6 x7 x8 x9 x10 x11 (ix2 r k))
      = Cert.Sage.pre2P (fun r k => val_main_v201 (F := Ideal) x0 x1 x2 x3 x5 x6 x7 x8 x10 x11 (ix2 r k)) (fun r => val_main_v207 (F := Ideal) x2 (ix1 r))
          (fun r k => val_main_v240 (F := Ideal) x0 x1 x3 x4 x5 x6 x7 x9 x10 x11 (ix2 r k)) (fun r => val_main_v246 (F := Ideal) x3 (ix1 r))
          (fun r k => val_main_v152 (F := Ideal) x0 x1 x2 x3 x5 x6 x7 x8 x10 x11 (ix2 r k))
          (fun k j => val_main_v213 (F := Ideal) x5 (ix2 k j)) (fun k j => val_main_v218 (F := Ideal) x6 (ix2 k j)) (fun j => val_main_v187 (F := Ideal) x7 (ix1 j))
          (fun k j => val_main_v252 (F := Ideal) x5 (ix2 k j)) (fun k j => val_main_v257 (F := Ideal) x6 (ix2 k j)) (fun j => val_main_v226 (F := Ideal) x7 (ix1 j)) :=
    funext fun r => funext fun k => pre_260 x0 x1 x2 x3 x4 x5 x6 x7 x8 x9 x10 x11 r k
  rw [val_main_v361_apply, val_main_v358_apply, bias_360]
  simp only [Ideal.addf_def]
  refine congrArg₂ (· + ·) (Finset.sum_congr rfl fun k _ => ?_) rfl
  rw [show lidx_main_v358 (ix2 r j) k = ix2 r k by idx2, show ridx_main_v358 (ix2 r j) k = ix2 k j by idx2,
    lnrelu_328, h260]

end Cert.ReferenceIdeal.RefValue

end
-- ==== Proof.Host2.lean ====
/-
  The last tiled region's input arrays, as the region finds them, against the reference's stages.

  Before its last region the idealized kernel program computes, on the host, the two layer-1 neighbourhood sums
  over the layer-0 outputs (gathered through a narrower float format, which changes nothing on the extended
  reals), the transposed layer-1 neighbour weights, the transposed SUM of the two layer-1 self-weights, the SUM
  of the two layer-1 biases, the layer-1 layer-norm rows and the head's bias row; the two reciprocal in-degree
  columns are those computed before the first region.  Each is the reference's own stage of the same arguments
  and the same layer-0 outputs, or an entrywise sum or reciprocal of such stages; no gather or scatter is opened.
  With the region's output array as one function of its input arrays, the fused spelling of the last layer and the
  head, and the algebra between the fused and the plain spelling, the region's output array is the reference's
  result.
-/
import proofs.«171430_j23888608100644_2_alg».proof.Proof.Gen.KernelIdeal.Frame
import proofs.«171430_j23888608100644_2_alg».proof.Proof.RefRead
import proofs.«171430_j23888608100644_2_alg».proof.Proof.Spec
import proofs.«171430_j23888608100644_2_alg».proof.Proof.BodyLib
import proofs.«171430_j23888608100644_2_alg».proof.Proof.Walk
import proofs.«171430_j23888608100644_2_alg».proof.Proof.Tile2
import proofs.«171430_j23888608100644_2_alg».proof.Proof.RefHead
import proofs.«171430_j23888608100644_2_alg».proof.Proof.RefFinite
import proofs.«171430_j23888608100644_2_alg».proof.Proof.Laws
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Two small reads -/

/-- A vector of 100000 entries cast to a column reads, at `(r, 0)`, the vector at `r`. -/
theorem col_cast_paper2 (Y : FVec Ideal S100000 .f32) (h : S100000.ShapeCasts S100000x1) (r : Fin 100000) :
    shapeCast S100000x1 Y h (ix2 r 0) = Y (ix1 r) := Cert.KernelIdeal.Body.shapeCast_a_a1_apply Y h r 0

/-- One over the in-degree clipped below at one, entry by entry. -/
theorem inv_read_paper2 (cnt : FVec Ideal S100000 .f32) (hb : S_.BroadcastsInDim S100000 (![] : Fin 0 → Fin S100000.rank)) (r : Fin 100000) :
    Host.divf (broadcastInDim S100000 ![] hb (constant (F := Ideal) S_ .f32 0x3F800000#32))
      (maximumf cnt (broadcastInDim S100000 ![] hb (constant (F := Ideal) S_ .f32 0x3F800000#32))) (ix1 r)
      = Ideal.div Cert.Sage.one (max (cnt (ix1 r)) Cert.Sage.one) := rfl

/-! ## Region 2's thirteen input arrays -/

set_option maxHeartbeats 4000000 in
/-- The layer-0 output of the paper nodes: region 0's output array, which the last stretch does not write. -/
theorem in2_self (h105 : W4 (F := Ideal) m ρ c (Proc.devRef .tc main_v105) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) :
    V5 (F := Ideal) m ρ c (Pipeline.arrRef spec2 4) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  show StableHlo.after hostOps2 (W4 m ρ c) (Proc.devRef .tc main_v105) = _
  after_results_simp
  exact h105

set_option maxHeartbeats 4000000 in
/-- The head's weight: the argument itself. -/
theorem in2_head_w : V5 (F := Ideal) m ρ c (Pipeline.arrRef spec2 11) = (m ((c : Thread nD τ).loc main_arg12)) := by
  show StableHlo.after hostOps2 (W4 m ρ c) (Proc.devRef .tc main_arg12) = _
  after_results_simp
  exact W4_arg12 m ρ c

set_option maxHeartbeats 4000000 in
/-- The transposed layer-1 neighbour weight of the cites edges. -/
theorem in2_wl_cites : V5 (F := Ideal) m ρ c (Pipeline.arrRef spec2 5) = Cert.ReferenceIdeal.Read.val_main_v213 (F := Ideal) (m ((c : Thread nD τ).loc main_arg5)) := by
  show StableHlo.after hostOps2 (W4 m ρ c) (Proc.devRef .tc main_v157) = _
  after_results_simp
  rw [W4_arg5 m ρ c]
  rfl

set_option maxHeartbeats 4000000 in
/-- The transposed layer-1 neighbour weight of the writes edges. -/
theorem in2_wl_writes : V5 (F := Ideal) m ρ c (Pipeline.arrRef spec2 6) = Cert.ReferenceIdeal.Read.val_main_v252 (F := Ideal) (m ((c : Thread nD τ).loc main_arg5)) := by
  show StableHlo.after hostOps2 (W4 m ρ c) (Proc.devRef .tc main_v160) = _
  after_results_simp
  rw [W4_arg5 m ρ c]
  rfl

set_option maxHeartbeats 4000000 in
/-- The layer-1 sum over the citing papers' layer-0 rows: the reference's own gather and scatter of the layer-0
    output. -/
theorem in2_sum_cites (h105 : W4 (F := Ideal) m ρ c (Proc.devRef .tc main_v105) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) :
    V5 (F := Ideal) m ρ c (Pipeline.arrRef spec2 0) = Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  show StableHlo.after hostOps2 (W4 m ρ c) (Proc.devRef .tc main_v139) = _
  after_results_simp
  rw [h105, W4_arg2 m ρ c]
  rfl

set_option maxHeartbeats 4000000 in
/-- The layer-1 sum over the writing authors' layer-0 rows. -/
theorem in2_sum_writes (h122 : W4 (F := Ideal) m ρ c (Proc.devRef .tc main_v122) = Cert.ReferenceIdeal.Read.val_main_v181 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))) :
    V5 (F := Ideal) m ρ c (Pipeline.arrRef spec2 2) = Cert.ReferenceIdeal.Read.val_main_v240 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  show StableHlo.after hostOps2 (W4 m ρ c) (Proc.devRef .tc main_v154) = _
  after_results_simp
  rw [h122, W4_arg3 m ρ c]
  rfl

set_option maxHeartbeats 4000000 in
/-- The transposed SUM of the two layer-1 self-weights is, entry by entry, the sum of the two transposed self-weights. -/
theorem in2_wr (k j : Fin 128) : V5 (F := Ideal) m ρ c (Pipeline.arrRef spec2 7) (ix2 k j)
    = Cert.ReferenceIdeal.Read.val_main_v218 (F := Ideal) (m ((c : Thread nD τ).loc main_arg6)) (ix2 k j) + Cert.ReferenceIdeal.Read.val_main_v257 (F := Ideal) (m ((c : Thread nD τ).loc main_arg6)) (ix2 k j) := by
  show StableHlo.after hostOps2 (W4 m ρ c) (Proc.devRef .tc main_v166) (ix2 k j) = _
  after_results_simp
  rw [W4_arg6 m ρ c]
  refine (transpose_ix2_apply _ _ k j).trans ?_
  refine Eq.trans ?_ (congrArg₂ (· + ·) (transpose_ix2_apply _ _ k j).symm (transpose_ix2_apply _ _ k j).symm)
  rfl

set_option maxHeartbeats 4000000 in
/-- The SUM of the two layer-1 biases, kept as a row, is entry by entry the sum of the two biases. -/
theorem in2_bias (j : Fin 128) : V5 (F := Ideal) m ρ c (Pipeline.arrRef spec2 8) (ix2 0 j)
    = Cert.ReferenceIdeal.Read.val_main_v187 (F := Ideal) (m ((c : Thread nD τ).loc main_arg7)) (ix1 j) + Cert.ReferenceIdeal.Read.val_main_v226 (F := Ideal) (m ((c : Thread nD τ).loc main_arg7)) (ix1 j) := by
  show StableHlo.after hostOps2 (W4 m ρ c) (Proc.devRef .tc main_v172) (ix2 0 j) = _
  after_results_simp
  rw [W4_arg7 m ρ c]
  refine (shapeCast_a_1a_apply _ _ 0 j).trans ?_
  rfl

set_option maxHeartbeats 4000000 in
/-- The layer-1 layer-norm scale, kept as a row. -/
theorem in2_scale (j : Fin 128) : V5 (F := Ideal) m ρ c (Pipeline.arrRef spec2 9) (ix2 0 j) = Cert.ReferenceIdeal.Read.val_main_v301 (F := Ideal) (m ((c : Thread nD τ).loc main_arg10)) (ix1 j) := by
  show StableHlo.after hostOps2 (W4 m ρ c) (Proc.devRef .tc main_v175) (ix2 0 j) = _
  after_results_simp
  rw [W4_arg10 m ρ c]
  refine (shapeCast_a_1a_apply _ _ 0 j).trans ?_
  rfl

set_option maxHeartbeats 4000000 in
/-- The layer-1 layer-norm shift, kept as a row. -/
theorem in2_shift (j : Fin 128) : V5 (F := Ideal) m ρ c (Pipeline.arrRef spec2 10) (ix2 0 j) = Cert.ReferenceIdeal.Read.val_main_v303 (F := Ideal) (m ((c : Thread nD τ).loc main_arg11)) (ix1 j) := by
  show StableHlo.after hostOps2 (W4 m ρ c) (Proc.devRef .tc main_v178) (ix2 0 j) = _
  after_results_simp
  rw [W4_arg11 m ρ c]
  refine (shapeCast_a_1a_apply _ _ 0 j).trans ?_
  rfl

set_option maxHeartbeats 4000000 in
/-- The head's bias, kept as a row. -/
theorem in2_head_b (j : Fin 16) : V5 (F := Ideal) m ρ c (Pipeline.arrRef spec2 12) (ix2 0 j) = (m ((c : Thread nD τ).loc main_arg13)) (ix1 j) := by
  show StableHlo.after hostOps2 (W4 m ρ c) (Proc.devRef .tc main_v179) (ix2 0 j) = _
  after_results_simp
  rw [W4_arg13 m ρ c]
  exact shapeCast_a_1a_apply _ _ 0 j

set_option maxHeartbeats 4000000 in
/-- The reciprocal of the cites in-degree (at least one), kept as a column: computed before the first region and
    untouched since; the count is the reference's layer-1 count stage, the same chain of the same argument. -/
theorem in2_inv_cites (r : Fin 100000) : V5 (F := Ideal) m ρ c (Pipeline.arrRef spec2 1) (ix2 r 0)
    = Ideal.div Cert.Sage.one (max (Cert.ReferenceIdeal.Read.val_main_v207 (F := Ideal) (m ((c : Thread nD τ).loc main_arg2)) (ix1 r)) Cert.Sage.one) := by
  have e0 : V5 (F := Ideal) m ρ c (Pipeline.arrRef spec2 1) = V1 (F := Ideal) m ρ c main_v12 := by
    show StableHlo.after hostOps2 (W4 m ρ c) (Proc.devRef .tc main_v12) = _
    after_results_simp
    exact W4_v12 m ρ c
  have e : V1 (F := Ideal) m ρ c main_v12
      = shapeCast S100000x1 (Host.divf (broadcastInDim S100000 ![] (by decide) (constant (F := Ideal) S_ .f32 0x3F800000#32))
          (maximumf (Cert.ReferenceIdeal.Read.val_main_v207 (F := Ideal) (m ((c : Thread nD τ).loc main_arg2))) (broadcastInDim S100000 ![] (by decide) (constant (F := Ideal) S_ .f32 0x3F800000#32)))) (by decide) := by
    show StableHlo.after hostOps0 (W0 m ρ c) (Proc.devRef .tc main_v12) = _
    after_results_simp
    rfl
  rw [e0, e]
  refine (col_cast_paper2 _ _ r).trans ?_
  exact inv_read_paper2 _ _ r

set_option maxHeartbeats 4000000 in
/-- The reciprocal of the writes in-degree (at least one), kept as a column. -/
theorem in2_inv_writes (r : Fin 100000) : V5 (F := Ideal) m ρ c (Pipeline.arrRef spec2 3) (ix2 r 0)
    = Ideal.div Cert.Sage.one (max (Cert.ReferenceIdeal.Read.val_main_v246 (F := Ideal) (m ((c : Thread nD τ).loc main_arg3)) (ix1 r)) Cert.Sage.one) := by
  have e0 : V5 (F := Ideal) m ρ c (Pipeline.arrRef spec2 3) = V1 (F := Ideal) m ρ c main_v23 := by
    show StableHlo.after hostOps2 (W4 m ρ c) (Proc.devRef .tc main_v23) = _
    after_results_simp
    exact W4_v23 m ρ c
  have e : V1 (F := Ideal) m ρ c main_v23
      = shapeCast S100000x1 (Host.divf (broadcastInDim S100000 ![] (by decide) (constant (F := Ideal) S_ .f32 0x3F800000#32))
          (maximumf (Cert.ReferenceIdeal.Read.val_main_v246 (F := Ideal) (m ((c : Thread nD τ).loc main_arg3))) (broadcastInDim S100000 ![] (by decide) (constant (F := Ideal) S_ .f32 0x3F800000#32)))) (by decide) := by
    show StableHlo.after hostOps0 (W0 m ρ c) (Proc.devRef .tc main_v23) = _
    after_results_simp
    rfl
  rw [e0, e]
  refine (col_cast_paper2 _ _ r).trans ?_
  exact inv_read_paper2 _ _ r

/-! ## The region's output array is the reference's result -/

set_option maxHeartbeats 4000000 in
/-- THE LAST REGION: where the layer-0 outputs it reads are the reference's and the paper nodes' layer-0 output and
    the self-weights are finite, the array it leaves is the reference's result. -/
theorem layer1_head (h105 : W4 (F := Ideal) m ρ c (Proc.devRef .tc main_v105) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)))
    (h122 : W4 (F := Ideal) m ρ c (Proc.devRef .tc main_v122) = Cert.ReferenceIdeal.Read.val_main_v181 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)))
    (hx : ∀ i, ∃ a : ℝ, Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) i = (a : EReal))
    (hx6 : ∀ i, ∃ a : ℝ, (m ((c : Thread nD τ).loc main_arg6)) i = (a : EReal)) :
    (dat2 (V5 (F := Ideal) m ρ) c).arrAt 13 cfg2.N = Cert.ReferenceIdeal.Read.val_main_v361 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KernelIdeal.Tiles.arr2, in2_sum_cites m ρ c h105, in2_sum_writes m ρ c h122, in2_self m ρ c h105,
    in2_wl_cites m ρ c, in2_wl_writes m ρ c, in2_head_w m ρ c]
  funext i
  obtain ⟨r, j, rfl⟩ : ∃ (r : Fin 100000) (j : Fin 16), i = ix2 r j := ⟨i 0, i 1, eq_ix2 i⟩
  refine Eq.trans ?_ (Cert.ReferenceIdeal.RefValue.ref_head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) r j).symm
  unfold Cert.KernelIdeal.Tiles.paperLogits
  simp only [in2_inv_cites m ρ c, in2_inv_writes m ρ c, in2_wr m ρ c, in2_bias m ρ c, in2_scale m ρ c, in2_shift m ρ c,
    in2_head_b m ρ c]
  exact congrFun (congrFun (Cert.Sage.head_fused_eq_plain
    (fun r k => Cert.ReferenceIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (ix2 r k)) (fun r => Cert.ReferenceIdeal.Read.val_main_v207 (F := Ideal) (m ((c : Thread nD τ).loc main_arg2)) (ix1 r))
    (fun r k => Cert.ReferenceIdeal.Read.val_main_v240 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (ix2 r k)) (fun r => Cert.ReferenceIdeal.Read.val_main_v246 (F := Ideal) (m ((c : Thread nD τ).loc main_arg3)) (ix1 r))
    (fun r k => Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (ix2 r k))
    (fun k j => Cert.ReferenceIdeal.Read.val_main_v213 (F := Ideal) (m ((c : Thread nD τ).loc main_arg5)) (ix2 k j)) (fun k j => Cert.ReferenceIdeal.Read.val_main_v218 (F := Ideal) (m ((c : Thread nD τ).loc main_arg6)) (ix2 k j)) (fun j => Cert.ReferenceIdeal.Read.val_main_v187 (F := Ideal) (m ((c : Thread nD τ).loc main_arg7)) (ix1 j))
    (fun k j => Cert.ReferenceIdeal.Read.val_main_v252 (F := Ideal) (m ((c : Thread nD τ).loc main_arg5)) (ix2 k j)) (fun k j => Cert.ReferenceIdeal.Read.val_main_v257 (F := Ideal) (m ((c : Thread nD τ).loc main_arg6)) (ix2 k j)) (fun j => Cert.ReferenceIdeal.Read.val_main_v226 (F := Ideal) (m ((c : Thread nD τ).loc main_arg7)) (ix1 j))
    (fun j => Cert.ReferenceIdeal.Read.val_main_v301 (F := Ideal) (m ((c : Thread nD τ).loc main_arg10)) (ix1 j)) (fun j => Cert.ReferenceIdeal.Read.val_main_v303 (F := Ideal) (m ((c : Thread nD τ).loc main_arg11)) (ix1 j))
    (fun k j => (m ((c : Thread nD τ).loc main_arg12)) (ix2 k j)) (fun j => (m ((c : Thread nD τ).loc main_arg13)) (ix1 j))
    (fun r k => hx _) (fun k j => Cert.ReferenceIdeal.RefValue.finite_218 (m ((c : Thread nD τ).loc main_arg6)) hx6 _)
    (fun k j => Cert.ReferenceIdeal.RefValue.finite_257 (m ((c : Thread nD τ).loc main_arg6)) hx6 _)) r) j

end Cert.Bridge

end
-- ==== Proof.PreReal.lean ====
/-
  The precondition "every float input is finite", decoded.

  The precondition is printed as one bit: for each float input the test `|x| < +inf` at every entry, reduced over the
  whole array by `and`, and the tests of the inputs joined by `and`. If the bit is 1 then every conjunct is 1, every
  entry of every tested array passes its test, and an extended real whose absolute value is below `+inf` is a real
  number (the two infinities have absolute value `+inf`). So every entry of every float input is a real number.
-/
import proofs.«171430_j23888608100644_2_alg».proof.Pre_finite_inputs
import proofs.«171430_j23888608100644_2_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx Cert.Pre_finite_inputs Cert.Pre_finite_inputs.Facts

/-- The scalar shape has one index. -/
instance : Subsingleton (⟨0, ![]⟩ : Shape).Idx := ⟨fun a b => funext fun d => d.elim0⟩

/-- The word `0x7F800000` denotes `+inf`. -/
theorem inf_eq : Ideal.ofBits .f32 0x7F800000#32 = ⊤ := by
  simp [Ideal.ofBits, Ideal.ieee]

/-- An extended real whose absolute value compares below `+inf` is a real number. -/
theorem real_of_abs_lt_top (a : EReal) (h : Ideal.cmp .olt (max a (-a)) ⊤ = 1#1) : ∃ r : ℝ, a = (r : EReal) := by
  induction a using EReal.rec with
  | bot => exfalso; simp [Ideal.cmp] at h
  | coe r => exact ⟨r, rfl⟩
  | top => exfalso; simp [Ideal.cmp] at h

/-- An array all of whose entries pass the test `|x| < +inf` — the test reduced by `and` over the whole array is 1 —
    has only real entries. -/
theorem real_of_all {s : Shape} {axes : List (Fin s.rank)} (dims : Fin (⟨0, ![]⟩ : Shape).rank → Fin s.rank)
    (hb : (⟨0, ![]⟩ : Shape).BroadcastsInDim s dims) (hr : s.ReducesTo axes ⟨0, ![]⟩)
    (hu : 0 < (⟨0, ![]⟩ : Shape).numel) (x : FVec Ideal s .f32)
    (h : Host.reduce IntOp.andi
        (cmpf .olt (Host.absf x) (broadcastInDim s dims hb (constant (F := Ideal) ⟨0, ![]⟩ .f32 0x7F800000#32)))
        (constantI ⟨0, ![]⟩ 1 1#1) hr hu ix0 = 1#1) :
    ∀ i, ∃ a : ℝ, x i = (a : EReal) := by
  intro i
  have e := Host.reduce_andi_all _ _ hr hu ix0 h i
  refine real_of_abs_lt_top (x i) ?_
  rw [← inf_eq]
  exact e

/-- THE PRECONDITION DECODED: where the printed predicate is 1, every entry of the float inputs is a real number. -/
theorem real_of_pre [Cert.Pre_finite_inputs.Facts]
    (x0 : FVec Ideal S100000x128 .f32) (x1 : FVec Ideal S50000x128 .f32) (x2 x3 x4 : IVec S2x500000 32)
    (x5 x6 : FVec Ideal S2x3x128x128 .f32) (x7 : FVec Ideal S2x3x128 .f32) (x8 x9 : FVec Ideal S128x128 .f32)
    (x10 x11 : FVec Ideal S2x2x128 .f32) (x12 : FVec Ideal S128x16 .f32) (x13 : FVec Ideal S16 .f32)
    (h : Cert.Pre_finite_inputs.fn (F := Ideal) x0 x1 x2 x3 x4 x5 x6 x7 x8 x9 x10 x11 x12 x13 = fun _ => 1#1) :
    (∀ i, ∃ a : ℝ, x0 i = (a : EReal)) ∧ (∀ i, ∃ a : ℝ, x1 i = (a : EReal)) ∧ (∀ i, ∃ a : ℝ, x5 i = (a : EReal))
      ∧ (∀ i, ∃ a : ℝ, x6 i = (a : EReal)) ∧ (∀ i, ∃ a : ℝ, x7 i = (a : EReal)) ∧ (∀ i, ∃ a : ℝ, x8 i = (a : EReal))
      ∧ (∀ i, ∃ a : ℝ, x10 i = (a : EReal)) ∧ (∀ i, ∃ a : ℝ, x11 i = (a : EReal)) := by
  have h' := congrFun h ix0
  simp only [fn, fn_part1, fn_part2, fn_part3, Idealize.ShloMosaic.andi, IntOp.andi_eq_one] at h'
  obtain ⟨⟨⟨⟨⟨⟨⟨⟨⟨⟨h0, h1⟩, h5⟩, h6⟩, h7⟩, h8⟩, h9⟩, h10⟩, h11⟩, h12⟩, h13⟩ := h'
  exact ⟨real_of_all _ _ _ _ x0 h0, real_of_all _ _ _ _ x1 h1, real_of_all _ _ _ _ x5 h5, real_of_all _ _ _ _ x6 h6,
    real_of_all _ _ _ _ x7 h7, real_of_all _ _ _ _ x8 h8, real_of_all _ _ _ _ x10 h10, real_of_all _ _ _ _ x11 h11⟩

end Cert.PreReal

end
-- ==== Proof.LawsReal.lean ====
/-
  The plain spelling of a hidden layer takes real inputs to real outputs, whatever the in-degrees.

  Sums, differences, products and maxima of real numbers are real. Dividing a real number by a clipped degree
  `max c 1` multiplies it by the reciprocal, and the reciprocal of EVERY extended real is real (that of an infinity is
  zero), so the in-degrees may be arbitrary extended reals. The mean of a real row is real; its variance is a real
  number that is not negative, so adding the positive constant gives a positive real, whose reciprocal square root
  is real.
-/
import proofs.«171430_j23888608100644_2_alg».proof.Proof.Laws

noncomputable section

namespace Cert.Sage

open Idealize.ShloMosaic

/-! ## Real and non-negative real extended reals -/

/-- An extended real that is a real number. -/
abbrev IsReal (a : EReal) : Prop := ∃ r : ℝ, a = (r : EReal)

/-- An extended real that is a real number and not negative. -/
abbrev IsNonnegReal (a : EReal) : Prop := ∃ v : ℝ, 0 ≤ v ∧ a = (v : EReal)

theorem isReal_add {a b : EReal} (ha : IsReal a) (hb : IsReal b) : IsReal (a + b) := by
  obtain ⟨a, rfl⟩ := ha
  obtain ⟨b, rfl⟩ := hb
  exact ⟨a + b, (EReal.coe_add a b).symm⟩

theorem isReal_sub {a b : EReal} (ha : IsReal a) (hb : IsReal b) : IsReal (a - b) := by
  obtain ⟨a, rfl⟩ := ha
  obtain ⟨b, rfl⟩ := hb
  exact ⟨a - b, (EReal.coe_sub a b).symm⟩

theorem isReal_mul {a b : EReal} (ha : IsReal a) (hb : IsReal b) : IsReal (a * b) := by
  obtain ⟨a, rfl⟩ := ha
  obtain ⟨b, rfl⟩ := hb
  exact ⟨a * b, (EReal.coe_mul a b).symm⟩

theorem isReal_max {a b : EReal} (ha : IsReal a) (hb : IsReal b) : IsReal (max a b) := by
  rcases le_total a b with h | h
  · rw [max_eq_right h]; exact hb
  · rw [max_eq_left h]; exact ha

/-- A finite sum of real numbers is real. -/
theorem isReal_sum {K : Type} [Fintype K] {f : K → EReal} (h : ∀ k, IsReal (f k)) : IsReal (∑ k, f k) :=
  Finset.sum_induction f IsReal (fun _ _ => isReal_add) ⟨0, EReal.coe_zero.symm⟩ (fun k _ => h k)

theorem isNonnegReal_add {a b : EReal} (ha : IsNonnegReal a) (hb : IsNonnegReal b) : IsNonnegReal (a + b) := by
  obtain ⟨a, ha, rfl⟩ := ha
  obtain ⟨b, hb, rfl⟩ := hb
  exact ⟨a + b, add_nonneg ha hb, (EReal.coe_add a b).symm⟩

/-- The square of a real number is a real number that is not negative. -/
theorem isNonnegReal_mul_self {a : EReal} (ha : IsReal a) : IsNonnegReal (a * a) := by
  obtain ⟨a, rfl⟩ := ha
  exact ⟨a * a, mul_self_nonneg a, (EReal.coe_mul a a).symm⟩

/-- The reciprocal of every extended real is a real number (that of an infinity is zero). -/
theorem isReal_inv (y : EReal) : IsReal y⁻¹ := by
  induction y using EReal.rec with
  | bot => exact ⟨0, by rw [EReal.inv_bot, EReal.coe_zero]⟩
  | coe y => exact ⟨y⁻¹, (EReal.coe_inv y).symm⟩
  | top => exact ⟨0, by rw [EReal.inv_top, EReal.coe_zero]⟩

/-! ## The constants -/

/-- The word `0x00000000` denotes zero. -/
theorem zero_eq : zero = 0 := by
  show Ideal.ofBits .f32 0x00000000#32 = 0
  simp [Ideal.ofBits, Ideal.ieee]

/-- The word `0x43000000` denotes the real number 128. -/
theorem width_eq : width = ((128 : ℝ) : EReal) := by
  show Ideal.ofBits .f32 0x43000000#32 = _
  simp [Ideal.ofBits, Ideal.ieee, -EReal.coe_mul]; norm_num

/-- The word `0x3727C5AC` denotes a positive real number. -/
theorem eps_pos_real : ∃ e : ℝ, 0 < e ∧ eps = (e : EReal) := by
  refine ⟨10995116 * (2 : ℝ) ^ (-40 : ℤ), by positivity, ?_⟩
  show Ideal.ofBits .f32 0x3727C5AC#32 = _
  simp [Ideal.ofBits, Ideal.ieee, -EReal.coe_mul]

/-! ## Division -/

/-- A real number divided by a clipped degree is real, whatever the degree. -/
theorem isReal_div_max_one {s : EReal} (c : EReal) (hs : IsReal s) : IsReal (Ideal.div s (max c one)) := by
  unfold Ideal.div
  rw [if_neg (max_one_ne_zero c)]
  exact isReal_mul hs (isReal_inv _)

/-- A real number divided by the row width is real. -/
theorem isReal_div_width {a : EReal} (ha : IsReal a) : IsReal (Ideal.div a width) := by
  rw [width_eq, Ideal.div_coe (by norm_num : (128 : ℝ) ≠ 0)]
  exact isReal_mul ha ⟨_, rfl⟩

/-- A real number that is not negative, divided by the row width, is again one. -/
theorem isNonnegReal_div_width {a : EReal} (ha : IsNonnegReal a) : IsNonnegReal (Ideal.div a width) := by
  obtain ⟨v, hv, rfl⟩ := ha
  rw [width_eq, Ideal.div_coe (by norm_num : (128 : ℝ) ≠ 0), ← EReal.coe_mul]
  exact ⟨v * (1 / 128), by positivity, rfl⟩

/-! ## The stages of a layer -/

section
variable {R : Type}

/-- Real rows times a real matrix. -/
theorem mm_real {K J : Type} [Fintype K] (a : R → K → EReal) (W : K → J → EReal) (ha : ∀ r k, IsReal (a r k))
    (hW : ∀ k j, IsReal (W k j)) : ∀ r j, IsReal (mm a W r j) :=
  fun r j => isReal_sum fun k => isReal_mul (ha r k) (hW k j)

/-- One edge type's convolution of real sums, features, weights and bias is real, whatever the in-degrees. -/
theorem conv_real (s : R → Fin 128 → EReal) (cnt : R → EReal) (x : R → Fin 128 → EReal)
    (Wl Wr : Fin 128 → Fin 128 → EReal) (b : Fin 128 → EReal) (hs : ∀ r k, IsReal (s r k))
    (hx : ∀ r k, IsReal (x r k)) (hWl : ∀ k j, IsReal (Wl k j)) (hWr : ∀ k j, IsReal (Wr k j))
    (hb : ∀ j, IsReal (b j)) : ∀ r j, IsReal (conv s cnt x Wl Wr b r j) :=
  fun r j => isReal_add
    (isReal_add (mm_real _ Wl (fun r k => isReal_div_max_one (cnt r) (hs r k)) hWl r j) (hb j))
    (mm_real x Wr hx hWr r j)

/-- The residual map of a real array by a real matrix is real. -/
theorem resid_real (p : R → Fin 128 → EReal) (lin : Fin 128 → Fin 128 → EReal) (hp : ∀ r k, IsReal (p r k))
    (hlin : ∀ k j, IsReal (lin k j)) : ∀ r j, IsReal (resid p lin r j) :=
  fun r j => isReal_add (hp r j) (mm_real p lin hp hlin r j)

/-- The mean of a real row is real. -/
theorem rowMean_real (q : R → Fin 128 → EReal) (hq : ∀ r k, IsReal (q r k)) : ∀ r, IsReal (rowMean q r) :=
  fun r => isReal_div_width (isReal_sum fun k => hq r k)

/-- The variance of a real row is a real number that is not negative. -/
theorem rowVar_nonneg_real (q : R → Fin 128 → EReal) (hq : ∀ r k, IsReal (q r k)) :
    ∀ r, IsNonnegReal (rowVar q r) :=
  fun r => isNonnegReal_div_width
    (Finset.sum_induction _ IsNonnegReal (fun _ _ => isNonnegReal_add) ⟨0, le_refl 0, EReal.coe_zero.symm⟩
      (fun k _ => isNonnegReal_mul_self (isReal_sub (hq r k) (rowMean_real q hq r))))

/-- The reciprocal square root of the variance plus the positive constant is real. -/
theorem rstd_real (q : R → Fin 128 → EReal) (hq : ∀ r k, IsReal (q r k)) :
    ∀ r, IsReal (Ideal.rsqrt (rowVar q r + eps)) := by
  intro r
  obtain ⟨v, hv, hv'⟩ := rowVar_nonneg_real q hq r
  obtain ⟨e, he, he'⟩ := eps_pos_real
  have hpos : 0 < v + e := add_pos_of_nonneg_of_pos hv he
  rw [hv', he', ← EReal.coe_add, Ideal.rsqrt_coe, if_neg (not_lt.mpr hpos.le), if_neg hpos.ne']
  exact ⟨_, rfl⟩

/-- Layer norm of a real array with real scale and shift, followed by the positive part, is real. -/
theorem lnRelu_real (q : R → Fin 128 → EReal) (g b : Fin 128 → EReal) (hq : ∀ r k, IsReal (q r k))
    (hg : ∀ j, IsReal (g j)) (hb : ∀ j, IsReal (b j)) : ∀ r j, IsReal (lnRelu q g b r j) :=
  fun r j => isReal_max
    (isReal_add (isReal_mul (isReal_mul (isReal_sub (hq r j) (rowMean_real q hq r)) (rstd_real q hq r)) (hg j)) (hb j))
    ⟨0, zero_eq.trans EReal.coe_zero.symm⟩

/-- (L4) The plain hidden layer at a node of two edge types takes real sums, features, weights, biases, residual
    matrix, scale and shift to real outputs; the in-degrees are arbitrary extended reals. -/
theorem hidden2P_real (s1 : R → Fin 128 → EReal) (c1 : R → EReal) (s2 : R → Fin 128 → EReal) (c2 : R → EReal)
    (x : R → Fin 128 → EReal) (Wl1 Wr1 : Fin 128 → Fin 128 → EReal) (b1 : Fin 128 → EReal)
    (Wl2 Wr2 : Fin 128 → Fin 128 → EReal) (b2 : Fin 128 → EReal) (lin : Fin 128 → Fin 128 → EReal)
    (g β : Fin 128 → EReal)
    (hs1 : ∀ r k, ∃ a : ℝ, s1 r k = (a : EReal)) (hs2 : ∀ r k, ∃ a : ℝ, s2 r k = (a : EReal))
    (hx : ∀ r k, ∃ a : ℝ, x r k = (a : EReal))
    (hWl1 : ∀ k j, ∃ a : ℝ, Wl1 k j = (a : EReal)) (hWr1 : ∀ k j, ∃ a : ℝ, Wr1 k j = (a : EReal))
    (hWl2 : ∀ k j, ∃ a : ℝ, Wl2 k j = (a : EReal)) (hWr2 : ∀ k j, ∃ a : ℝ, Wr2 k j = (a : EReal))
    (hlin : ∀ k j, ∃ a : ℝ, lin k j = (a : EReal))
    (hb1 : ∀ j, ∃ a : ℝ, b1 j = (a : EReal)) (hb2 : ∀ j, ∃ a : ℝ, b2 j = (a : EReal))
    (hg : ∀ j, ∃ a : ℝ, g j = (a : EReal)) (hβ : ∀ j, ∃ a : ℝ, β j = (a : EReal)) :
    ∀ r j, ∃ a : ℝ, hidden2P s1 c1 s2 c2 x Wl1 Wr1 b1 Wl2 Wr2 b2 lin g β r j = (a : EReal) := by
  have hpre : ∀ r k, IsReal (pre2P s1 c1 s2 c2 x Wl1 Wr1 b1 Wl2 Wr2 b2 r k) := fun r k =>
    isReal_add (conv_real s1 c1 x Wl1 Wr1 b1 hs1 hx hWl1 hWr1 hb1 r k) (conv_real s2 c2 x Wl2 Wr2 b2 hs2 hx hWl2 hWr2 hb2 r k)
  exact lnRelu_real _ g β (resid_real _ lin hpre hlin) hg hβ

end

end Cert.Sage

end
-- ==== Proof.Result.lean ====
/-
  The idealized kernel program's result is the reference's result stage of the same arguments.

  Where every float input is finite: the first region leaves the paper nodes' hidden layer, the second the
  author nodes', and both survive the later stretches and regions untouched; the paper nodes' hidden layer is a
  finite array (sums of finite rows scaled by reciprocal in-degrees, finite weights, a layer norm whose variance
  plus epsilon is positive), which is what the last layer's fusion of the two self-weights needs; so the third
  region leaves the reference's logits.
-/
import proofs.«171430_j23888608100644_2_alg».proof.Proof.Gen.KernelIdeal.Frame
import proofs.«171430_j23888608100644_2_alg».proof.Proof.RefRead
import proofs.«171430_j23888608100644_2_alg».proof.Proof.Spec
import proofs.«171430_j23888608100644_2_alg».proof.Proof.BodyLib
import proofs.«171430_j23888608100644_2_alg».proof.Proof.Walk
import proofs.«171430_j23888608100644_2_alg».proof.Proof.Bridge0
import proofs.«171430_j23888608100644_2_alg».proof.Proof.Host1
import proofs.«171430_j23888608100644_2_alg».proof.Proof.Host2
import proofs.«171430_j23888608100644_2_alg».proof.Proof.PreReal
import proofs.«171430_j23888608100644_2_alg».proof.Proof.LawsReal
import proofs.«171430_j23888608100644_2_alg».proof.Proof.RefFinite
import proofs.«171430_j23888608100644_2_alg».proof.Proof.RefHidden
import proofs.«171430_j23888608100644_2_alg».proof.Defs
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The paper nodes' hidden layer is a finite array when the float inputs are. -/
theorem hidden_paper_real
    (hx0 : ∀ i, ∃ a : ℝ, (m ((c : Thread nD τ).loc main_arg0)) i = (a : EReal)) (hx1 : ∀ i, ∃ a : ℝ, (m ((c : Thread nD τ).loc main_arg1)) i = (a : EReal))
    (hx5 : ∀ i, ∃ a : ℝ, (m ((c : Thread nD τ).loc main_arg5)) i = (a : EReal)) (hx6 : ∀ i, ∃ a : ℝ, (m ((c : Thread nD τ).loc main_arg6)) i = (a : EReal))
    (hx7 : ∀ i, ∃ a : ℝ, (m ((c : Thread nD τ).loc main_arg7)) i = (a : EReal)) (hx8 : ∀ i, ∃ a : ℝ, (m ((c : Thread nD τ).loc main_arg8)) i = (a : EReal))
    (hx10 : ∀ i, ∃ a : ℝ, (m ((c : Thread nD τ).loc main_arg10)) i = (a : EReal)) (hx11 : ∀ i, ∃ a : ℝ, (m ((c : Thread nD τ).loc main_arg11)) i = (a : EReal)) :
    ∀ i, ∃ a : ℝ, Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) i = (a : EReal) := by
  intro i
  obtain ⟨r, j, rfl⟩ : ∃ (r : Fin 100000) (j : Fin 128), i = ix2 r j := ⟨i 0, i 1, eq_ix2 i⟩
  rw [Cert.ReferenceIdeal.RefValue.ref_paper0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) r j]
  exact Cert.Sage.hidden2P_real _ _ _ _ _ _ _ _ _ _ _ _ _ _
    (fun r k => Cert.ReferenceIdeal.RefValue.finite_19 _ _ hx0 _) (fun r k => Cert.ReferenceIdeal.RefValue.finite_58 _ _ hx1 _) (fun r k => hx0 _)
    (fun k j => Cert.ReferenceIdeal.RefValue.finite_31 _ hx5 _) (fun k j => Cert.ReferenceIdeal.RefValue.finite_36 _ hx6 _)
    (fun k j => Cert.ReferenceIdeal.RefValue.finite_70 _ hx5 _) (fun k j => Cert.ReferenceIdeal.RefValue.finite_75 _ hx6 _)
    (fun k j => Cert.ReferenceIdeal.RefValue.finite_118 _ hx8 _)
    (fun j => Cert.ReferenceIdeal.RefValue.finite_5 _ hx7 _) (fun j => Cert.ReferenceIdeal.RefValue.finite_44 _ hx7 _)
    (fun j => Cert.ReferenceIdeal.RefValue.finite_125 _ hx10 _) (fun j => Cert.ReferenceIdeal.RefValue.finite_127 _ hx11 _) r j

/-- The kernel's result buffer at the end of the fold through its three regions is the reference's result stage
    of the argument arrays, where the precondition holds. -/
theorem kernel_result (hpre : Cert.Pre_KernelIdeal m) :
    W6 (F := Ideal) m ρ c (Proc.devRef .tc main_v180) = Cert.ReferenceIdeal.Read.val_main_v361 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨hx0, hx1, hx5, hx6, hx7, hx8, hx10, hx11⟩ := Cert.PreReal.real_of_pre _ _ _ _ _ _ _ _ _ _ _ _ _ _ (hpre c)
  have h152 := layer0_paper m ρ c hx0 hx6
  have h105 : W4 (F := Ideal) m ρ c (Proc.devRef .tc main_v105) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) :=
    (W4_v105 m ρ c).trans ((W2_v105 m ρ c).trans h152)
  have h122 : W4 (F := Ideal) m ρ c (Proc.devRef .tc main_v122) = Cert.ReferenceIdeal.Read.val_main_v181 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) :=
    (W4_v122 m ρ c).trans (layer0_author m ρ c)
  exact (W6_v180 m ρ c).trans (layer1_head m ρ c h105 h122 (hidden_paper_real m c hx0 hx1 hx5 hx6 hx7 hx8 hx10 hx11) hx6)

end Cert.Bridge

end
-- ==== Proof.lean ====
/-
  The certificate of a two-layer heterogeneous GraphSAGE network: a tiled kernel program (three tiled regions
  among host operations) against a plain reference.

  Frames.  The two kernel programs' frames are the generated frame certificates.  The reference's frame is its
  run with the result dropped.
  The idealization rewrote no operation, so there is nothing to preserve.
  Value.  On the extended reals, where every float input is finite, both programs end with the same logits:
  the kernel program's result buffer, at the end of the fold through its three regions, holds the reference's
  result stage of the argument arrays (Proof/Result.lean), and so does the reference's after its run
  (Proof/RefRunStaged.lean); the two memories agree on the arguments.
-/
import proofs.«171430_j23888608100644_2_alg».proof.Defs
import proofs.«171430_j23888608100644_2_alg».proof.Proof.Gen.Kernel
import proofs.«171430_j23888608100644_2_alg».proof.Proof.Gen.Kernel.Skeleton
import proofs.«171430_j23888608100644_2_alg».proof.Proof.Gen.Kernel.Launch
import proofs.«171430_j23888608100644_2_alg».proof.Proof.Gen.Kernel.Points
import proofs.«171430_j23888608100644_2_alg».proof.Proof.Gen.Kernel.Frame
import proofs.«171430_j23888608100644_2_alg».proof.Proof.Gen.KernelIdeal
import proofs.«171430_j23888608100644_2_alg».proof.Proof.Gen.KernelIdeal.Skeleton
import proofs.«171430_j23888608100644_2_alg».proof.Proof.Gen.KernelIdeal.Launch
import proofs.«171430_j23888608100644_2_alg».proof.Proof.Gen.KernelIdeal.Points
import proofs.«171430_j23888608100644_2_alg».proof.Proof.Gen.KernelIdeal.Frame
import proofs.«171430_j23888608100644_2_alg».proof.Proof.Gen.ReferenceIdeal
import proofs.«171430_j23888608100644_2_alg».proof.Proof.Gen.Pre_finite_inputs
import proofs.«171430_j23888608100644_2_alg».proof.Proof.KernelRun
import proofs.«171430_j23888608100644_2_alg».proof.Proof.RefRunStaged
import proofs.«171430_j23888608100644_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Staged.run (F := Ideal) m ρ)

theorem preserves : Cert.preserves_Kernel_KernelIdeal := trivial

set_option maxHeartbeats 1000000 in
/-- Both idealized programs end with the reference's result stage of the (shared) argument arrays. -/
theorem algebraic : Cert.algebraic_KernelIdeal_ReferenceIdeal := by
  intro m ρ m' ρ' hpre hagree
  refine ⟨fun c => Cert.ReferenceIdeal.Read.val_main_v361 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.Bridge.kernel_result m ρ c hpre), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Staged.run (F := Ideal) m' ρ')
    obtain ⟨a0, a1, a2, a3, a4, a5, a6, a7, a8, a9, a10, a11, a12, a13⟩ := hagree c
    rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
